-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024x512 : Shape := ⟨3, ![1, 1024, 512]⟩
abbrev S1x1024 : Shape := ⟨2, ![1, 1024]⟩

abbrev nBuf : Space → Nat
  | .hbm => 28
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x3072, .f32⟩
  | .hbm, ⟨15, _⟩ => ⟨S1024x3072, .bf16⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S3072, .f32⟩
  | .hbm, ⟨20, _⟩ => ⟨S1x3072, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S4x2048x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  bcast_S_S1024 : S_.BroadcastsInDim S1024 (![] : Fin 0 → Fin S1024.rank)
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  dot_S512x1024_S1024x3072_S512x3072_1_0_0_1_n_n_wf : DotDims.WF S512x1024 S1024x3072 S512x3072 [1] [0] [0] [1] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KBodyI.lean ====
import proofs.«132284_j80900003987672_2_alg».proof.Proof.Gen.KernelIdeal.Launch
import proofs.«132284_j80900003987672_2_alg».proof.Proof.Gen.KernelIdeal.Skeleton
import proofs.«132284_j80900003987672_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three offsets of a whole-buffer access are zero. -/
theorem hz3 : (![0, 0, 0] : Fin 3 → Nat) = fun _ => 0 := by funext a; fin_cases a <;> rfl
theorem hz2 : (![0, 0] : Fin 2 → Nat) = fun _ => 0 := by funext a; fin_cases a <;> rfl

/-- A buffer whose last store went through the whole-shape rectangle holds that store's value. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P :=
  (View.read_writes_eq_canon v f _ (fun y => ⟨_, List.mem_cons_self, View.mem_set_unit_zero h inb y⟩)).trans
    (View.canon_cons_unit_zero h inb P L)

/-- The branch taken at the first key block of a row of the grid (the running state is reset there). -/
abbrev cond1_0 (i : grid1.Coords) : Prop := (Scalar.cmpi .ne (Scalar.extui (Scalar.cmpi .eq (BitVec.ofNat 32 (i 2).val) 0#32)) 0#32) = 1#1
/-- The branch taken at the last key block (the result is written there). -/
abbrev cond1_1 (i : grid1.Coords) : Prop := k1_cond2 i = 1#1

/-- The running maximum after a key block: the larger of the old maximum and the block's row maxima. -/
def stepM (x0 : Vec F S1x1024x1024 .bf16) (x1 : Vec F S1x512x1024 .bf16) (s0 : Vec F S1x1024x1 .f32) : Vec F S1x1024x1 .f32 :=
  k1_pay2 (k1_pay9 x0 x1 s0)
/-- The running denominator after a key block: the old one rescaled to the new maximum plus the block's row sums. -/
def stepL (x0 : Vec F S1x1024x1024 .bf16) (x1 : Vec F S1x512x1024 .bf16) (s0 s1 : Vec F S1x1024x1 .f32) : Vec F S1x1024x1 .f32 :=
  k1_pay12 x0 x1 s0 s0 s1
/-- The running numerator after a key block: the old one rescaled plus the block's weights times its values. -/
def stepA (x0 : Vec F S1x1024x1024 .bf16) (x1 x2 : Vec F S1x512x1024 .bf16) (s0 : Vec F S1x1024x1 .f32) (s2 : Vec F S1x1024x1024 .f32) : Vec F S1x1024x1024 .f32 :=
  k1_pay1 (k1_pay7 x2) (k1_pay10 x0 x1 s0 s0) (k1_pay11 x0 x1 s0) s2
/-- The result block: numerator over denominator. -/
def outO (a : Vec F S1x1024x1024 .f32) (l : Vec F S1x1024x1 .f32) : Vec F S1x1024x1024 .f32 := k1_pay3 a l

set_option maxHeartbeats 4000000 in
/-- The projection body: one block of rows times the whole concatenated weight matrix plus the bias row, its three
    column thirds stored into the three result blocks. -/
theorem run0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare (k0_pay3 x0 x1 x2)
            ∗ owns (c : Thread nD τ) arg6 fullShare (k0_pay4 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl
  isplitl [H4]
  · iexists _; isplitr
    swap; · iexact H4
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl
  · iexists _; isplitr
    swap; · iexact H5
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl

set_option maxHeartbeats 4000000 in
/-- A middle key block: the running state (maximum, denominator, numerator) is read, updated and stored; the
    result block is not touched. -/
theorem runB (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : ¬cond1_0 i) (hc1 : ¬cond1_1 i)
    (x0 : Vec F S1x1024x1024 .bf16) (x1 x2 : Vec F S1x512x1024 .bf16) (s0 s1 : Vec F S1x1024x1 .f32) (s2 : Vec F S1x1024x1024 .f32)
    (d3 : Vec F S1x1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare d3
            ∗ owns (c : Thread nD τ) arg7 fullShare (stepM x0 x1 s0) ∗ owns (c : Thread nD τ) arg8 fullShare (stepL x0 x1 s0 s1)
            ∗ owns (c : Thread nD τ) arg9 fullShare (stepA x0 x1 x2 s0 s2)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

set_option maxHeartbeats 4000000 in
/-- The first key block of a row of the grid: the running state is reset (maximum −∞, sums zero), then updated as at
    any block; the result block is not touched. -/
theorem runA (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : cond1_0 i) (hc1 : ¬cond1_1 i)
    (x0 : Vec F S1x1024x1024 .bf16) (x1 x2 : Vec F S1x512x1024 .bf16)
    (d3 : Vec F S1x1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare d3
            ∗ owns (c : Thread nD τ) arg7 fullShare (stepM x0 x1 k1_pay4) ∗ owns (c : Thread nD τ) arg8 fullShare (stepL x0 x1 k1_pay4 k1_pay5)
            ∗ owns (c : Thread nD τ) arg9 fullShare (stepA x0 x1 x2 k1_pay4 k1_pay6)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

set_option maxHeartbeats 4000000 in
/-- The last key block: the running state is updated, then the result block is stored: numerator over denominator. -/
theorem runC (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : ¬cond1_0 i) (hc1 : cond1_1 i)
    (x0 : Vec F S1x1024x1024 .bf16) (x1 x2 : Vec F S1x512x1024 .bf16) (s0 s1 : Vec F S1x1024x1 .f32) (s2 : Vec F S1x1024x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (outO (stepA x0 x1 x2 s0 s2) (stepL x0 x1 s0 s1))
            ∗ owns (c : Thread nD τ) arg7 fullShare (stepM x0 x1 s0) ∗ owns (c : Thread nD τ) arg8 fullShare (stepL x0 x1 s0 s1)
            ∗ owns (c : Thread nD τ) arg9 fullShare (stepA x0 x1 x2 s0 s2)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

end Cert.KernelIdeal.Hand
end
-- ==== Proof.KDataI.lean ====
import proofs.«132284_j80900003987672_2_alg».proof.Proof.KBodyI
import proofs.«132284_j80900003987672_2_alg».proof.Proof.Gen.KernelIdeal.Launch
import proofs.«132284_j80900003987672_2_alg».proof.Proof.Gen.KernelIdeal.Skeleton
import proofs.«132284_j80900003987672_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # The projection region -/

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The projection region's data: the three inputs' buffers keep their blocks; the three outputs' buffers end at the
    three column thirds of (rows × weights + bias). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t) (iblk0 V c 2 t)
    | ⟨4, _⟩ => k0_pay3 (iblk0 V c 0 t) (iblk0 V c 1 t) (iblk0 V c 2 t)
    | ⟨5, _⟩ => k0_pay4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) (iblk0 V c 2 t) := by dsimp only [dat0]
theorem after0_4 (c : Dev nD) (t : Fin cfg0.N) : (dat0 V c).after 4 t = k0_pay3 (iblk0 V c 0 t) (iblk0 V c 1 t) (iblk0 V c 2 t) := by dsimp only [dat0]
theorem after0_5 (c : Dev nD) (t : Fin cfg0.N) : (dat0 V c).after 5 t = k0_pay4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # The attention region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first-block branch is taken exactly at the points whose key-block coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The last-block branch is taken exactly at the points whose key-block coordinate is 3. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The running state: maximum, denominator, numerator. -/
abbrev St (F : FTy → Type) [FloatOps F] : Type := Vec F S1x1024x1 .f32 × Vec F S1x1024x1 .f32 × Vec F S1x1024x1024 .f32

/-- The state a row of the grid starts from: maximum −∞, both sums zero. -/
def initS : St F := (k1_pay4, k1_pay5, k1_pay6)

/-- One key block's update of the running state. -/
def stepS (x0 : Vec F S1x1024x1024 .bf16) (x1 x2 : Vec F S1x512x1024 .bf16) (s : St F) : St F :=
  (stepM x0 x1 s.1, stepL x0 x1 s.1 s.2.1, stepA x0 x1 x2 s.1 s.2.2)

/-- The running state after the body at position `n` of the grid: at a first key block the update of the reset
    state, elsewhere the update of what the position before left. -/
def stAt (c : Dev nD) : (n : ℕ) → n < cfg1.N → St F
  | 0, hn => stepS (iblk1 V c 0 ⟨0, hn⟩) (iblk1 V c 1 ⟨0, hn⟩) (iblk1 V c 2 ⟨0, hn⟩) initS
  | n + 1, hn =>
    if (n + 1) % 4 = 0 then
      stepS (iblk1 V c 0 ⟨n + 1, hn⟩) (iblk1 V c 1 ⟨n + 1, hn⟩) (iblk1 V c 2 ⟨n + 1, hn⟩) initS
    else
      stepS (iblk1 V c 0 ⟨n + 1, hn⟩) (iblk1 V c 1 ⟨n + 1, hn⟩) (iblk1 V c 2 ⟨n + 1, hn⟩) (stAt c n (Nat.lt_of_succ_lt hn))

theorem stAt_first (c : Dev nD) (t : Fin cfg1.N) (h : t.val % 4 = 0) :
    stAt V c t.val t.isLt = stepS (iblk1 V c 0 t) (iblk1 V c 1 t) (iblk1 V c 2 t) initS := by
  obtain ⟨n, hn⟩ := t
  cases n with
  | zero => rfl
  | succ n => exact (if_pos h).trans rfl

theorem stAt_next (c : Dev nD) (t : Fin cfg1.N) (h : ¬t.val % 4 = 0) :
    stAt V c t.val t.isLt = stepS (iblk1 V c 0 t) (iblk1 V c 1 t) (iblk1 V c 2 t)
      (stAt V c (t.val - 1) (Nat.lt_of_le_of_lt (Nat.sub_le _ _) t.isLt)) := by
  obtain ⟨n, hn⟩ := t
  cases n with
  | zero => exact absurd (Nat.zero_mod _) h
  | succ n => exact (if_neg h).trans rfl

abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x1024 .f32 := Memref.whole cc1_scratch2

/-- What the region hands the body besides the windows, with the three scratch buffers named. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region's invariant before position `n`: at the start the scratch buffers hold anything; afterwards they hold
    the running state the position before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2) ∗ (∃ r, prngReg c r)) := by
  cases n with
  | zero => exact absurd rfl hz
  | succ n => rfl

/-- The attention region's data: the inputs' buffers keep their blocks; the output's buffer, where it is written
    (the last key block), holds numerator over denominator of the running state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (stAt V c t.val t.isLt).2.2 (stAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outO (stAt V c t.val t.isLt).2.2 (stAt V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The attention body at any grid point: which of the three cases the point is in is read off its position; the
    scratch buffers come in at the running state the position before left (anything at the very first) and go out at
    this position's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [stAt_first V c t h0]
    unfold stepS initS; dsimp only
    by_cases hz : t.val = 0
    · rw [PhiS_castSucc V c t, PhiS_zero V c _ _ hz, PhiA1_eq]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runA c Set.univ (grid1.coords t) _ _ _ _ _ _ _ _ _ _ _ _ _ _ ((hcond1_0 t).mpr h0) hc1 (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runA c Set.univ (grid1.coords t) _ _ _ _ _ _ _ _ _ _ _ _ _ _ ((hcond1_0 t).mpr h0) hc1 (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dat1 V c).leavesExact 3 t = owns (c : Thread nD τ) (st1_3 t) fullShare ((dat1 V c).after 3 t) from by
        unfold Dat.leavesExact; rw [liveAt1_3 t ((hcond1_1 t).mpr h3)], after1_3]
      rw [stAt_next V c t h0]
      unfold stepS; dsimp only
      rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runC c Set.univ (grid1.coords t) _ _ _ _ _ _ _ _ _ _ _ _ _ _ (fun h => h0 ((hcond1_0 t).mp h)) ((hcond1_1 t).mpr h3) (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h3 ((hcond1_1 t).mp h)
      rw [Dat.leavesExact_idle (dat1 V c) 3 t (idleAt1_3 t hc1) (noFlush1_3 t hc1)]
      rw [stAt_next V c t h0]
      unfold stepS; dsimp only
      rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runB c Set.univ (grid1.coords t) _ _ _ _ _ _ _ _ _ _ _ _ _ _ (fun h => h0 ((hcond1_0 t).mp h)) hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KRunI.lean ====
import proofs.«132284_j80900003987672_2_alg».proof.Proof.KDataI
import proofs.«132284_j80900003987672_2_alg».proof.Proof.Gen.KernelIdeal.Launch
import proofs.«132284_j80900003987672_2_alg».proof.Proof.Gen.KernelIdeal.Skeleton
import proofs.«132284_j80900003987672_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last position the attention region's invariant gives the scratch buffers back at contents not named. -/
theorem Phi1_out (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HB0, HB1, HB2, HB3, HB4, HB5, HB6, HB7, HB8, HB9, HS0, HS1, HS2⟩, Hg⟩
  isplitl [HB0 HB1 HB2 HB3 HB4 HB5 HB6 HB7 HB8 HB9 HS0 HS1 HS2]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HS0]; · iexists _; iexact HS0
    isplitl [HS1]; · iexists _; iexact HS1
    iexists _; iexact HS2
  iexact Hg

/-! ## The buffer contents at each boundary of @main -/

/-- At launch. -/
abbrev W0 : Dev nD → Valuation τ sig (Elt F) := fun c b => (s₀ m ρ).mem ((c : Dev nD), b)
/-- After the host operations before the projection region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshapes between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation writes a buffer that is neither its own result; in particular none writes an argument. -/
theorem W1_of_arg (c : Dev nD) (b : Ref sig .tc) (hb : b ∈ ([main_arg0, main_arg1, main_arg2, main_arg3, main_arg4, main_arg5, main_arg6] : List (Ref sig .tc))) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl <;> (repeat' apply And.intro) <;> exact StableHlo.devRef_ne_of_ne (by decide)
theorem W3_of_arg (c : Dev nD) (b : Ref sig .tc) (hb : b ∈ ([main_arg0, main_arg1, main_arg2, main_arg3, main_arg4, main_arg5, main_arg6] : List (Ref sig .tc))) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl <;> (repeat' apply And.intro) <;> exact StableHlo.devRef_ne_of_ne (by decide)

/-- Every argument array ends as launched: neither region has it as a window's array, no host operation writes it. -/
theorem W4_arg (c : Dev nD) (b : Ref sig .tc) (hb : b ∈ ([main_arg0, main_arg1, main_arg2, main_arg3, main_arg4, main_arg5, main_arg6] : List (Ref sig .tc))) :
    W4 m ρ c (Proc.devRef .tc b) = m ((c : Thread nD τ).loc b) := by
  have h4 : ∀ w, Pipeline.arrRef spec1 w ≠ b := by
    simp only [List.mem_cons, List.mem_nil_iff, or_false] at hb
    rcases hb with rfl | rfl | rfl | rfl | rfl | rfl | rfl <;> decide
  have h2 : ∀ w, Pipeline.arrRef spec0 w ≠ b := by
    simp only [List.mem_cons, List.mem_nil_iff, or_false] at hb
    rcases hb with rfl | rfl | rfl | rfl | rfl | rfl | rfl <;> decide
  exact (W4_of_ne m ρ c b h4).trans ((W3_of_arg m ρ c b hb).trans ((W2_of_ne m ρ c b h2).trans ((W1_of_arg m ρ c b hb).trans rfl)))

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the contents before it, left with its
    arrays at what the pipeline's write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the pipeline's write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents: the two regions' arrays at what their write-backs
    leave, the rest as the host operations leave them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_arg m ρ c main_arg0 (by decide)),
    (h c _ (mem_uc main_arg1 (by decide))).trans (W4_arg m ρ c main_arg1 (by decide)),
    (h c _ (mem_uc main_arg2 (by decide))).trans (W4_arg m ρ c main_arg2 (by decide)),
    (h c _ (mem_uc main_arg3 (by decide))).trans (W4_arg m ρ c main_arg3 (by decide)),
    (h c _ (mem_uc main_arg4 (by decide))).trans (W4_arg m ρ c main_arg4 (by decide)),
    (h c _ (mem_uc main_arg5 (by decide))).trans (W4_arg m ρ c main_arg5 (by decide)),
    (h c _ (mem_uc main_arg6 (by decide))).trans (W4_arg m ρ c main_arg6 (by decide))⟩) (run_all m ρ)

/-- The run with the result named: the result array ends at what the attention region's write-backs leave. -/
theorem run_named : θ_run defs (onTc (τ := τ) (main (F := F))) ⟨m, fun _ => 0, ρ⟩ (fun r => ∀ c : Dev nD,
      r.2.mem ((c.tc : Thread nD τ).loc main_v16) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v16 (by decide))).trans (W4_arr m ρ c 3),
    (h c _ (mem_uc main_arg0 (by decide))).trans (W4_arg m ρ c main_arg0 (by decide)),
    (h c _ (mem_uc main_arg1 (by decide))).trans (W4_arg m ρ c main_arg1 (by decide)),
    (h c _ (mem_uc main_arg2 (by decide))).trans (W4_arg m ρ c main_arg2 (by decide)),
    (h c _ (mem_uc main_arg3 (by decide))).trans (W4_arg m ρ c main_arg3 (by decide)),
    (h c _ (mem_uc main_arg4 (by decide))).trans (W4_arg m ρ c main_arg4 (by decide)),
    (h c _ (mem_uc main_arg5 (by decide))).trans (W4_arg m ρ c main_arg5 (by decide)),
    (h c _ (mem_uc main_arg6 (by decide))).trans (W4_arg m ρ c main_arg6 (by decide))⟩) (run_all m ρ)

end Cert.KernelIdeal.Hand
end
-- ==== Proof.KBodyB.lean ====
import proofs.«132284_j80900003987672_2_alg».proof.Proof.Gen.Kernel.Launch
import proofs.«132284_j80900003987672_2_alg».proof.Proof.Gen.Kernel.Skeleton
import proofs.«132284_j80900003987672_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three offsets of a whole-buffer access are zero. -/
theorem hz3 : (![0, 0, 0] : Fin 3 → Nat) = fun _ => 0 := by funext a; fin_cases a <;> rfl
theorem hz2 : (![0, 0] : Fin 2 → Nat) = fun _ => 0 := by funext a; fin_cases a <;> rfl

/-- A buffer whose last store went through the whole-shape rectangle holds that store's value. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P :=
  (View.read_writes_eq_canon v f _ (fun y => ⟨_, List.mem_cons_self, View.mem_set_unit_zero h inb y⟩)).trans
    (View.canon_cons_unit_zero h inb P L)

/-- The branch taken at the first key block of a row of the grid (the running state is reset there). -/
abbrev cond1_0 (i : grid1.Coords) : Prop := (Scalar.cmpi .ne (Scalar.extui (Scalar.cmpi .eq (BitVec.ofNat 32 (i 2).val) 0#32)) 0#32) = 1#1
/-- The branch taken at the last key block (the result is written there). -/
abbrev cond1_1 (i : grid1.Coords) : Prop := k1_cond2 i = 1#1

/-- The running maximum after a key block: the larger of the old maximum and the block's row maxima. -/
def stepM (x0 : Vec F S1x1024x1024 .bf16) (x1 : Vec F S1x512x1024 .bf16) (s0 : Vec F S1x1024x1 .f32) : Vec F S1x1024x1 .f32 :=
  k1_pay2 (k1_pay9 x0 x1 s0)
/-- The running denominator after a key block: the old one rescaled to the new maximum plus the block's row sums. -/
def stepL (x0 : Vec F S1x1024x1024 .bf16) (x1 : Vec F S1x512x1024 .bf16) (s0 s1 : Vec F S1x1024x1 .f32) : Vec F S1x1024x1 .f32 :=
  k1_pay12 x0 x1 s0 s0 s1
/-- The running numerator after a key block: the old one rescaled plus the block's weights times its values. -/
def stepA (x0 : Vec F S1x1024x1024 .bf16) (x1 x2 : Vec F S1x512x1024 .bf16) (s0 : Vec F S1x1024x1 .f32) (s2 : Vec F S1x1024x1024 .f32) : Vec F S1x1024x1024 .f32 :=
  k1_pay1 (k1_pay7 x2) (k1_pay10 x0 x1 s0 s0) (k1_pay11 x0 x1 s0) s2
/-- The result block: numerator over denominator. -/
def outO (a : Vec F S1x1024x1024 .f32) (l : Vec F S1x1024x1 .f32) : Vec F S1x1024x1024 .f32 := k1_pay3 a l

set_option maxHeartbeats 4000000 in
/-- The projection body: one block of rows times the whole concatenated weight matrix plus the bias row, its three
    column thirds stored into the three result blocks. -/
theorem run0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare (k0_pay3 x0 x1 x2)
            ∗ owns (c : Thread nD τ) arg6 fullShare (k0_pay4 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl
  isplitl [H4]
  · iexists _; isplitr
    swap; · iexact H4
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl
  · iexists _; isplitr
    swap; · iexact H5
    ipureintro
    refine (read_writes_whole _ _ hz2 _ _ _).trans ?_
    simp only [View.readAt_eq_ld, Memref.IsWhole.read_unread, View.ld_unit_zero (S := S512x1024) hz2, View.ld_unit_zero (S := S1024x3072) hz2, View.ld_unit_zero (S := S1x3072) hz2]
    try rfl

set_option maxHeartbeats 4000000 in
/-- A middle key block: the running state (maximum, denominator, numerator) is read, updated and stored; the
    result block is not touched. -/
theorem runB (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : ¬cond1_0 i) (hc1 : ¬cond1_1 i)
    (x0 : Vec F S1x1024x1024 .bf16) (x1 x2 : Vec F S1x512x1024 .bf16) (s0 s1 : Vec F S1x1024x1 .f32) (s2 : Vec F S1x1024x1024 .f32)
    (d3 : Vec F S1x1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare d3
            ∗ owns (c : Thread nD τ) arg7 fullShare (stepM x0 x1 s0) ∗ owns (c : Thread nD τ) arg8 fullShare (stepL x0 x1 s0 s1)
            ∗ owns (c : Thread nD τ) arg9 fullShare (stepA x0 x1 x2 s0 s2)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

set_option maxHeartbeats 4000000 in
/-- The first key block of a row of the grid: the running state is reset (maximum −∞, sums zero), then updated as at
    any block; the result block is not touched. -/
theorem runA (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : cond1_0 i) (hc1 : ¬cond1_1 i)
    (x0 : Vec F S1x1024x1024 .bf16) (x1 x2 : Vec F S1x512x1024 .bf16)
    (d3 : Vec F S1x1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare d3
            ∗ owns (c : Thread nD τ) arg7 fullShare (stepM x0 x1 k1_pay4) ∗ owns (c : Thread nD τ) arg8 fullShare (stepL x0 x1 k1_pay4 k1_pay5)
            ∗ owns (c : Thread nD τ) arg9 fullShare (stepA x0 x1 x2 k1_pay4 k1_pay6)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

set_option maxHeartbeats 4000000 in
/-- The last key block: the running state is updated, then the result block is stored: numerator over denominator. -/
theorem runC (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole)
    (hc0 : ¬cond1_0 i) (hc1 : cond1_1 i)
    (x0 : Vec F S1x1024x1024 .bf16) (x1 x2 : Vec F S1x512x1024 .bf16) (s0 s1 : Vec F S1x1024x1 .f32) (s2 : Vec F S1x1024x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (outO (stepA x0 x1 x2 s0 s2) (stepL x0 x1 s0 s1))
            ∗ owns (c : Thread nD τ) arg7 fullShare (stepM x0 x1 s0) ∗ owns (c : Thread nD τ) arg8 fullShare (stepL x0 x1 s0 s1)
            ∗ owns (c : Thread nD τ) arg9 fullShare (stepA x0 x1 x2 s0 s2)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS0]
  · iexists _; isplitr
    swap; · iexact HS0
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  isplitl [HS1]
  · iexists _; isplitr
    swap; · iexact HS1
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl
  · iexists _; isplitr
    swap; · iexact HS2
    ipureintro
    refine (read_writes_whole _ _ hz3 _ _ _).trans ?_
    try sl_unfold_words
    simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
    rfl

end Cert.Kernel.Hand
end
-- ==== Proof.KDataB.lean ====
import proofs.«132284_j80900003987672_2_alg».proof.Proof.KBodyB
import proofs.«132284_j80900003987672_2_alg».proof.Proof.Gen.Kernel.Launch
import proofs.«132284_j80900003987672_2_alg».proof.Proof.Gen.Kernel.Skeleton
import proofs.«132284_j80900003987672_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # The projection region -/

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The projection region's data: the three inputs' buffers keep their blocks; the three outputs' buffers end at the
    three column thirds of (rows × weights + bias). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t) (iblk0 V c 2 t)
    | ⟨4, _⟩ => k0_pay3 (iblk0 V c 0 t) (iblk0 V c 1 t) (iblk0 V c 2 t)
    | ⟨5, _⟩ => k0_pay4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) (iblk0 V c 2 t) := by dsimp only [dat0]
theorem after0_4 (c : Dev nD) (t : Fin cfg0.N) : (dat0 V c).after 4 t = k0_pay3 (iblk0 V c 0 t) (iblk0 V c 1 t) (iblk0 V c 2 t) := by dsimp only [dat0]
theorem after0_5 (c : Dev nD) (t : Fin cfg0.N) : (dat0 V c).after 5 t = k0_pay4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # The attention region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first-block branch is taken exactly at the points whose key-block coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The last-block branch is taken exactly at the points whose key-block coordinate is 3. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The running state: maximum, denominator, numerator. -/
abbrev St (F : FTy → Type) [FloatOps F] : Type := Vec F S1x1024x1 .f32 × Vec F S1x1024x1 .f32 × Vec F S1x1024x1024 .f32

/-- The state a row of the grid starts from: maximum −∞, both sums zero. -/
def initS : St F := (k1_pay4, k1_pay5, k1_pay6)

/-- One key block's update of the running state. -/
def stepS (x0 : Vec F S1x1024x1024 .bf16) (x1 x2 : Vec F S1x512x1024 .bf16) (s : St F) : St F :=
  (stepM x0 x1 s.1, stepL x0 x1 s.1 s.2.1, stepA x0 x1 x2 s.1 s.2.2)

/-- The running state after the body at position `n` of the grid: at a first key block the update of the reset
    state, elsewhere the update of what the position before left. -/
def stAt (c : Dev nD) : (n : ℕ) → n < cfg1.N → St F
  | 0, hn => stepS (iblk1 V c 0 ⟨0, hn⟩) (iblk1 V c 1 ⟨0, hn⟩) (iblk1 V c 2 ⟨0, hn⟩) initS
  | n + 1, hn =>
    if (n + 1) % 4 = 0 then
      stepS (iblk1 V c 0 ⟨n + 1, hn⟩) (iblk1 V c 1 ⟨n + 1, hn⟩) (iblk1 V c 2 ⟨n + 1, hn⟩) initS
    else
      stepS (iblk1 V c 0 ⟨n + 1, hn⟩) (iblk1 V c 1 ⟨n + 1, hn⟩) (iblk1 V c 2 ⟨n + 1, hn⟩) (stAt c n (Nat.lt_of_succ_lt hn))

theorem stAt_first (c : Dev nD) (t : Fin cfg1.N) (h : t.val % 4 = 0) :
    stAt V c t.val t.isLt = stepS (iblk1 V c 0 t) (iblk1 V c 1 t) (iblk1 V c 2 t) initS := by
  obtain ⟨n, hn⟩ := t
  cases n with
  | zero => rfl
  | succ n => exact (if_pos h).trans rfl

theorem stAt_next (c : Dev nD) (t : Fin cfg1.N) (h : ¬t.val % 4 = 0) :
    stAt V c t.val t.isLt = stepS (iblk1 V c 0 t) (iblk1 V c 1 t) (iblk1 V c 2 t)
      (stAt V c (t.val - 1) (Nat.lt_of_le_of_lt (Nat.sub_le _ _) t.isLt)) := by
  obtain ⟨n, hn⟩ := t
  cases n with
  | zero => exact absurd (Nat.zero_mod _) h
  | succ n => exact (if_neg h).trans rfl

abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x1024 .f32 := Memref.whole cc1_scratch2

/-- What the region hands the body besides the windows, with the three scratch buffers named. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region's invariant before position `n`: at the start the scratch buffers hold anything; afterwards they hold
    the running state the position before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c n hn).1 ∗ owns (c : Thread nD τ) scM1 fullShare (stAt V c n hn).2.1 ∗ owns (c : Thread nD τ) scM2 fullShare (stAt V c n hn).2.2) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM0 fullShare (stAt V c (n - 1) (by omega)).1 ∗ owns (c : Thread nD τ) scM1 fullShare (stAt V c (n - 1) (by omega)).2.1 ∗ owns (c : Thread nD τ) scM2 fullShare (stAt V c (n - 1) (by omega)).2.2) ∗ (∃ r, prngReg c r)) := by
  cases n with
  | zero => exact absurd rfl hz
  | succ n => rfl

/-- The attention region's data: the inputs' buffers keep their blocks; the output's buffer, where it is written
    (the last key block), holds numerator over denominator of the running state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (stAt V c t.val t.isLt).2.2 (stAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outO (stAt V c t.val t.isLt).2.2 (stAt V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The attention body at any grid point: which of the three cases the point is in is read off its position; the
    scratch buffers come in at the running state the position before left (anything at the very first) and go out at
    this position's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [stAt_first V c t h0]
    unfold stepS initS; dsimp only
    by_cases hz : t.val = 0
    · rw [PhiS_castSucc V c t, PhiS_zero V c _ _ hz, PhiA1_eq]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runA c Set.univ (grid1.coords t) _ _ _ _ _ _ _ _ _ _ _ _ _ _ ((hcond1_0 t).mpr h0) hc1 (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runA c Set.univ (grid1.coords t) _ _ _ _ _ _ _ _ _ _ _ _ _ _ ((hcond1_0 t).mpr h0) hc1 (iblk1 V c 0 t) (iblk1 V c 1 t) (iblk1 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dat1 V c).leavesExact 3 t = owns (c : Thread nD τ) (st1_3 t) fullShare ((dat1 V c).after 3 t) from by
        unfold Dat.leavesExact; rw [liveAt1_3 t ((hcond1_1 t).mpr h3)], after1_3]
      rw [stAt_next V c t h0]
      unfold stepS; dsimp only
      rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runC c Set.univ (grid1.coords t) _ _ _ _ _ _ _ _ _ _ _ _ _ _ (fun h => h0 ((hcond1_0 t).mp h)) ((hcond1_1 t).mpr h3) (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h3 ((hcond1_1 t).mp h)
      rw [Dat.leavesExact_idle (dat1 V c) 3 t (idleAt1_3 t hc1) (noFlush1_3 t hc1)]
      rw [stAt_next V c t h0]
      unfold stepS; dsimp only
      rw [PhiS_castSucc V c t, PhiS_pos V c _ _ hz]
      iintro ⟨⟨⟨HB0, HB1, HB2, HB3, HB4, HB5, HB6, HB7, HB8, HB9, HS0, HS1, HS2⟩, Hg⟩, Ho, ⟨%d0, H0⟩, ⟨%d1, H1⟩, ⟨%d2, H2⟩, ⟨%d3, H3⟩⟩
      iapply (runB c Set.univ (grid1.coords t) _ _ _ _ _ _ _ _ _ _ _ _ _ _ (fun h => h0 ((hcond1_0 t).mp h)) hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB0 HB1 HB2 HB3 HB4 HB5 HB6 HB7 HB8 HB9 HS0 HS1 HS2 Hg]
      · isplitl [HB0 HB1 HB2 HB3 HB4 HB5 HB6 HB7 HB8 HB9 HS0 HS1 HS2]
        · isplitl [HB0]; · iexact HB0
          isplitl [HB1]; · iexact HB1
          isplitl [HB2]; · iexact HB2
          isplitl [HB3]; · iexact HB3
          isplitl [HB4]; · iexact HB4
          isplitl [HB5]; · iexact HB5
          isplitl [HB6]; · iexact HB6
          isplitl [HB7]; · iexact HB7
          isplitl [HB8]; · iexact HB8
          isplitl [HB9]; · iexact HB9
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.KRunB.lean ====
import proofs.«132284_j80900003987672_2_alg».proof.Proof.KDataB
import proofs.«132284_j80900003987672_2_alg».proof.Proof.Gen.Kernel.Launch
import proofs.«132284_j80900003987672_2_alg».proof.Proof.Gen.Kernel.Skeleton
import proofs.«132284_j80900003987672_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last position the attention region's invariant gives the scratch buffers back at contents not named. -/
theorem Phi1_out (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HB0, HB1, HB2, HB3, HB4, HB5, HB6, HB7, HB8, HB9, HS0, HS1, HS2⟩, Hg⟩
  isplitl [HB0 HB1 HB2 HB3 HB4 HB5 HB6 HB7 HB8 HB9 HS0 HS1 HS2]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HS0]; · iexists _; iexact HS0
    isplitl [HS1]; · iexists _; iexact HS1
    iexists _; iexact HS2
  iexact Hg

/-! ## The buffer contents at each boundary of @main -/

/-- At launch. -/
abbrev W0 : Dev nD → Valuation τ sig (Elt F) := fun c b => (s₀ m ρ).mem ((c : Dev nD), b)
/-- After the host operations before the projection region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshapes between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation writes a buffer that is neither its own result; in particular none writes an argument. -/
theorem W1_of_arg (c : Dev nD) (b : Ref sig .tc) (hb : b ∈ ([main_arg0, main_arg1, main_arg2, main_arg3, main_arg4, main_arg5, main_arg6] : List (Ref sig .tc))) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl <;> (repeat' apply And.intro) <;> exact StableHlo.devRef_ne_of_ne (by decide)
theorem W3_of_arg (c : Dev nD) (b : Ref sig .tc) (hb : b ∈ ([main_arg0, main_arg1, main_arg2, main_arg3, main_arg4, main_arg5, main_arg6] : List (Ref sig .tc))) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl <;> (repeat' apply And.intro) <;> exact StableHlo.devRef_ne_of_ne (by decide)

/-- Every argument array ends as launched: neither region has it as a window's array, no host operation writes it. -/
theorem W4_arg (c : Dev nD) (b : Ref sig .tc) (hb : b ∈ ([main_arg0, main_arg1, main_arg2, main_arg3, main_arg4, main_arg5, main_arg6] : List (Ref sig .tc))) :
    W4 m ρ c (Proc.devRef .tc b) = m ((c : Thread nD τ).loc b) := by
  have h4 : ∀ w, Pipeline.arrRef spec1 w ≠ b := by
    simp only [List.mem_cons, List.mem_nil_iff, or_false] at hb
    rcases hb with rfl | rfl | rfl | rfl | rfl | rfl | rfl <;> decide
  have h2 : ∀ w, Pipeline.arrRef spec0 w ≠ b := by
    simp only [List.mem_cons, List.mem_nil_iff, or_false] at hb
    rcases hb with rfl | rfl | rfl | rfl | rfl | rfl | rfl <;> decide
  exact (W4_of_ne m ρ c b h4).trans ((W3_of_arg m ρ c b hb).trans ((W2_of_ne m ρ c b h2).trans ((W1_of_arg m ρ c b hb).trans rfl)))

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the contents before it, left with its
    arrays at what the pipeline's write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the pipeline's write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents: the two regions' arrays at what their write-backs
    leave, the rest as the host operations leave them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_arg m ρ c main_arg0 (by decide)),
    (h c _ (mem_uc main_arg1 (by decide))).trans (W4_arg m ρ c main_arg1 (by decide)),
    (h c _ (mem_uc main_arg2 (by decide))).trans (W4_arg m ρ c main_arg2 (by decide)),
    (h c _ (mem_uc main_arg3 (by decide))).trans (W4_arg m ρ c main_arg3 (by decide)),
    (h c _ (mem_uc main_arg4 (by decide))).trans (W4_arg m ρ c main_arg4 (by decide)),
    (h c _ (mem_uc main_arg5 (by decide))).trans (W4_arg m ρ c main_arg5 (by decide)),
    (h c _ (mem_uc main_arg6 (by decide))).trans (W4_arg m ρ c main_arg6 (by decide))⟩) (run_all m ρ)

/-- The run with the result named: the result array ends at what the attention region's write-backs leave. -/
theorem run_named : θ_run defs (onTc (τ := τ) (main (F := F))) ⟨m, fun _ => 0, ρ⟩ (fun r => ∀ c : Dev nD,
      r.2.mem ((c.tc : Thread nD τ).loc main_v16) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v16 (by decide))).trans (W4_arr m ρ c 3),
    (h c _ (mem_uc main_arg0 (by decide))).trans (W4_arg m ρ c main_arg0 (by decide)),
    (h c _ (mem_uc main_arg1 (by decide))).trans (W4_arg m ρ c main_arg1 (by decide)),
    (h c _ (mem_uc main_arg2 (by decide))).trans (W4_arg m ρ c main_arg2 (by decide)),
    (h c _ (mem_uc main_arg3 (by decide))).trans (W4_arg m ρ c main_arg3 (by decide)),
    (h c _ (mem_uc main_arg4 (by decide))).trans (W4_arg m ρ c main_arg4 (by decide)),
    (h c _ (mem_uc main_arg5 (by decide))).trans (W4_arg m ρ c main_arg5 (by decide)),
    (h c _ (mem_uc main_arg6 (by decide))).trans (W4_arg m ρ c main_arg6 (by decide))⟩) (run_all m ρ)

end Cert.Kernel.Hand
end
-- ==== Proof.PayIdeal0.lean ====
/-
  The projection kernel's stored values read at an index, over the extended reals.

  One block holds 512 rows of the input (1024 features each), the 1024 × 3072 matrix of the three weight matrices side
  by side, and the 3072 biases. The body multiplies the rows by the matrix (a sum over the 1024 features), adds the
  biases, and stores the three column ranges [0, 1024), [1024, 2048), [2048, 3072) separately. Over the extended reals
  the roundings to the narrower format and back are the identity, and the product into the zero accumulator is the
  plain sum; so each stored entry is  Σ_h x(p, h) · w(h, c) + bias(c)  at its column c of the 3072.
-/
import proofs.«132284_j80900003987672_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Cert.KernelIdeal Cert.KernelIdeal.Gen Idealize.ShloMosaic.ValueIdx

/-- The dimension numbers of the rows-by-matrix product. -/
abbrev D0 : DotDims S512x1024 S1024x3072 S512x3072 := dot_S512x1024_S1024x3072_S512x3072_1_0_0_1_n_n

theorem D0_lhs0 (i : S512x3072.Idx) (q : D0.contr.Idx) : (D0.lhsIdx i q 0).val = (i 0).val := by
  unfold DotDims.lhsIdx
  rw [dif_neg (show ¬(0 : Fin S512x1024.rank) ∈ D0.lhsBatch by decide),
    dif_pos (show (0 : Fin S512x1024.rank) ∈ D0.lhsNonContracting by decide)]
  rfl

theorem D0_lhs1 (i : S512x3072.Idx) (q : D0.contr.Idx) : (D0.lhsIdx i q 1).val = (q ⟨0, by decide⟩).val :=
  D0.lhsIdx_val_of_single rfl i q

theorem D0_rhs0 (i : S512x3072.Idx) (q : D0.contr.Idx) : (D0.rhsIdx i q 0).val = (q ⟨0, by decide⟩).val :=
  D0.rhsIdx_val_of_single rfl i q

theorem D0_rhs1 (i : S512x3072.Idx) (q : D0.contr.Idx) : (D0.rhsIdx i q 1).val = (i 1).val := by
  unfold DotDims.rhsIdx
  rw [dif_neg (show ¬(1 : Fin S1024x3072.rank) ∈ D0.rhsBatch by decide),
    dif_pos (show (1 : Fin S1024x3072.rank) ∈ D0.rhsNonContracting by decide)]
  rfl

/-- The rows-by-matrix product into the zero accumulator, at row p and column c: the sum over the 1024 features. -/
theorem matmul0_apply (l : FVec Ideal S512x1024 .bf16) (r : FVec Ideal S1024x3072 .bf16) (p : Fin 512) (c : Fin 3072) :
    matmul D0 none l r (constant (F := Ideal) S512x3072 .f32 0x00000000#32) (ix2 p c)
      = ∑ h : Fin 1024, l (ix2 p h) * r (ix2 h c) := by
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p c) ((contrEquiv1 D0 1024 rfl rfl).symm k) = ix2 p k := funext fun a => Fin.ext (by
    match a with
    | ⟨0, _⟩ => exact D0_lhs0 _ _
    | ⟨1, _⟩ => exact (D0_lhs1 _ _).trans hk)
  have er : D0.rhsIdx (ix2 p c) ((contrEquiv1 D0 1024 rfl rfl).symm k) = ix2 k c := funext fun a => Fin.ext (by
    match a with
    | ⟨0, _⟩ => exact (D0_rhs0 _ _).trans hk
    | ⟨1, _⟩ => exact D0_rhs1 _ _)
  rw [el, er]

/-- The product plus the biases, at row p and column c of the 3072. -/
theorem k0_pay1_apply (x0 : Vec Ideal S512x1024 .f32) (x1 : Vec Ideal S1024x3072 .bf16) (x2 : Vec Ideal S1x3072 .f32)
    (p : Fin 512) (c : Fin 3072) :
    k0_pay1 (F := Ideal) x0 x1 x2 (ix2 p c)
      = (∑ h : Fin 1024, x0 (ix2 p h) * x1 (ix2 h c)) + x2 (ix2 (0 : Fin 1) c) := by
  unfold k0_pay1
  simp only [shapeCast_self]
  refine (addf_apply _ _ _).trans ?_
  refine congrArg₂ (· + ·) ?_ ?_
  · exact (matmul0_apply _ _ p c).trans (Finset.sum_congr rfl fun h _ => rfl)
  · exact broadcastTo_1b_ab_apply _ _ p c

/-- The first stored range: columns [0, 1024). -/
theorem k0_pay2_apply (x0 : Vec Ideal S512x1024 .f32) (x1 : Vec Ideal S1024x3072 .bf16) (x2 : Vec Ideal S1x3072 .f32)
    (p : Fin 512) (q : Fin 1024) :
    k0_pay2 (F := Ideal) x0 x1 x2 (ix2 p q)
      = (∑ h : Fin 1024, x0 (ix2 p h) * x1 (ix2 h (⟨q.val, by omega⟩ : Fin 3072)))
        + x2 (ix2 (0 : Fin 1) (⟨q.val, by omega⟩ : Fin 3072)) := by
  show extractStridedSlice S512x1024 ![0, 0] (k0_pay1 (F := Ideal) x0 x1 x2) slices_S512x3072_o0_0_S512x1024 (ix2 p q) = _
  refine (slice2_axis1_apply 0 _ _ p q (⟨q.val, by omega⟩ : Fin 3072) (by simp)).trans ?_
  exact k0_pay1_apply x0 x1 x2 p _

/-- The second stored range: columns [1024, 2048). -/
theorem k0_pay3_apply (x0 : Vec Ideal S512x1024 .f32) (x1 : Vec Ideal S1024x3072 .bf16) (x2 : Vec Ideal S1x3072 .f32)
    (p : Fin 512) (q : Fin 1024) :
    k0_pay3 (F := Ideal) x0 x1 x2 (ix2 p q)
      = (∑ h : Fin 1024, x0 (ix2 p h) * x1 (ix2 h (⟨1024 + q.val, by omega⟩ : Fin 3072)))
        + x2 (ix2 (0 : Fin 1) (⟨1024 + q.val, by omega⟩ : Fin 3072)) := by
  show extractStridedSlice S512x1024 ![0, 1024] (k0_pay1 (F := Ideal) x0 x1 x2) slices_S512x3072_o0_1024_S512x1024 (ix2 p q) = _
  refine (slice2_axis1_apply 1024 _ _ p q (⟨1024 + q.val, by omega⟩ : Fin 3072) rfl).trans ?_
  exact k0_pay1_apply x0 x1 x2 p _

/-- The third stored range: columns [2048, 3072). -/
theorem k0_pay4_apply (x0 : Vec Ideal S512x1024 .f32) (x1 : Vec Ideal S1024x3072 .bf16) (x2 : Vec Ideal S1x3072 .f32)
    (p : Fin 512) (q : Fin 1024) :
    k0_pay4 (F := Ideal) x0 x1 x2 (ix2 p q)
      = (∑ h : Fin 1024, x0 (ix2 p h) * x1 (ix2 h (⟨2048 + q.val, by omega⟩ : Fin 3072)))
        + x2 (ix2 (0 : Fin 1) (⟨2048 + q.val, by omega⟩ : Fin 3072)) := by
  show extractStridedSlice S512x1024 ![0, 2048] (k0_pay1 (F := Ideal) x0 x1 x2) slices_S512x3072_o0_2048_S512x1024 (ix2 p q) = _
  refine (slice2_axis1_apply 2048 _ _ p q (⟨2048 + q.val, by omega⟩ : Fin 3072) rfl).trans ?_
  exact k0_pay1_apply x0 x1 x2 p _

end Cert.KernelIdeal.PayIdeal

end
-- ==== Proof.Val0.lean ====
/-
  The projection region read as whole arrays, over the extended reals.

  The grid has sixteen points; point t handles rows [512 t, 512 t + 512) of the 8192 rows. Its three output blocks are
  the three column ranges of (rows × weights + biases) for those rows, where the weights (1024 × 3072) and the biases
  (1 × 3072) are read whole at every point. The three output arrays after the region are therefore, entry by entry,
      out_k (r, q) = Σ_h rows(r, h) · weights(h, 1024 k + q) + biases(0, 1024 k + q),     k = 0, 1, 2,
  for ANY contents of the arrays at the region's entry: every row lies in exactly the block of point r / 512, and every
  point writes its blocks back.
-/
import proofs.«132284_j80900003987672_2_alg».proof.Proof.KDataI
import proofs.«132284_j80900003987672_2_alg».proof.Proof.PayIdeal0
import Idealize.ShloMosaic.Lib.Pipeline.Value

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The printed index maps of the projection region, decided over its sixteen grid points: the row-block windows
    (the input rows and the three outputs) sit at block (t, 0); the weights and the biases at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Column q of the first, second, third range of the 3072 columns. -/
abbrev col3 (q : Fin 1024) : Fin 3072 := ⟨q.val, by omega⟩
abbrev col4 (q : Fin 1024) : Fin 3072 := ⟨1024 + q.val, by omega⟩
abbrev col5 (q : Fin 1024) : Fin 3072 := ⟨2048 + q.val, by omega⟩

/-- Rows times a column range of the matrix, plus that range of the biases: entry (r, q) is
    Σ_h a0(r, h) · a1(h, col q) + a2(0, col q). -/
def projArr (a0 : S8192x1024.Idx → EReal) (a1 : S1024x3072.Idx → EReal) (a2 : S1x3072.Idx → EReal)
    (col : Fin 1024 → Fin 3072) : S8192x1024.Idx → EReal := fun i =>
  (∑ h : Fin 1024, a0 (ix2 (i 0) h) * a1 (ix2 h (col (i 1)))) + a2 (ix2 (0 : Fin 1) (col (i 1)))

/-- One entry of the first stored range, where the block's rows are rows of a0 and the other two blocks are a1, a2. -/
theorem pay2_point (a0 : S8192x1024.Idx → EReal) (a1 : S1024x3072.Idx → EReal) (a2 : S1x3072.Idx → EReal)
    (x0 : Vec Ideal S512x1024 .f32) (x1 : Vec Ideal S1024x3072 .bf16) (x2 : Vec Ideal S1x3072 .f32)
    (y : S512x1024.Idx) (i : S8192x1024.Idx)
    (h0 : ∀ h : Fin 1024, x0 (ix2 (y 0) h) = a0 (ix2 (i 0) h))
    (h1 : ∀ k : S1024x3072.Idx, x1 k = a1 k) (h2 : ∀ k : S1x3072.Idx, x2 k = a2 k)
    (hc : (i 1).val = (y 1).val) :
    k0_pay2 (F := Ideal) x0 x1 x2 y = projArr a0 a1 a2 col3 i := by
  obtain ⟨p, q, rfl⟩ : ∃ (p : Fin 512) (q : Fin 1024), y = ix2 p q := ⟨y 0, y 1, eq_ix2 y⟩
  have hq : i 1 = q := Fin.ext hc
  refine (k0_pay2_apply x0 x1 x2 p q).trans ?_
  show _ = (∑ h : Fin 1024, a0 (ix2 (i 0) h) * a1 (ix2 h (col3 (i 1)))) + a2 (ix2 (0 : Fin 1) (col3 (i 1)))
  rw [hq]
  refine congrArg₂ (· + ·) (Finset.sum_congr rfl fun h _ => ?_) (h2 _)
  exact congrArg₂ (· * ·) (h0 h) (h1 _)

theorem pay3_point (a0 : S8192x1024.Idx → EReal) (a1 : S1024x3072.Idx → EReal) (a2 : S1x3072.Idx → EReal)
    (x0 : Vec Ideal S512x1024 .f32) (x1 : Vec Ideal S1024x3072 .bf16) (x2 : Vec Ideal S1x3072 .f32)
    (y : S512x1024.Idx) (i : S8192x1024.Idx)
    (h0 : ∀ h : Fin 1024, x0 (ix2 (y 0) h) = a0 (ix2 (i 0) h))
    (h1 : ∀ k : S1024x3072.Idx, x1 k = a1 k) (h2 : ∀ k : S1x3072.Idx, x2 k = a2 k)
    (hc : (i 1).val = (y 1).val) :
    k0_pay3 (F := Ideal) x0 x1 x2 y = projArr a0 a1 a2 col4 i := by
  obtain ⟨p, q, rfl⟩ : ∃ (p : Fin 512) (q : Fin 1024), y = ix2 p q := ⟨y 0, y 1, eq_ix2 y⟩
  have hq : i 1 = q := Fin.ext hc
  refine (k0_pay3_apply x0 x1 x2 p q).trans ?_
  show _ = (∑ h : Fin 1024, a0 (ix2 (i 0) h) * a1 (ix2 h (col4 (i 1)))) + a2 (ix2 (0 : Fin 1) (col4 (i 1)))
  rw [hq]
  refine congrArg₂ (· + ·) (Finset.sum_congr rfl fun h _ => ?_) (h2 _)
  exact congrArg₂ (· * ·) (h0 h) (h1 _)

theorem pay4_point (a0 : S8192x1024.Idx → EReal) (a1 : S1024x3072.Idx → EReal) (a2 : S1x3072.Idx → EReal)
    (x0 : Vec Ideal S512x1024 .f32) (x1 : Vec Ideal S1024x3072 .bf16) (x2 : Vec Ideal S1x3072 .f32)
    (y : S512x1024.Idx) (i : S8192x1024.Idx)
    (h0 : ∀ h : Fin 1024, x0 (ix2 (y 0) h) = a0 (ix2 (i 0) h))
    (h1 : ∀ k : S1024x3072.Idx, x1 k = a1 k) (h2 : ∀ k : S1x3072.Idx, x2 k = a2 k)
    (hc : (i 1).val = (y 1).val) :
    k0_pay4 (F := Ideal) x0 x1 x2 y = projArr a0 a1 a2 col5 i := by
  obtain ⟨p, q, rfl⟩ : ∃ (p : Fin 512) (q : Fin 1024), y = ix2 p q := ⟨y 0, y 1, eq_ix2 y⟩
  have hq : i 1 = q := Fin.ext hc
  refine (k0_pay4_apply x0 x1 x2 p q).trans ?_
  show _ = (∑ h : Fin 1024, a0 (ix2 (i 0) h) * a1 (ix2 h (col5 (i 1)))) + a2 (ix2 (0 : Fin 1) (col5 (i 1)))
  rw [hq]
  refine congrArg₂ (· + ·) (Finset.sum_congr rfl fun h _ => ?_) (h2 _)
  exact congrArg₂ (· * ·) (h0 h) (h1 _)

/-- What point t writes back through output window 3 is block t of the whole-array function. -/
theorem flushed3_eq (c : Dev nD) (t : Fin cfg0.N) :
    (dat0 V c).flushed 3 t
      = ((cfg0.win 3).blk t).view.read (Elt Ideal) (projArr (V c main_v0) (V c main_v7) (V c main_v11) col3) := by
  show (cfg0.win 3).cut (grid0.coords t) ((dat0 V c).after 3 t) = _
  rw [after0_3]
  funext j
  obtain ⟨e00, e01, e10, e11, e20, e21, e30, e31, e40, e41, e50, e51⟩ := idx_facts0 t
  refine pay2_point (V c main_v0) (V c main_v7) (V c main_v11) (iblk0 V c 0 t) (iblk0 V c 1 t) (iblk0 V c 2 t)
    ((cfg0.win 3).xinj (grid0.coords t) j) (((cfg0.win 3).blk t).view.emb j) (fun h => ?_) (fun k => ?_) (fun k => ?_) ?_
  · show V c main_v0 (((cfg0.win 0).blk t).view.emb _) = _
    refine congrArg (V c main_v0) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 1024 + 1 * h.val = h.val
      omega
  · show V c main_v7 (((cfg0.win 1).blk t).view.emb k) = _
    refine congrArg (V c main_v7) (funext fun a => Fin.ext ?_)
    match a with
    | ⟨0, _⟩ => show win0_1.index t (0 : Fin 2) * 1024 + 1 * (k 0).val = (k 0).val; omega
    | ⟨1, _⟩ => show win0_1.index t (1 : Fin 2) * 3072 + 1 * (k 1).val = (k 1).val; omega
  · show V c main_v11 (((cfg0.win 2).blk t).view.emb k) = _
    refine congrArg (V c main_v11) (funext fun a => Fin.ext ?_)
    match a with
    | ⟨0, _⟩ => show win0_2.index t (0 : Fin 2) * 1 + 1 * (k 0).val = (k 0).val; omega
    | ⟨1, _⟩ => show win0_2.index t (1 : Fin 2) * 3072 + 1 * (k 1).val = (k 1).val; omega
  · show win0_3.index t (1 : Fin 2) * 1024 + 1 * (j 1).val = (j 1).val
    omega

/-- What point t writes back through output window 4 is block t of the whole-array function. -/
theorem flushed4_eq (c : Dev nD) (t : Fin cfg0.N) :
    (dat0 V c).flushed 4 t
      = ((cfg0.win 4).blk t).view.read (Elt Ideal) (projArr (V c main_v0) (V c main_v7) (V c main_v11) col4) := by
  show (cfg0.win 4).cut (grid0.coords t) ((dat0 V c).after 4 t) = _
  rw [after0_4]
  funext j
  obtain ⟨e00, e01, e10, e11, e20, e21, e30, e31, e40, e41, e50, e51⟩ := idx_facts0 t
  refine pay3_point (V c main_v0) (V c main_v7) (V c main_v11) (iblk0 V c 0 t) (iblk0 V c 1 t) (iblk0 V c 2 t)
    ((cfg0.win 4).xinj (grid0.coords t) j) (((cfg0.win 4).blk t).view.emb j) (fun h => ?_) (fun k => ?_) (fun k => ?_) ?_
  · show V c main_v0 (((cfg0.win 0).blk t).view.emb _) = _
    refine congrArg (V c main_v0) (funext fun a => Fin.ext ?_)
    match a with
    | ⟨0, _⟩ =>
      show win0_0.index t (0 : Fin 2) * 512 + 1 * (j 0).val = win0_4.index t (0 : Fin 2) * 512 + 1 * (j 0).val
      omega
    | ⟨1, _⟩ =>
      show win0_0.index t (1 : Fin 2) * 1024 + 1 * h.val = h.val
      omega
  · show V c main_v7 (((cfg0.win 1).blk t).view.emb k) = _
    refine congrArg (V c main_v7) (funext fun a => Fin.ext ?_)
    match a with
    | ⟨0, _⟩ => show win0_1.index t (0 : Fin 2) * 1024 + 1 * (k 0).val = (k 0).val; omega
    | ⟨1, _⟩ => show win0_1.index t (1 : Fin 2) * 3072 + 1 * (k 1).val = (k 1).val; omega
  · show V c main_v11 (((cfg0.win 2).blk t).view.emb k) = _
    refine congrArg (V c main_v11) (funext fun a => Fin.ext ?_)
    match a with
    | ⟨0, _⟩ => show win0_2.index t (0 : Fin 2) * 1 + 1 * (k 0).val = (k 0).val; omega
    | ⟨1, _⟩ => show win0_2.index t (1 : Fin 2) * 3072 + 1 * (k 1).val = (k 1).val; omega
  · show win0_4.index t (1 : Fin 2) * 1024 + 1 * (j 1).val = (j 1).val
    omega

/-- What point t writes back through output window 5 is block t of the whole-array function. -/
theorem flushed5_eq (c : Dev nD) (t : Fin cfg0.N) :
    (dat0 V c).flushed 5 t
      = ((cfg0.win 5).blk t).view.read (Elt Ideal) (projArr (V c main_v0) (V c main_v7) (V c main_v11) col5) := by
  show (cfg0.win 5).cut (grid0.coords t) ((dat0 V c).after 5 t) = _
  rw [after0_5]
  funext j
  obtain ⟨e00, e01, e10, e11, e20, e21, e30, e31, e40, e41, e50, e51⟩ := idx_facts0 t
  refine pay4_point (V c main_v0) (V c main_v7) (V c main_v11) (iblk0 V c 0 t) (iblk0 V c 1 t) (iblk0 V c 2 t)
    ((cfg0.win 5).xinj (grid0.coords t) j) (((cfg0.win 5).blk t).view.emb j) (fun h => ?_) (fun k => ?_) (fun k => ?_) ?_
  · show V c main_v0 (((cfg0.win 0).blk t).view.emb _) = _
    refine congrArg (V c main_v0) (funext fun a => Fin.ext ?_)
    match a with
    | ⟨0, _⟩ =>
      show win0_0.index t (0 : Fin 2) * 512 + 1 * (j 0).val = win0_5.index t (0 : Fin 2) * 512 + 1 * (j 0).val
      omega
    | ⟨1, _⟩ =>
      show win0_0.index t (1 : Fin 2) * 1024 + 1 * h.val = h.val
      omega
  · show V c main_v7 (((cfg0.win 1).blk t).view.emb k) = _
    refine congrArg (V c main_v7) (funext fun a => Fin.ext ?_)
    match a with
    | ⟨0, _⟩ => show win0_1.index t (0 : Fin 2) * 1024 + 1 * (k 0).val = (k 0).val; omega
    | ⟨1, _⟩ => show win0_1.index t (1 : Fin 2) * 3072 + 1 * (k 1).val = (k 1).val; omega
  · show V c main_v11 (((cfg0.win 2).blk t).view.emb k) = _
    refine congrArg (V c main_v11) (funext fun a => Fin.ext ?_)
    match a with
    | ⟨0, _⟩ => show win0_2.index t (0 : Fin 2) * 1 + 1 * (k 0).val = (k 0).val; omega
    | ⟨1, _⟩ => show win0_2.index t (1 : Fin 2) * 3072 + 1 * (k 1).val = (k 1).val; omega
  · show win0_5.index t (1 : Fin 2) * 1024 + 1 * (j 1).val = (j 1).val
    omega

/-- An index of the array is in point t's block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v12_0).slice (win0_3.rect t)).set ↔ _
  rw [View.set_slice_whole, Rect.mem_set_unit]
  exact Iff.rfl

/-- Row r of the array lies in the block of point r / 512, and every point writes its block back. -/
theorem cover3 (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  have hN : cfg0.N = 16 := N_0
  have hN' : grid0.N = 16 := N_0
  refine ⟨⟨(i 0).val / 512, by omega⟩, flush0_3 _, ?_⟩
  have ef := idx_facts0 ⟨(i 0).val / 512, by omega⟩
  have e0 : win0_3.index ⟨(i 0).val / 512, by omega⟩ (0 : Fin 2) = (i 0).val / 512 := ef.2.2.2.2.2.2.1
  have e1 : win0_3.index ⟨(i 0).val / 512, by omega⟩ (1 : Fin 2) = 0 := ef.2.2.2.2.2.2.2.1
  rw [mem_blk3]
  intro a
  match a with
  | ⟨0, _⟩ =>
    show win0_3.index ⟨(i 0).val / 512, _⟩ (0 : Fin 2) * 512 ≤ (i 0).val
      ∧ (i 0).val < win0_3.index ⟨(i 0).val / 512, _⟩ (0 : Fin 2) * 512 + 512
    omega
  | ⟨1, _⟩ =>
    show win0_3.index ⟨(i 0).val / 512, _⟩ (1 : Fin 2) * 1024 ≤ (i 1).val
      ∧ (i 1).val < win0_3.index ⟨(i 0).val / 512, _⟩ (1 : Fin 2) * 1024 + 1024
    omega

/-- After the projection region, output array 0 holds its column range of rows × weights + biases, whatever
    the arrays held when the region was entered. -/
theorem arrAt3 (c : Dev nD) :
    (dat0 V c).arrAt 3 cfg0.N = projArr (V c main_v0) (V c main_v7) (V c main_v11) col3 :=
  (dat0 V c).arrAt_eq_of_cover 3 _ (fun t _ => flushed3_eq V c t) cover3

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v12_1).slice (win0_4.rect t)).set ↔ _
  rw [View.set_slice_whole, Rect.mem_set_unit]
  exact Iff.rfl

/-- Row r of the array lies in the block of point r / 512, and every point writes its block back. -/
theorem cover4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  have hN : cfg0.N = 16 := N_0
  have hN' : grid0.N = 16 := N_0
  refine ⟨⟨(i 0).val / 512, by omega⟩, flush0_4 _, ?_⟩
  have ef := idx_facts0 ⟨(i 0).val / 512, by omega⟩
  have e0 : win0_4.index ⟨(i 0).val / 512, by omega⟩ (0 : Fin 2) = (i 0).val / 512 := ef.2.2.2.2.2.2.2.2.1
  have e1 : win0_4.index ⟨(i 0).val / 512, by omega⟩ (1 : Fin 2) = 0 := ef.2.2.2.2.2.2.2.2.2.1
  rw [mem_blk4]
  intro a
  match a with
  | ⟨0, _⟩ =>
    show win0_4.index ⟨(i 0).val / 512, _⟩ (0 : Fin 2) * 512 ≤ (i 0).val
      ∧ (i 0).val < win0_4.index ⟨(i 0).val / 512, _⟩ (0 : Fin 2) * 512 + 512
    omega
  | ⟨1, _⟩ =>
    show win0_4.index ⟨(i 0).val / 512, _⟩ (1 : Fin 2) * 1024 ≤ (i 1).val
      ∧ (i 1).val < win0_4.index ⟨(i 0).val / 512, _⟩ (1 : Fin 2) * 1024 + 1024
    omega

/-- After the projection region, output array 1 holds its column range of rows × weights + biases, whatever
    the arrays held when the region was entered. -/
theorem arrAt4 (c : Dev nD) :
    (dat0 V c).arrAt 4 cfg0.N = projArr (V c main_v0) (V c main_v7) (V c main_v11) col4 :=
  (dat0 V c).arrAt_eq_of_cover 4 _ (fun t _ => flushed4_eq V c t) cover4

/-- An index of the array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v12_2).slice (win0_5.rect t)).set ↔ _
  rw [View.set_slice_whole, Rect.mem_set_unit]
  exact Iff.rfl

/-- Row r of the array lies in the block of point r / 512, and every point writes its block back. -/
theorem cover5 (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  have hN : cfg0.N = 16 := N_0
  have hN' : grid0.N = 16 := N_0
  refine ⟨⟨(i 0).val / 512, by omega⟩, flush0_5 _, ?_⟩
  have ef := idx_facts0 ⟨(i 0).val / 512, by omega⟩
  have e0 : win0_5.index ⟨(i 0).val / 512, by omega⟩ (0 : Fin 2) = (i 0).val / 512 := ef.2.2.2.2.2.2.2.2.2.2.1
  have e1 : win0_5.index ⟨(i 0).val / 512, by omega⟩ (1 : Fin 2) = 0 := ef.2.2.2.2.2.2.2.2.2.2.2
  rw [mem_blk5]
  intro a
  match a with
  | ⟨0, _⟩ =>
    show win0_5.index ⟨(i 0).val / 512, _⟩ (0 : Fin 2) * 512 ≤ (i 0).val
      ∧ (i 0).val < win0_5.index ⟨(i 0).val / 512, _⟩ (0 : Fin 2) * 512 + 512
    omega
  | ⟨1, _⟩ =>
    show win0_5.index ⟨(i 0).val / 512, _⟩ (1 : Fin 2) * 1024 ≤ (i 1).val
      ∧ (i 1).val < win0_5.index ⟨(i 0).val / 512, _⟩ (1 : Fin 2) * 1024 + 1024
    omega

/-- After the projection region, output array 2 holds its column range of rows × weights + biases, whatever
    the arrays held when the region was entered. -/
theorem arrAt5 (c : Dev nD) :
    (dat0 V c).arrAt 5 cfg0.N = projArr (V c main_v0) (V c main_v7) (V c main_v11) col5 :=
  (dat0 V c).arrAt_eq_of_cover 5 _ (fun t _ => flushed5_eq V c t) cover5

/-- The whole-array function at an index, written out. -/
theorem projArr_apply (a0 : S8192x1024.Idx → EReal) (a1 : S1024x3072.Idx → EReal) (a2 : S1x3072.Idx → EReal)
    (col : Fin 1024 → Fin 3072) (i : S8192x1024.Idx) :
    projArr a0 a1 a2 col i
      = (∑ h : Fin 1024, a0 (ix2 (i 0) h) * a1 (ix2 h (col (i 1)))) + a2 (ix2 (0 : Fin 1) (col (i 1))) := rfl

end Cert.KernelIdeal.Hand
end
-- ==== Proof.PayIdeal1.lean ====
/-
  The attention kernel's stored values read at an index, over the extended reals, for one block of 512 keys.

  A block holds 1024 queries (1024 features each), 512 keys and 512 values (1024 features each); three scratch arrays
  carry, per query, the running maximum m, the running denominator l, and per query and feature the running numerator
  acc. With the block's scores  s(r, j) = Σ_d q(r, d) · k(j, d)  the body computes
    m' = max m (max_j s(r, j)),   α = exp (m − m'),   p(r, j) = exp (s(r, j) − m'),
    l' = α · l + Σ_j p(r, j),   acc'(r, d) = α · acc(r, d) + Σ_j p(r, j) · v(j, d),
  and the last block stores acc / l. Over the extended reals the roundings to the narrower format are the identity and a
  product into the zero accumulator is the plain sum.
-/
import proofs.«132284_j80900003987672_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Cert.KernelIdeal Cert.KernelIdeal.Gen Idealize.ShloMosaic.ValueIdx

/-! ### Layout: a column [1, a, 1] -/

section Column
variable {α : Type}

/-- A [1, a] array viewed as the column [1, a, 1] reads, at (0, r, 0), the operand at (0, r). -/
theorem shapeCast_1a_1a1_apply {a : ℕ} (v : (⟨2, ![1, a]⟩ : Shape).Idx → α)
    (h : (⟨2, ![1, a]⟩ : Shape).ShapeCasts ⟨3, ![1, a, 1]⟩) (r : Fin a) :
    shapeCast ⟨3, ![1, a, 1]⟩ v h (ix3 (0 : Fin 1) r (0 : Fin 1)) = v (ix2 (0 : Fin 1) r) :=
  shapeCast_apply v h _ _ (by
    rw [Shape.rowMajor_val_two, Shape.rowMajor_val_three]
    show 0 * a + r.val = (0 * a + r.val) * 1 + 0
    omega)

/-- A column [1, a, 1] broadcast to [1, a, b] reads, at (0, r, d), the column at (0, r, 0). -/
theorem broadcastTo_1a1_1ab_apply {a b : ℕ} (v : (⟨3, ![1, a, 1]⟩ : Shape).Idx → α)
    (h : (⟨3, ![1, a, 1]⟩ : Shape).Broadcasts ⟨3, ![1, a, b]⟩) (r : Fin a) (d : Fin b) :
    broadcastTo ⟨3, ![1, a, b]⟩ v h (ix3 (0 : Fin 1) r d) = v (ix3 (0 : Fin 1) r (0 : Fin 1)) := by
  refine broadcastTo_apply v h _ _ fun ax => ?_
  match ax with
  | ⟨0, _⟩ => rfl
  | ⟨1, _⟩ =>
    show r.val = if a = 1 then 0 else r.val
    split
    · have := r.isLt; omega
    · rfl
  | ⟨2, _⟩ => rfl

end Column

/-! ### The two products -/

/-- The dimension numbers of queries by keys: both contracted on their features, batch axis 0. -/
abbrev D1 : DotDims S1x1024x1024 S1x512x1024 S1x1024x512 := dot_S1x1024x1024_S1x512x1024_S1x1024x512_2_2_1_1_0_0

/-- The dimension numbers of weights by values: the keys contracted, batch axis 0. -/
abbrev D2 : DotDims S1x1024x512 S1x512x1024 S1x1024x1024 := dot_S1x1024x512_S1x512x1024_S1x1024x1024_2_1_1_2_0_0

theorem D1_lhs0 (i : S1x1024x512.Idx) (q : D1.contr.Idx) : (D1.lhsIdx i q 0).val = (i 0).val := by
  unfold DotDims.lhsIdx
  rw [dif_pos (show (0 : Fin S1x1024x1024.rank) ∈ D1.lhsBatch by decide)]
  rfl
theorem D1_lhs1 (i : S1x1024x512.Idx) (q : D1.contr.Idx) : (D1.lhsIdx i q 1).val = (i 1).val := by
  unfold DotDims.lhsIdx
  rw [dif_neg (show ¬(1 : Fin S1x1024x1024.rank) ∈ D1.lhsBatch by decide),
    dif_pos (show (1 : Fin S1x1024x1024.rank) ∈ D1.lhsNonContracting by decide)]
  rfl
theorem D1_lhs2 (i : S1x1024x512.Idx) (q : D1.contr.Idx) : (D1.lhsIdx i q 2).val = (q ⟨0, by decide⟩).val :=
  D1.lhsIdx_val_of_single rfl i q
theorem D1_rhs0 (i : S1x1024x512.Idx) (q : D1.contr.Idx) : (D1.rhsIdx i q 0).val = (i 0).val := by
  unfold DotDims.rhsIdx
  rw [dif_pos (show (0 : Fin S1x512x1024.rank) ∈ D1.rhsBatch by decide)]
  rfl
theorem D1_rhs1 (i : S1x1024x512.Idx) (q : D1.contr.Idx) : (D1.rhsIdx i q 1).val = (i 2).val := by
  unfold DotDims.rhsIdx
  rw [dif_neg (show ¬(1 : Fin S1x512x1024.rank) ∈ D1.rhsBatch by decide),
    dif_pos (show (1 : Fin S1x512x1024.rank) ∈ D1.rhsNonContracting by decide)]
  rfl
theorem D1_rhs2 (i : S1x1024x512.Idx) (q : D1.contr.Idx) : (D1.rhsIdx i q 2).val = (q ⟨0, by decide⟩).val :=
  D1.rhsIdx_val_of_single rfl i q

theorem D2_lhs0 (i : S1x1024x1024.Idx) (q : D2.contr.Idx) : (D2.lhsIdx i q 0).val = (i 0).val := by
  unfold DotDims.lhsIdx
  rw [dif_pos (show (0 : Fin S1x1024x512.rank) ∈ D2.lhsBatch by decide)]
  rfl
theorem D2_lhs1 (i : S1x1024x1024.Idx) (q : D2.contr.Idx) : (D2.lhsIdx i q 1).val = (i 1).val := by
  unfold DotDims.lhsIdx
  rw [dif_neg (show ¬(1 : Fin S1x1024x512.rank) ∈ D2.lhsBatch by decide),
    dif_pos (show (1 : Fin S1x1024x512.rank) ∈ D2.lhsNonContracting by decide)]
  rfl
theorem D2_lhs2 (i : S1x1024x1024.Idx) (q : D2.contr.Idx) : (D2.lhsIdx i q 2).val = (q ⟨0, by decide⟩).val :=
  D2.lhsIdx_val_of_single rfl i q
theorem D2_rhs0 (i : S1x1024x1024.Idx) (q : D2.contr.Idx) : (D2.rhsIdx i q 0).val = (i 0).val := by
  unfold DotDims.rhsIdx
  rw [dif_pos (show (0 : Fin S1x512x1024.rank) ∈ D2.rhsBatch by decide)]
  rfl
theorem D2_rhs1 (i : S1x1024x1024.Idx) (q : D2.contr.Idx) : (D2.rhsIdx i q 1).val = (q ⟨0, by decide⟩).val :=
  D2.rhsIdx_val_of_single rfl i q
theorem D2_rhs2 (i : S1x1024x1024.Idx) (q : D2.contr.Idx) : (D2.rhsIdx i q 2).val = (i 2).val := by
  unfold DotDims.rhsIdx
  rw [dif_neg (show ¬(2 : Fin S1x512x1024.rank) ∈ D2.rhsBatch by decide),
    dif_pos (show (2 : Fin S1x512x1024.rank) ∈ D2.rhsNonContracting by decide)]
  rfl

/-- Queries by keys into the zero accumulator, at query r and key j: the sum over the 1024 features. -/
theorem matmul1_apply (l : FVec Ideal S1x1024x1024 .bf16) (k : FVec Ideal S1x512x1024 .bf16) (r : Fin 1024) (j : Fin 512) :
    matmul D1 none l k (constant (F := Ideal) S1x1024x512 .f32 0x00000000#32) (ix3 (0 : Fin 1) r j)
      = ∑ d : Fin 1024, l (ix3 (0 : Fin 1) r d) * k (ix3 (0 : Fin 1) j d) := by
  simp only [matmul]
  rw [Ideal.matmul_constant_zero_apply, ← Equiv.sum_comp (contrEquiv1 D1 1024 rfl rfl).symm]
  refine Finset.sum_congr rfl fun c _ => ?_
  have hc := contrEquiv1_symm_val D1 1024 rfl rfl c
  have el : D1.lhsIdx (ix3 (0 : Fin 1) r j) ((contrEquiv1 D1 1024 rfl rfl).symm c) = ix3 (0 : Fin 1) r c :=
    funext fun a => Fin.ext (by
      match a with
      | ⟨0, _⟩ => exact D1_lhs0 _ _
      | ⟨1, _⟩ => exact D1_lhs1 _ _
      | ⟨2, _⟩ => exact (D1_lhs2 _ _).trans hc)
  have er : D1.rhsIdx (ix3 (0 : Fin 1) r j) ((contrEquiv1 D1 1024 rfl rfl).symm c) = ix3 (0 : Fin 1) j c :=
    funext fun a => Fin.ext (by
      match a with
      | ⟨0, _⟩ => exact D1_rhs0 _ _
      | ⟨1, _⟩ => exact D1_rhs1 _ _
      | ⟨2, _⟩ => exact (D1_rhs2 _ _).trans hc)
  rw [el, er]

/-- Weights by values into the zero accumulator, at query r and feature d: the sum over the 512 keys. -/
theorem matmul2_apply (w : FVec Ideal S1x1024x512 .bf16) (v : FVec Ideal S1x512x1024 .bf16) (r : Fin 1024) (d : Fin 1024) :
    matmul D2 none w v (constant (F := Ideal) S1x1024x1024 .f32 0x00000000#32) (ix3 (0 : Fin 1) r d)
      = ∑ j : Fin 512, w (ix3 (0 : Fin 1) r j) * v (ix3 (0 : Fin 1) j d) := by
  simp only [matmul]
  rw [Ideal.matmul_constant_zero_apply, ← Equiv.sum_comp (contrEquiv1 D2 512 rfl rfl).symm]
  refine Finset.sum_congr rfl fun c _ => ?_
  have hc := contrEquiv1_symm_val D2 512 rfl rfl c
  have el : D2.lhsIdx (ix3 (0 : Fin 1) r d) ((contrEquiv1 D2 512 rfl rfl).symm c) = ix3 (0 : Fin 1) r c :=
    funext fun a => Fin.ext (by
      match a with
      | ⟨0, _⟩ => exact D2_lhs0 _ _
      | ⟨1, _⟩ => exact D2_lhs1 _ _
      | ⟨2, _⟩ => exact (D2_lhs2 _ _).trans hc)
  have er : D2.rhsIdx (ix3 (0 : Fin 1) r d) ((contrEquiv1 D2 512 rfl rfl).symm c) = ix3 (0 : Fin 1) c d :=
    funext fun a => Fin.ext (by
      match a with
      | ⟨0, _⟩ => exact D2_rhs0 _ _
      | ⟨1, _⟩ => exact (D2_rhs1 _ _).trans hc
      | ⟨2, _⟩ => exact D2_rhs2 _ _)
  rw [el, er]

/-! ### The reductions over the keys of the block -/

/-- The pattern 0xFF800000 denotes −∞. -/
theorem neg_inf_eq_bot : Ideal.ofBits .f32 0xFF800000#32 = (⊥ : EReal) := by simp [Ideal.ofBits, Ideal.ieee]

/-- The index of a [1, 1024, 512] array over (0, r) with key j inserted on the last axis is (0, r, j). -/
theorem lift_eq (r : Fin 1024) (j : Fin 512) :
    reduces_S1x1024x512_S1x1024.lift (ix2 (0 : Fin 1) r) j = ix3 (0 : Fin 1) r j :=
  funext fun c => Fin.ext (by
    match c with
    | ⟨0, _⟩ => rfl
    | ⟨1, _⟩ => rfl
    | ⟨2, _⟩ => rfl)

/-- The maximum over the block's keys, from −∞: the supremum over the 512 keys. -/
theorem rowMax_apply (src : FVec Ideal S1x1024x512 .f32) (r : Fin 1024) :
    multiReduction .maximumf [2] S1x1024 src 0xFF800000#32 reduces_S1x1024x512_S1x1024 (.inl rfl) rfl (ix2 (0 : Fin 1) r)
      = Finset.univ.sup fun j : Fin 512 => src (ix3 (0 : Fin 1) r j) := by
  refine (Ideal.multiReduction_maximumf_single src 0xFF800000#32 reduces_S1x1024x512_S1x1024 (.inl rfl) rfl _).trans ?_
  show (Finset.univ : Finset (Fin 512)).fold max (Ideal.ofBits .f32 0xFF800000#32)
      (fun j : Fin 512 => src (reduces_S1x1024x512_S1x1024.lift (ix2 (0 : Fin 1) r) j)) = _
  rw [neg_inf_eq_bot]
  simp only [lift_eq]
  rfl

/-- The sum over the block's keys. -/
theorem rowSum_apply (src : FVec Ideal S1x1024x512 .f32) (r : Fin 1024) :
    multiReduction .add [2] S1x1024 src 0x00000000#32 reduces_S1x1024x512_S1x1024 (.inl rfl) rfl (ix2 (0 : Fin 1) r)
      = ∑ j : Fin 512, src (ix3 (0 : Fin 1) r j) := by
  refine (Ideal.multiReduction_add_single src 0x00000000#32 reduces_S1x1024x512_S1x1024 (.inl rfl) rfl _).trans ?_
  show (∑ j : Fin 512, src (reduces_S1x1024x512_S1x1024.lift (ix2 (0 : Fin 1) r) j)) = _
  simp only [lift_eq]

/-! ### The payloads -/

/-- The score of query r and key j of the block: the dot product over the 1024 features. -/
def sc (x0 : Vec Ideal S1x1024x1024 .bf16) (x1 : Vec Ideal S1x512x1024 .bf16) (r : Fin 1024) (j : Fin 512) : EReal :=
  ∑ d : Fin 1024, x0 (ix3 (0 : Fin 1) r d) * x1 (ix3 (0 : Fin 1) j d)

/-- The new running maximum of query r: the larger of the old one and the largest score of the block. -/
def newMax (x0 : Vec Ideal S1x1024x1024 .bf16) (x1 : Vec Ideal S1x512x1024 .bf16) (s0 : Vec Ideal S1x1024x1 .f32)
    (r : Fin 1024) : EReal :=
  max (s0 (ix3 (0 : Fin 1) r (0 : Fin 1))) (Finset.univ.sup fun j : Fin 512 => sc x0 x1 r j)

theorem k1_pay8_apply (x0 : Vec Ideal S1x1024x1024 .bf16) (x1 : Vec Ideal S1x512x1024 .bf16) (r : Fin 1024) (j : Fin 512) :
    k1_pay8 (F := Ideal) x0 x1 (ix3 (0 : Fin 1) r j) = sc x0 x1 r j := by
  unfold k1_pay8
  simp only [shapeCast_self]
  exact matmul1_apply _ _ r j

theorem k1_pay9_apply (x0 : Vec Ideal S1x1024x1024 .bf16) (x1 : Vec Ideal S1x512x1024 .bf16) (s0 : Vec Ideal S1x1024x1 .f32)
    (r : Fin 1024) :
    k1_pay9 (F := Ideal) x0 x1 s0 (ix3 (0 : Fin 1) r (0 : Fin 1)) = newMax x0 x1 s0 r := by
  unfold k1_pay9 newMax
  refine (maximumf_apply _ _ _).trans ?_
  refine congrArg (max _) ?_
  refine (shapeCast_1a_1a1_apply _ _ r).trans ?_
  refine (rowMax_apply _ r).trans ?_
  simp only [k1_pay8_apply]

/-- The new running maximum as stored. -/
theorem stepM_apply (x0 : Vec Ideal S1x1024x1024 .bf16) (x1 : Vec Ideal S1x512x1024 .bf16) (s0 : Vec Ideal S1x1024x1 .f32)
    (r : Fin 1024) :
    k1_pay2 (F := Ideal) (k1_pay9 x0 x1 s0) (ix3 (0 : Fin 1) r (0 : Fin 1)) = newMax x0 x1 s0 r := by
  unfold k1_pay2
  simp only [shapeCast_self]
  exact k1_pay9_apply x0 x1 s0 r

/-- The rescaling factor exp (m − m'). -/
theorem k1_pay10_apply (x0 : Vec Ideal S1x1024x1024 .bf16) (x1 : Vec Ideal S1x512x1024 .bf16)
    (s0 s0' : Vec Ideal S1x1024x1 .f32) (r : Fin 1024) :
    k1_pay10 (F := Ideal) x0 x1 s0 s0' (ix3 (0 : Fin 1) r (0 : Fin 1))
      = Ideal.exp (s0' (ix3 (0 : Fin 1) r (0 : Fin 1)) - newMax x0 x1 s0 r) := by
  unfold k1_pay10
  show Ideal.exp (s0' (ix3 (0 : Fin 1) r (0 : Fin 1)) - k1_pay9 (F := Ideal) x0 x1 s0 (ix3 (0 : Fin 1) r (0 : Fin 1))) = _
  rw [k1_pay9_apply]

/-- The unnormalised weight exp (s(r, j) − m'). -/
theorem k1_pay11_apply (x0 : Vec Ideal S1x1024x1024 .bf16) (x1 : Vec Ideal S1x512x1024 .bf16) (s0 : Vec Ideal S1x1024x1 .f32)
    (r : Fin 1024) (j : Fin 512) :
    k1_pay11 (F := Ideal) x0 x1 s0 (ix3 (0 : Fin 1) r j) = Ideal.exp (sc x0 x1 r j - newMax x0 x1 s0 r) := by
  unfold k1_pay11
  show Ideal.exp (k1_pay8 (F := Ideal) x0 x1 (ix3 (0 : Fin 1) r j)
      - broadcastTo S1x1024x512 (k1_pay9 (F := Ideal) x0 x1 s0) broadcasts_S1x1024x1_S1x1024x512 (ix3 (0 : Fin 1) r j)) = _
  rw [k1_pay8_apply, broadcastTo_1a1_1ab_apply, k1_pay9_apply]

/-- The new running denominator as stored. -/
theorem stepL_apply (x0 : Vec Ideal S1x1024x1024 .bf16) (x1 : Vec Ideal S1x512x1024 .bf16)
    (s0 s0' s1 : Vec Ideal S1x1024x1 .f32) (r : Fin 1024) :
    k1_pay12 (F := Ideal) x0 x1 s0 s0' s1 (ix3 (0 : Fin 1) r (0 : Fin 1))
      = Ideal.exp (s0' (ix3 (0 : Fin 1) r (0 : Fin 1)) - newMax x0 x1 s0 r) * s1 (ix3 (0 : Fin 1) r (0 : Fin 1))
        + ∑ j : Fin 512, Ideal.exp (sc x0 x1 r j - newMax x0 x1 s0 r) := by
  unfold k1_pay12
  simp only [shapeCast_self]
  refine (addf_apply _ _ _).trans ?_
  refine congrArg₂ (· + ·) ?_ ?_
  · refine (mulf_apply _ _ _).trans ?_
    rw [k1_pay10_apply]
  · refine (shapeCast_1a_1a1_apply _ _ r).trans ?_
    refine (rowSum_apply _ r).trans ?_
    simp only [k1_pay11_apply]

/-- The numerator's update for any rescaling column a, weights w and values v. -/
theorem k1_pay1_apply (v : FVec Ideal S1x512x1024 .bf16) (a : FVec Ideal S1x1024x1 .f32) (w : FVec Ideal S1x1024x512 .f32)
    (s2 : Vec Ideal S1x1024x1024 .f32) (r : Fin 1024) (d : Fin 1024) :
    k1_pay1 (F := Ideal) v a w s2 (ix3 (0 : Fin 1) r d)
      = a (ix3 (0 : Fin 1) r (0 : Fin 1)) * s2 (ix3 (0 : Fin 1) r d)
        + ∑ j : Fin 512, w (ix3 (0 : Fin 1) r j) * v (ix3 (0 : Fin 1) j d) := by
  unfold k1_pay1
  simp only [shapeCast_self]
  refine (addf_apply _ _ _).trans ?_
  refine congrArg₂ (· + ·) ?_ ?_
  · refine (mulf_apply _ _ _).trans ?_
    rw [broadcastTo_1a1_1ab_apply]
  · exact (matmul2_apply _ _ r d).trans (Finset.sum_congr rfl fun j _ => rfl)

/-- The new running numerator as stored. -/
theorem stepA_apply (x0 : Vec Ideal S1x1024x1024 .bf16) (x1 x2 : Vec Ideal S1x512x1024 .bf16)
    (s0 s0' : Vec Ideal S1x1024x1 .f32) (s2 : Vec Ideal S1x1024x1024 .f32) (r : Fin 1024) (d : Fin 1024) :
    k1_pay1 (F := Ideal) (k1_pay7 x2) (k1_pay10 x0 x1 s0 s0') (k1_pay11 x0 x1 s0) s2 (ix3 (0 : Fin 1) r d)
      = Ideal.exp (s0' (ix3 (0 : Fin 1) r (0 : Fin 1)) - newMax x0 x1 s0 r) * s2 (ix3 (0 : Fin 1) r d)
        + ∑ j : Fin 512, Ideal.exp (sc x0 x1 r j - newMax x0 x1 s0 r) * x2 (ix3 (0 : Fin 1) j d) := by
  rw [k1_pay1_apply, k1_pay10_apply]
  simp only [k1_pay11_apply]
  unfold k1_pay7
  simp only [shapeCast_self]

/-- The result as stored by the last block: numerator over denominator. -/
theorem outO_apply (a : Vec Ideal S1x1024x1024 .f32) (l : Vec Ideal S1x1024x1 .f32) (r : Fin 1024) (d : Fin 1024) :
    k1_pay3 (F := Ideal) a l (ix3 (0 : Fin 1) r d)
      = Ideal.div (a (ix3 (0 : Fin 1) r d)) (l (ix3 (0 : Fin 1) r (0 : Fin 1))) := by
  unfold k1_pay3
  refine (divf_apply _ _ _).trans ?_
  rw [broadcastTo_1a1_1ab_apply]

/-- The initial running maximum: −∞. -/
theorem k1_pay4_apply (i : S1x1024x1.Idx) : k1_pay4 (F := Ideal) i = (⊥ : EReal) := by
  unfold k1_pay4
  simp only [shapeCast_self]
  exact neg_inf_eq_bot

/-- The initial running denominator: 0. -/
theorem k1_pay5_apply (i : S1x1024x1.Idx) : k1_pay5 (F := Ideal) i = (0 : EReal) := by
  unfold k1_pay5
  simp only [shapeCast_self]
  exact Ideal.ofBits_zero_f32

/-- The initial running numerator: 0. -/
theorem k1_pay6_apply (i : S1x1024x1024.Idx) : k1_pay6 (F := Ideal) i = (0 : EReal) := by
  unfold k1_pay6
  simp only [shapeCast_self]
  exact Ideal.ofBits_zero_f32

end Cert.KernelIdeal.PayIdeal

end
-- ==== Proof.LibOnlineSoftmax.lean ====
/-
  A sum of exponentials shifted by the maximum, accumulated chunk by chunk, on the extended reals.

  For finitely many real scores `x j`, a pass over pairwise disjoint chunks keeps two numbers:
    `m` — the maximum of the scores seen so far, `−∞` before the first chunk;
    `l` — the sum over the scores seen so far of `exp (x j − m)`, `0` before the first chunk;
  and at a new, non-empty chunk `T` it replaces them by
    `m' = max m (max over T of x j)`,   `l' = l · exp (m − m') + Σ over T of exp (x j − m')`.
  The update keeps both descriptions: `m'` is the maximum over the scores seen including `T`, and `l'` the sum
  over them of `exp (x j − m')`. Before the first chunk `l = 0`, so the rescaled old sum vanishes whatever
  `exp (−∞ − m')` is; afterwards every quantity is a real number and the identity is
  `exp (x − m) · exp (m − m') = exp (x − m')`, summed. After the last chunk `l` is therefore the two-pass value
  `Σ over all j of exp (x j − max over all j of x j)`.
-/
import Idealize.ShloMosaic.PureOps.Ideal

noncomputable section

namespace OnlineSoftmax

open Idealize.ShloMosaic

variable {ι : Type} [DecidableEq ι]

/-- The maximum of the scores over `S` as an extended real; `−∞` over the empty set. -/
def runMax (x : ι → ℝ) (S : Finset ι) : EReal := S.sup fun j => (x j : EReal)

/-- The sum over `S` of `exp (x j − m)`. -/
def runSum (x : ι → ℝ) (S : Finset ι) (m : EReal) : EReal := ∑ j ∈ S, Ideal.exp ((x j : EReal) - m)

theorem runMax_empty (x : ι → ℝ) : runMax x ∅ = ⊥ := Finset.sup_empty

theorem runSum_empty (x : ι → ℝ) (m : EReal) : runSum x ∅ m = 0 := Finset.sum_empty

/-- The maximum over a union is the larger of the two maxima. -/
theorem runMax_union (x : ι → ℝ) (S T : Finset ι) : max (runMax x S) (runMax x T) = runMax x (S ∪ T) := by
  unfold runMax
  rw [Finset.sup_union]

/-- Over a non-empty set the maximum of real scores is a real number. -/
theorem runMax_real (x : ι → ℝ) {S : Finset ι} (hS : S.Nonempty) : ∃ a : ℝ, runMax x S = (a : EReal) := by
  obtain ⟨j, hj⟩ := hS
  have hbot : runMax x S ≠ ⊥ := by
    intro h
    have hle : ((x j : ℝ) : EReal) ≤ runMax x S := Finset.le_sup (f := fun j => (x j : EReal)) hj
    rw [h] at hle
    exact EReal.coe_ne_bot _ (le_bot_iff.mp hle)
  have htop : runMax x S ≠ ⊤ := by
    apply ne_of_lt
    unfold runMax
    rw [Finset.sup_lt_iff (by exact bot_lt_top)]
    intro b _
    exact EReal.coe_lt_top _
  exact ⟨(runMax x S).toReal, (EReal.coe_toReal htop hbot).symm⟩

/-- A real sum read as an extended real is the sum of the terms read as extended reals. -/
theorem coe_sum (S : Finset ι) (f : ι → ℝ) : ((∑ j ∈ S, f j : ℝ) : EReal) = ∑ j ∈ S, (f j : EReal) := by
  induction S using Finset.induction_on with
  | empty => simp
  | insert j S hj ih => rw [Finset.sum_insert hj, Finset.sum_insert hj, EReal.coe_add, ih]

/-- With a real shift, the shifted sum of exponentials is a real number. -/
theorem runSum_coe (x : ι → ℝ) (S : Finset ι) (a : ℝ) :
    runSum x S (a : EReal) = ((∑ j ∈ S, Real.exp (x j - a) : ℝ) : EReal) := by
  unfold runSum
  rw [coe_sum]
  refine Finset.sum_congr rfl fun j _ => ?_
  rw [← EReal.coe_sub]
  rfl

/-- The update at a new non-empty chunk `T` disjoint from the scores `S` seen so far: the old sum rescaled from
    the old maximum to the new one, plus the chunk's terms at the new maximum, is the sum over `S ∪ T` at the new
    maximum. `S` may be empty: then the old maximum is `−∞`, the old sum `0`, and the product is `0`. -/
theorem step (x : ι → ℝ) (S T : Finset ι) (hd : Disjoint S T) (hT : T.Nonempty) :
    runSum x S (runMax x S) * Ideal.exp (runMax x S - runMax x (S ∪ T)) + runSum x T (runMax x (S ∪ T))
      = runSum x (S ∪ T) (runMax x (S ∪ T)) := by
  obtain ⟨b, hb⟩ := runMax_real x (hT.mono (Finset.subset_union_right (s₁ := S)))
  rcases S.eq_empty_or_nonempty with rfl | hS
  · rw [runSum_empty, zero_mul, zero_add, Finset.empty_union]
  · obtain ⟨a, ha⟩ := runMax_real x hS
    rw [hb, ha, runSum_coe, runSum_coe, runSum_coe, ← EReal.coe_sub]
    show ((_ : ℝ) : EReal) * ((Real.exp (a - b) : ℝ) : EReal) + _ = _
    rw [← EReal.coe_mul, ← EReal.coe_add, Finset.sum_union hd, Finset.sum_mul]
    congr 2
    refine Finset.sum_congr rfl fun j _ => ?_
    rw [← Real.exp_add]
    congr 1
    ring

end OnlineSoftmax

end
-- ==== Proof.LibFlashRow.lean ====
/-
  Softmax-weighted sums accumulated chunk by chunk, on the extended reals.

  For finitely many real scores `x j` and real values `v j`, a pass over pairwise disjoint non-empty chunks keeps
  three numbers:
    `m`   — the maximum of the scores seen so far, `−∞` before the first chunk;
    `l`   — the sum over the scores seen so far of `exp (x j − m)`, `0` before the first chunk;
    `acc` — the sum over the scores seen so far of `exp (x j − m) · v j`, `0` before the first chunk;
  and at a new chunk `T` it replaces them by
    `m' = max m (max over T of x j)`,   `α = exp (m − m')`,
    `l' = α · l + Σ over T of exp (x j − m')`,   `acc' = α · acc + Σ over T of exp (x j − m') · v j`.
  The update keeps all three descriptions (`exp (x − m) · exp (m − m') = exp (x − m')`, summed; before the first
  chunk the old sums are `0`, so the rescaled old sums vanish whatever `exp (−∞ − m')` is). After the last chunk
  `acc / l` is therefore the softmax-weighted sum `Σ_j exp (x j − a) / (Σ_j' exp (x j' − a)) · v j` with `a` the maximum
  of all the scores: a real number.
-/
import proofs.«132284_j80900003987672_2_alg».proof.Proof.LibOnlineSoftmax

noncomputable section

namespace FlashRow

open Idealize.ShloMosaic OnlineSoftmax

variable {ι : Type} [DecidableEq ι]

/-- The sum over `S` of `exp (x j − m) · v j`. -/
def runW (x v : ι → ℝ) (S : Finset ι) (m : EReal) : EReal :=
  ∑ j ∈ S, Ideal.exp ((x j : EReal) - m) * (v j : EReal)

theorem runW_empty (x v : ι → ℝ) (m : EReal) : runW x v ∅ m = 0 := Finset.sum_empty

/-- With a real shift, the weighted sum of shifted exponentials is a real number. -/
theorem runW_coe (x v : ι → ℝ) (S : Finset ι) (a : ℝ) :
    runW x v S (a : EReal) = ((∑ j ∈ S, Real.exp (x j - a) * v j : ℝ) : EReal) := by
  unfold runW
  rw [coe_sum]
  refine Finset.sum_congr rfl fun j _ => ?_
  rw [← EReal.coe_sub, EReal.coe_mul]
  rfl

/-- The maximum over a non-empty set, as an extended real, is the real maximum `S.sup' hS x`. -/
theorem runMax_eq_sup' (x : ι → ℝ) {S : Finset ι} (hS : S.Nonempty) :
    runMax x S = ((S.sup' hS x : ℝ) : EReal) := by
  apply le_antisymm
  · unfold runMax
    apply Finset.sup_le
    intro j hj
    exact EReal.coe_le_coe_iff.mpr (Finset.le_sup' x hj)
  · obtain ⟨i, hi, he⟩ := Finset.exists_mem_eq_sup' hS x
    rw [he]
    exact Finset.le_sup (f := fun j => (x j : EReal)) hi

/-- The update of the sum of exponentials with the rescaling factor on the left:
    `exp (m − m') · l + Σ over T of exp (x j − m')` is the sum over `S ∪ T` at the new maximum. -/
theorem stepSum (x : ι → ℝ) (S T : Finset ι) (hd : Disjoint S T) (hT : T.Nonempty) :
    Ideal.exp (runMax x S - runMax x (S ∪ T)) * runSum x S (runMax x S) + runSum x T (runMax x (S ∪ T))
      = runSum x (S ∪ T) (runMax x (S ∪ T)) := by
  rw [mul_comm]
  exact step x S T hd hT

/-- The update of the weighted sum, rescaling factor on the right: for a non-empty chunk `T` disjoint from the
    scores `S` seen so far, the old weighted sum rescaled from the old maximum to the new one, plus the chunk's terms
    at the new maximum, is the weighted sum over `S ∪ T` at the new maximum. `S` may be empty: then the old
    weighted sum is `0` and so is the product. -/
theorem stepW' (x v : ι → ℝ) (S T : Finset ι) (hd : Disjoint S T) (hT : T.Nonempty) :
    runW x v S (runMax x S) * Ideal.exp (runMax x S - runMax x (S ∪ T)) + runW x v T (runMax x (S ∪ T))
      = runW x v (S ∪ T) (runMax x (S ∪ T)) := by
  obtain ⟨b, hb⟩ := runMax_real x (hT.mono (Finset.subset_union_right (s₁ := S)))
  rcases S.eq_empty_or_nonempty with rfl | hS
  · rw [runW_empty, zero_mul, zero_add, Finset.empty_union]
  · obtain ⟨a, ha⟩ := runMax_real x hS
    rw [hb, ha, runW_coe, runW_coe, runW_coe, ← EReal.coe_sub]
    show ((_ : ℝ) : EReal) * ((Real.exp (a - b) : ℝ) : EReal) + _ = _
    rw [← EReal.coe_mul, ← EReal.coe_add, Finset.sum_union hd, Finset.sum_mul]
    congr 2
    refine Finset.sum_congr rfl fun j _ => ?_
    rw [mul_right_comm, ← Real.exp_add]
    congr 2
    ring

/-- The update of the weighted sum with the rescaling factor on the left. -/
theorem stepW (x v : ι → ℝ) (S T : Finset ι) (hd : Disjoint S T) (hT : T.Nonempty) :
    Ideal.exp (runMax x S - runMax x (S ∪ T)) * runW x v S (runMax x S) + runW x v T (runMax x (S ∪ T))
      = runW x v (S ∪ T) (runMax x (S ∪ T)) := by
  rw [mul_comm]
  exact stepW' x v S T hd hT

/-- The finish: over a non-empty set the weighted sum divided by the sum of exponentials, both at the maximum
    `a` of the scores, is the real softmax-weighted sum `Σ_j exp (x j − a) / (Σ_j' exp (x j' − a)) · v j`. -/
theorem finish (x v : ι → ℝ) {S : Finset ι} (hS : S.Nonempty) :
    Ideal.div (runW x v S (runMax x S)) (runSum x S (runMax x S))
      = ((∑ j ∈ S, Real.exp (x j - S.sup' hS x) / (∑ j' ∈ S, Real.exp (x j' - S.sup' hS x)) * v j : ℝ) : EReal) := by
  rw [runMax_eq_sup' x hS, runW_coe, runSum_coe]
  have hpos : 0 < ∑ j' ∈ S, Real.exp (x j' - S.sup' hS x) :=
    Finset.sum_pos (fun j _ => Real.exp_pos _) hS
  rw [Ideal.div_coe (ne_of_gt hpos), ← EReal.coe_mul, Finset.sum_mul]
  congr 1
  refine Finset.sum_congr rfl fun j _ => ?_
  ring

/-! ### The three running numbers -/

/-- The three running numbers (maximum, sum of exponentials, weighted sum) after the scores of `S`. -/
def inv (x v : ι → ℝ) (S : Finset ι) : EReal × EReal × EReal :=
  (runMax x S, runSum x S (runMax x S), runW x v S (runMax x S))

/-- Before the first chunk: `(−∞, 0, 0)`. -/
theorem inv_empty (x v : ι → ℝ) : inv x v ∅ = (⊥, 0, 0) := by
  unfold inv
  rw [runMax_empty, runSum_empty, runW_empty]

/-- The update of the three running numbers at a chunk `T`. -/
def upd (x v : ι → ℝ) (s : EReal × EReal × EReal) (T : Finset ι) : EReal × EReal × EReal :=
  (max s.1 (runMax x T),
   Ideal.exp (s.1 - max s.1 (runMax x T)) * s.2.1 + runSum x T (max s.1 (runMax x T)),
   Ideal.exp (s.1 - max s.1 (runMax x T)) * s.2.2 + runW x v T (max s.1 (runMax x T)))

/-- One update at a non-empty chunk `T` disjoint from the scores `S` seen so far takes the three numbers of `S`
    to the three numbers of `S ∪ T`. -/
theorem upd_inv (x v : ι → ℝ) (S T : Finset ι) (hd : Disjoint S T) (hT : T.Nonempty) :
    upd x v (inv x v S) T = inv x v (S ∪ T) := by
  unfold upd inv
  simp only
  rw [runMax_union, stepSum x S T hd hT, stepW x v S T hd hT]

/-- The union of the first `c` of `n` chunks. -/
def seen {n : ℕ} (T : Fin n → Finset ι) (c : ℕ) : Finset ι :=
  (Finset.univ.filter fun i : Fin n => i.val < c).biUnion T

/-- The chunked run: start at `(−∞, 0, 0)` and update at the chunks `T 0, T 1, …` in turn
    (no update once the `n` chunks are used up). -/
def st (x v : ι → ℝ) {n : ℕ} (T : Fin n → Finset ι) : ℕ → EReal × EReal × EReal
  | 0 => (⊥, 0, 0)
  | c + 1 => if h : c < n then upd x v (st x v T c) (T ⟨c, h⟩) else st x v T c

theorem seen_zero {n : ℕ} (T : Fin n → Finset ι) : seen T 0 = ∅ := by
  unfold seen
  simp

theorem seen_succ {n : ℕ} (T : Fin n → Finset ι) (c : ℕ) (h : c < n) :
    seen T (c + 1) = seen T c ∪ T ⟨c, h⟩ := by
  unfold seen
  ext j
  simp only [Finset.mem_biUnion, Finset.mem_filter, Finset.mem_univ, true_and, Finset.mem_union]
  constructor
  · rintro ⟨i, hi, hj⟩
    rcases Nat.lt_succ_iff_lt_or_eq.mp hi with hlt | heq
    · exact Or.inl ⟨i, hlt, hj⟩
    · right
      have : i = ⟨c, h⟩ := Fin.ext heq
      rw [← this]; exact hj
  · rintro (⟨i, hi, hj⟩ | hj)
    · exact ⟨i, Nat.lt_succ_of_lt hi, hj⟩
    · exact ⟨⟨c, h⟩, Nat.lt_succ_self c, hj⟩

theorem seen_all {n : ℕ} (T : Fin n → Finset ι) : seen T n = Finset.univ.biUnion T := by
  unfold seen
  congr 1
  ext i
  simp

/-- After `c ≤ n` updates the three numbers are those of the union of the first `c` chunks. -/
theorem st_eq (x v : ι → ℝ) {n : ℕ} (T : Fin n → Finset ι)
    (hne : ∀ i, (T i).Nonempty) (hdis : ∀ i j, i ≠ j → Disjoint (T i) (T j)) :
    ∀ c, c ≤ n → st x v T c = inv x v (seen T c) := by
  intro c
  induction c with
  | zero => intro _; rw [seen_zero, inv_empty]; rfl
  | succ c ih =>
    intro hc
    have h : c < n := hc
    rw [st, dif_pos h, ih (Nat.le_of_lt h), seen_succ T c h]
    apply upd_inv x v _ _ _ (hne _)
    unfold seen
    rw [Finset.disjoint_biUnion_left]
    intro i hi
    apply hdis
    intro he
    rw [he] at hi
    simp at hi

/-- After all `n` chunks the three numbers are the maximum, the sum of exponentials and the weighted sum over the
    union `U` of the chunks, both sums at the maximum over `U`. -/
theorem st_all (x v : ι → ℝ) {n : ℕ} (T : Fin n → Finset ι)
    (hne : ∀ i, (T i).Nonempty) (hdis : ∀ i j, i ≠ j → Disjoint (T i) (T j)) :
    st x v T n = (runMax x (Finset.univ.biUnion T),
                  runSum x (Finset.univ.biUnion T) (runMax x (Finset.univ.biUnion T)),
                  runW x v (Finset.univ.biUnion T) (runMax x (Finset.univ.biUnion T))) := by
  rw [st_eq x v T hne hdis n le_rfl, seen_all]
  rfl

end FlashRow

end
-- ==== Proof.PayStep.lean ====
/-
  One block of the attention kernel is one update of the three running numbers of the chunked softmax-weighted sum.

  For a query r and a feature d, let the block's 512 keys sit at the positions e j of an index set ι, with real scores
  x and real values v there: the block's score of key j is x (e j), and the block's value of key j at feature d is
  v (e j). Then what the block stores — the new maximum, the new denominator and the new numerator at (r, d) — is
  FlashRow.upd of the old triple at the chunk {e j}. The chunks of 512 consecutive keys of 2048 are pairwise
  disjoint, non-empty, and cover all keys.
-/
import proofs.«132284_j80900003987672_2_alg».proof.Proof.PayIdeal1
import proofs.«132284_j80900003987672_2_alg».proof.Proof.LibFlashRow

noncomputable section

namespace Cert.KernelIdeal.PayIdeal

open Idealize.ShloMosaic Cert.KernelIdeal Cert.KernelIdeal.Gen Idealize.ShloMosaic.ValueIdx OnlineSoftmax FlashRow

/-- With real queries and keys the block's score is the real dot product. -/
theorem sc_coe (x0 : Vec Ideal S1x1024x1024 .bf16) (x1 : Vec Ideal S1x512x1024 .bf16)
    (q : Fin 1024 → Fin 1024 → ℝ) (k : Fin 512 → Fin 1024 → ℝ)
    (hq : ∀ r d, x0 (ix3 (0 : Fin 1) r d) = ((q r d : ℝ) : EReal))
    (hk : ∀ j d, x1 (ix3 (0 : Fin 1) j d) = ((k j d : ℝ) : EReal)) (r : Fin 1024) (j : Fin 512) :
    sc x0 x1 r j = ((∑ d : Fin 1024, q r d * k j d : ℝ) : EReal) := by
  unfold sc
  rw [coe_sum]
  refine Finset.sum_congr rfl fun d _ => ?_
  rw [hq, hk, EReal.coe_mul]

section Step
variable {ι : Type} [DecidableEq ι]

/-- The largest score of the block is the maximum over the chunk. -/
theorem blockMax_eq (x0 : Vec Ideal S1x1024x1024 .bf16) (x1 : Vec Ideal S1x512x1024 .bf16) (r : Fin 1024)
    (e : Fin 512 ↪ ι) (x : ι → ℝ) (hx : ∀ j, sc x0 x1 r j = ((x (e j) : ℝ) : EReal)) :
    (Finset.univ.sup fun j : Fin 512 => sc x0 x1 r j) = runMax x (Finset.univ.map e) := by
  unfold runMax
  rw [Finset.sup_map]
  exact Finset.sup_congr rfl fun j _ => hx j

/-- The block's sum of exponentials is the chunk's. -/
theorem blockSum_eq (x0 : Vec Ideal S1x1024x1024 .bf16) (x1 : Vec Ideal S1x512x1024 .bf16) (r : Fin 1024)
    (e : Fin 512 ↪ ι) (x : ι → ℝ) (hx : ∀ j, sc x0 x1 r j = ((x (e j) : ℝ) : EReal)) (m : EReal) :
    (∑ j : Fin 512, Ideal.exp (sc x0 x1 r j - m)) = runSum x (Finset.univ.map e) m := by
  unfold runSum
  rw [Finset.sum_map]
  exact Finset.sum_congr rfl fun j _ => by rw [hx j]

/-- The block's weighted sum is the chunk's. -/
theorem blockW_eq (x0 : Vec Ideal S1x1024x1024 .bf16) (x1 x2 : Vec Ideal S1x512x1024 .bf16) (r d : Fin 1024)
    (e : Fin 512 ↪ ι) (x v : ι → ℝ) (hx : ∀ j, sc x0 x1 r j = ((x (e j) : ℝ) : EReal))
    (hv : ∀ j, x2 (ix3 (0 : Fin 1) j d) = ((v (e j) : ℝ) : EReal)) (m : EReal) :
    (∑ j : Fin 512, Ideal.exp (sc x0 x1 r j - m) * x2 (ix3 (0 : Fin 1) j d)) = runW x v (Finset.univ.map e) m := by
  unfold runW
  rw [Finset.sum_map]
  exact Finset.sum_congr rfl fun j _ => by rw [hx j, hv j]

/-- One block: the stored maximum, denominator and numerator at (r, d) are the update of the old triple at the chunk. -/
theorem step_eq_upd (x0 : Vec Ideal S1x1024x1024 .bf16) (x1 x2 : Vec Ideal S1x512x1024 .bf16)
    (s0 s1 : Vec Ideal S1x1024x1 .f32) (s2 : Vec Ideal S1x1024x1024 .f32) (r d : Fin 1024)
    (e : Fin 512 ↪ ι) (x v : ι → ℝ) (hx : ∀ j, sc x0 x1 r j = ((x (e j) : ℝ) : EReal))
    (hv : ∀ j, x2 (ix3 (0 : Fin 1) j d) = ((v (e j) : ℝ) : EReal)) :
    (k1_pay2 (F := Ideal) (k1_pay9 x0 x1 s0) (ix3 (0 : Fin 1) r (0 : Fin 1)),
     k1_pay12 (F := Ideal) x0 x1 s0 s0 s1 (ix3 (0 : Fin 1) r (0 : Fin 1)),
     k1_pay1 (F := Ideal) (k1_pay7 x2) (k1_pay10 x0 x1 s0 s0) (k1_pay11 x0 x1 s0) s2 (ix3 (0 : Fin 1) r d))
      = upd x v (s0 (ix3 (0 : Fin 1) r (0 : Fin 1)), s1 (ix3 (0 : Fin 1) r (0 : Fin 1)), s2 (ix3 (0 : Fin 1) r d))
          (Finset.univ.map e) := by
  rw [stepM_apply, stepL_apply, stepA_apply]
  unfold upd newMax
  simp only
  rw [blockMax_eq x0 x1 r e x hx, blockSum_eq x0 x1 r e x hx, blockW_eq x0 x1 x2 r d e x v hx hv]

end Step

/-! ### The four chunks of 512 consecutive keys -/

/-- Key j of chunk c is key 512 c + j of the 2048. -/
def chunkEmb (c : Fin 4) : Fin 512 ↪ Fin 2048 where
  toFun j := ⟨512 * c.val + j.val, by have := c.isLt; have := j.isLt; omega⟩
  inj' a b h := by
    have h' := congrArg Fin.val h
    simp only at h'
    exact Fin.ext (by omega)

/-- Chunk c: the keys 512 c, …, 512 c + 511. -/
def chunk (c : Fin 4) : Finset (Fin 2048) := Finset.univ.map (chunkEmb c)

theorem mem_chunk (c : Fin 4) (i : Fin 2048) : i ∈ chunk c ↔ i.val / 512 = c.val := by
  unfold chunk
  rw [Finset.mem_map]
  constructor
  · rintro ⟨j, _, rfl⟩
    show (512 * c.val + j.val) / 512 = c.val
    have := j.isLt
    omega
  · intro h
    refine ⟨⟨i.val - 512 * c.val, by have := i.isLt; omega⟩, Finset.mem_univ _, Fin.ext ?_⟩
    show 512 * c.val + (i.val - 512 * c.val) = i.val
    omega

theorem chunk_nonempty (c : Fin 4) : (chunk c).Nonempty :=
  ⟨chunkEmb c 0, Finset.mem_map_of_mem _ (Finset.mem_univ _)⟩

theorem chunk_disjoint (c c' : Fin 4) (h : c ≠ c') : Disjoint (chunk c) (chunk c') := by
  rw [Finset.disjoint_left]
  intro i hi hi'
  rw [mem_chunk] at hi hi'
  exact h (Fin.ext (hi.symm.trans hi'))

theorem biUnion_chunk : Finset.univ.biUnion chunk = (Finset.univ : Finset (Fin 2048)) := by
  ext i
  simp only [Finset.mem_biUnion, Finset.mem_univ, true_and, iff_true]
  exact ⟨⟨i.val / 512, by have := i.isLt; omega⟩, (mem_chunk _ i).2 rfl⟩

end Cert.KernelIdeal.PayIdeal

end
-- ==== Proof.Spec.lean ====
/-
  Single-head self-attention over real numbers, as one function of the seven argument arrays.

  For a batch `b`, a query position `i` and an output feature `d`:
    the three projections are `x ↦ x · Wᵀ + bias` (a sum over the 1024 input features);
    the score of key `j` is the dot product of the projected query and key over the 1024 features, divided by 32
    (the square root of the feature count);
    the weights are the softmax of the 2048 scores of the row, shifted by the row's maximum;
    the result is the weighted sum of the projected values.
  Every quantity is a real number; the certificate reads both programs, under finite inputs, as this function.
-/
import Idealize.ShloMosaic.PureOps.Ideal

noncomputable section

namespace Attn

open scoped BigOperators

/-- The input: batch × position × feature. -/
abbrev Inp := Fin 4 → Fin 2048 → Fin 1024 → ℝ
/-- A weight matrix: output feature × input feature. -/
abbrev Mat := Fin 1024 → Fin 1024 → ℝ
/-- A bias: one number per output feature. -/
abbrev Bias := Fin 1024 → ℝ

/-- A linear projection `x · Wᵀ + bias` at batch `b`, position `s`, output feature `o`. -/
def proj (X : Inp) (W : Mat) (β : Bias) (b : Fin 4) (s : Fin 2048) (o : Fin 1024) : ℝ :=
  (∑ h : Fin 1024, X b s h * W o h) + β o

/-- The scaled score of key `j` for query `i`: the dot product of the projected rows over the features, over 32. -/
def score (X : Inp) (Wq : Mat) (bq : Bias) (Wk : Mat) (bk : Bias) (b : Fin 4) (i j : Fin 2048) : ℝ :=
  (∑ d : Fin 1024, proj X Wq bq b i d * proj X Wk bk b j d) / 32

/-- The largest score of a row. -/
def rowMax (x : Fin 2048 → ℝ) : ℝ := Finset.univ.sup' Finset.univ_nonempty x

/-- The sum over a row of the exponentials of the scores shifted by the row's maximum. -/
def rowSum (x : Fin 2048 → ℝ) : ℝ := ∑ j : Fin 2048, Real.exp (x j - rowMax x)

/-- Softmax-weighted sum of the values `v` along a row of scores `x`. -/
def rowOut (x v : Fin 2048 → ℝ) : ℝ := ∑ j : Fin 2048, Real.exp (x j - rowMax x) / rowSum x * v j

/-- Attention at batch `b`, query position `i`, output feature `d`. -/
def out (X : Inp) (Wq : Mat) (bq : Bias) (Wk : Mat) (bk : Bias) (Wv : Mat) (bv : Bias)
    (b : Fin 4) (i : Fin 2048) (d : Fin 1024) : ℝ :=
  rowOut (fun j => score X Wq bq Wk bk b i j) (fun j => proj X Wv bv b j d)

end Attn

end
-- ==== Proof.FlashRowSpec.lean ====
/-
  The finish of the chunked softmax-weighted sum, at a full row of 2048 keys: the weighted sum divided by the sum of
  exponentials, both at the row's maximum, is the specification's row output.
-/
import proofs.«132284_j80900003987672_2_alg».proof.Proof.Spec
import proofs.«132284_j80900003987672_2_alg».proof.Proof.LibFlashRow

noncomputable section

namespace FlashRow

open Idealize.ShloMosaic OnlineSoftmax

/-- The maximum over all 2048 keys, as an extended real, is the specification's row maximum. -/
theorem runMax_univ (x : Fin 2048 → ℝ) : runMax x Finset.univ = ((Attn.rowMax x : ℝ) : EReal) :=
  runMax_eq_sup' x Finset.univ_nonempty

/-- The sum of exponentials over all 2048 keys at the row's maximum is the specification's row sum. -/
theorem runSum_univ (x : Fin 2048 → ℝ) :
    runSum x Finset.univ (runMax x Finset.univ) = ((Attn.rowSum x : ℝ) : EReal) := by
  rw [runMax_univ, runSum_coe]
  rfl

/-- Over all 2048 keys the weighted sum divided by the sum of exponentials, both at the row's maximum, is the
    specification's softmax-weighted sum of the values. -/
theorem finish_univ (x v : Fin 2048 → ℝ) :
    Ideal.div (runW x v Finset.univ (runMax x Finset.univ)) (runSum x Finset.univ (runMax x Finset.univ))
      = ((Attn.rowOut x v : ℝ) : EReal) := by
  rw [finish x v Finset.univ_nonempty]
  rfl

end FlashRow

end
-- ==== Proof.FourSteps.lean ====
/-
  Four key blocks of the attention kernel, from the reset state, end at the specification's row output.

  For a block of 1024 queries with real features q, and 2048 keys and values with real features k and v, cut into four
  blocks of 512 consecutive keys: the running state (maximum, denominator, numerator) after the four updates is, at a
  query r and a feature d, the triple (max_j x j, Σ_j exp (x j − max), Σ_j exp (x j − max) · v(j, d)) over all 2048
  keys, where x j = Σ_dd q(r, dd) · k(j, dd) is the score of key j. Numerator over denominator is then the
  softmax-weighted sum of the values: the specification's row output.
-/
import proofs.«132284_j80900003987672_2_alg».proof.Proof.PayStep
import proofs.«132284_j80900003987672_2_alg».proof.Proof.FlashRowSpec
import proofs.«132284_j80900003987672_2_alg».proof.Proof.KBodyI

noncomputable section

namespace Cert.KernelIdeal.PayIdeal

open Idealize.ShloMosaic Cert.KernelIdeal Cert.KernelIdeal.Gen Idealize.ShloMosaic.ValueIdx OnlineSoftmax FlashRow

/-- The running state: maximum, denominator, numerator. -/
abbrev Tri : Type := Vec Ideal S1x1024x1 .f32 × Vec Ideal S1x1024x1 .f32 × Vec Ideal S1x1024x1024 .f32

/-- The reset state: maximum −∞, both sums zero. -/
def initT : Tri := (k1_pay4 (F := Ideal), k1_pay5 (F := Ideal), k1_pay6 (F := Ideal))

/-- One key block's update of the running state. -/
def stepT (x0 : Vec Ideal S1x1024x1024 .bf16) (x1 x2 : Vec Ideal S1x512x1024 .bf16) (s : Tri) : Tri :=
  (Hand.stepM x0 x1 s.1, Hand.stepL x0 x1 s.1 s.2.1, Hand.stepA x0 x1 x2 s.1 s.2.2)

/-- The three numbers of a state at query r and feature d. -/
def tri (s : Tri) (r d : Fin 1024) : EReal × EReal × EReal :=
  (s.1 (ix3 (0 : Fin 1) r (0 : Fin 1)), s.2.1 (ix3 (0 : Fin 1) r (0 : Fin 1)), s.2.2 (ix3 (0 : Fin 1) r d))

theorem tri_init (r d : Fin 1024) : tri initT r d = (⊥, 0, 0) := by
  unfold tri initT
  simp only [k1_pay4_apply, k1_pay5_apply, k1_pay6_apply]

/-- One block's update, read at (r, d), is the update of the three numbers at the block's chunk of keys. -/
theorem tri_step {ι : Type} [DecidableEq ι] (x0 : Vec Ideal S1x1024x1024 .bf16) (x1 x2 : Vec Ideal S1x512x1024 .bf16)
    (s : Tri) (r d : Fin 1024) (e : Fin 512 ↪ ι) (x v : ι → ℝ)
    (hx : ∀ j, sc x0 x1 r j = ((x (e j) : ℝ) : EReal))
    (hv : ∀ j, x2 (ix3 (0 : Fin 1) j d) = ((v (e j) : ℝ) : EReal)) :
    tri (stepT x0 x1 x2 s) r d = upd x v (tri s r d) (Finset.univ.map e) :=
  step_eq_upd x0 x1 x2 s.1 s.2.1 s.2.2 r d e x v hx hv

/-- Four updates from (−∞, 0, 0) at the chunks T 0, …, T 3 are the chunked run of four chunks. -/
theorem st_four {ι : Type} [DecidableEq ι] (x v : ι → ℝ) (T : Fin 4 → Finset ι) :
    upd x v (upd x v (upd x v (upd x v (⊥, 0, 0) (T 0)) (T 1)) (T 2)) (T 3) = st x v T 4 := by
  simp [st]

/-- After the four key blocks, numerator over denominator at (r, d) is the specification's row output for the scores of
    query r against all 2048 keys and the values' column d. -/
theorem four_steps (q : Fin 1024 → Fin 1024 → ℝ) (k v : Fin 2048 → Fin 1024 → ℝ)
    (xq : Fin 4 → Vec Ideal S1x1024x1024 .bf16) (xk xv : Fin 4 → Vec Ideal S1x512x1024 .bf16)
    (hq : ∀ (c : Fin 4) (r d : Fin 1024), xq c (ix3 (0 : Fin 1) r d) = ((q r d : ℝ) : EReal))
    (hk : ∀ (c : Fin 4) (j : Fin 512) (d : Fin 1024), xk c (ix3 (0 : Fin 1) j d)
      = ((k ⟨512 * c.val + j.val, by have := c.isLt; have := j.isLt; omega⟩ d : ℝ) : EReal))
    (hv : ∀ (c : Fin 4) (j : Fin 512) (d : Fin 1024), xv c (ix3 (0 : Fin 1) j d)
      = ((v ⟨512 * c.val + j.val, by have := c.isLt; have := j.isLt; omega⟩ d : ℝ) : EReal))
    (r d : Fin 1024) :
    Hand.outO (F := Ideal)
        (stepT (xq 3) (xk 3) (xv 3) (stepT (xq 2) (xk 2) (xv 2) (stepT (xq 1) (xk 1) (xv 1) (stepT (xq 0) (xk 0) (xv 0) initT)))).2.2
        (stepT (xq 3) (xk 3) (xv 3) (stepT (xq 2) (xk 2) (xv 2) (stepT (xq 1) (xk 1) (xv 1) (stepT (xq 0) (xk 0) (xv 0) initT)))).2.1
        (ix3 (0 : Fin 1) r d)
      = ((Attn.rowOut (fun j : Fin 2048 => ∑ dd : Fin 1024, q r dd * k j dd) (fun j => v j d) : ℝ) : EReal) := by
  generalize hxd : (fun j : Fin 2048 => ∑ dd : Fin 1024, q r dd * k j dd) = x
  generalize hvd : (fun j : Fin 2048 => v j d) = vv
  generalize hS : stepT (xq 3) (xk 3) (xv 3) (stepT (xq 2) (xk 2) (xv 2) (stepT (xq 1) (xk 1) (xv 1) (stepT (xq 0) (xk 0) (xv 0) initT))) = S
  have hx : ∀ (c : Fin 4) (j : Fin 512), sc (xq c) (xk c) r j = ((x (chunkEmb c j) : ℝ) : EReal) := fun c j => by
    rw [← hxd]
    exact sc_coe (xq c) (xk c) q (fun j d => k (chunkEmb c j) d) (hq c) (fun j d => hk c j d) r j
  have hvv : ∀ (c : Fin 4) (j : Fin 512), xv c (ix3 (0 : Fin 1) j d) = ((vv (chunkEmb c j) : ℝ) : EReal) := fun c j => by
    rw [← hvd]
    exact hv c j d
  have h4 : tri S r d = st x vv chunk 4 := by
    rw [← hS, tri_step _ _ _ _ r d (chunkEmb 3) x vv (hx 3) (hvv 3), tri_step _ _ _ _ r d (chunkEmb 2) x vv (hx 2) (hvv 2),
      tri_step _ _ _ _ r d (chunkEmb 1) x vv (hx 1) (hvv 1), tri_step _ _ _ _ r d (chunkEmb 0) x vv (hx 0) (hvv 0), tri_init]
    exact st_four x vv chunk
  have hall := st_all x vv chunk chunk_nonempty (fun i j h => chunk_disjoint i j h)
  rw [biUnion_chunk, ← h4] at hall
  have hnum : S.2.2 (ix3 (0 : Fin 1) r d) = (tri S r d).2.2 := rfl
  have hden : S.2.1 (ix3 (0 : Fin 1) r (0 : Fin 1)) = (tri S r d).2.1 := rfl
  show k1_pay3 (F := Ideal) S.2.2 S.2.1 (ix3 (0 : Fin 1) r d) = _
  rw [outO_apply, hnum, hden, hall]
  exact finish_univ x vv

end Cert.KernelIdeal.PayIdeal

end
-- ==== Proof.Val1.lean ====
import proofs.«132284_j80900003987672_2_alg».proof.Proof.KDataI
import proofs.«132284_j80900003987672_2_alg».proof.Proof.FourSteps
import proofs.«132284_j80900003987672_2_alg».proof.Proof.Spec
import Idealize.ShloMosaic.Lib.ValueIdx
import proofs.«132284_j80900003987672_2_alg».proof.Proof.Gen.KernelIdeal.Launch
import proofs.«132284_j80900003987672_2_alg».proof.Proof.Gen.KernelIdeal.Skeleton
import proofs.«132284_j80900003987672_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

/-- The attention region's index maps over its grid of 4 × 2 × 4 points, the key-block coordinate running fastest:
    the query and result blocks follow (batch, query block), the key and value blocks (batch, key block). -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

theorem N1_32 (t : Fin cfg1.N) : t.val < 32 := lt_of_lt_of_eq t.isLt (show cfg1.N = 32 from N_1)

/-- The query block at a grid point, element by element. -/
theorem blk0_apply (c : Dev nD) (t : Fin cfg1.N) (r d : Fin 1024) :
    iblk1 V c 0 t (ix3 (0 : Fin 1) r d)
      = V c main_v13 (ix3 (⟨t.val / 8, by have := N1_32 t; omega⟩ : Fin 4) (⟨1024 * (t.val / 4 % 2) + r.val, by omega⟩ : Fin 2048) d) := by
  obtain ⟨e0, e1, e2, -⟩ := idx_facts1 t
  show V c main_v13 (((cfg1.win 0).blk t).view.emb (ix3 (0 : Fin 1) r d)) = _
  congr 1
  funext a; apply Fin.ext
  match a with
  | ⟨0, _⟩ => show win1_0.index t (0 : Fin 3) * 1 + 1 * 0 = t.val / 8; omega
  | ⟨1, _⟩ => show win1_0.index t (1 : Fin 3) * 1024 + 1 * r.val = 1024 * (t.val / 4 % 2) + r.val; omega
  | ⟨2, _⟩ => show win1_0.index t (2 : Fin 3) * 1024 + 1 * d.val = d.val; omega

/-- The key block at a grid point, element by element. -/
theorem blk1_apply (c : Dev nD) (t : Fin cfg1.N) (j : Fin 512) (d : Fin 1024) :
    iblk1 V c 1 t (ix3 (0 : Fin 1) j d)
      = V c main_v14 (ix3 (⟨t.val / 8, by have := N1_32 t; omega⟩ : Fin 4) (⟨512 * (t.val % 4) + j.val, by omega⟩ : Fin 2048) d) := by
  obtain ⟨-, -, -, e0, e1, e2, -⟩ := idx_facts1 t
  show V c main_v14 (((cfg1.win 1).blk t).view.emb (ix3 (0 : Fin 1) j d)) = _
  congr 1
  funext a; apply Fin.ext
  match a with
  | ⟨0, _⟩ => show win1_1.index t (0 : Fin 3) * 1 + 1 * 0 = t.val / 8; omega
  | ⟨1, _⟩ => show win1_1.index t (1 : Fin 3) * 512 + 1 * j.val = 512 * (t.val % 4) + j.val; omega
  | ⟨2, _⟩ => show win1_1.index t (2 : Fin 3) * 1024 + 1 * d.val = d.val; omega

/-- The value block at a grid point, element by element. -/
theorem blk2_apply (c : Dev nD) (t : Fin cfg1.N) (j : Fin 512) (d : Fin 1024) :
    iblk1 V c 2 t (ix3 (0 : Fin 1) j d)
      = V c main_v15 (ix3 (⟨t.val / 8, by have := N1_32 t; omega⟩ : Fin 4) (⟨512 * (t.val % 4) + j.val, by omega⟩ : Fin 2048) d) := by
  obtain ⟨-, -, -, -, -, -, e0, e1, e2, -⟩ := idx_facts1 t
  show V c main_v15 (((cfg1.win 2).blk t).view.emb (ix3 (0 : Fin 1) j d)) = _
  congr 1
  funext a; apply Fin.ext
  match a with
  | ⟨0, _⟩ => show win1_2.index t (0 : Fin 3) * 1 + 1 * 0 = t.val / 8; omega
  | ⟨1, _⟩ => show win1_2.index t (1 : Fin 3) * 512 + 1 * j.val = 512 * (t.val % 4) + j.val; omega
  | ⟨2, _⟩ => show win1_2.index t (2 : Fin 3) * 1024 + 1 * d.val = d.val; omega

/-- At a last key block the running state is four updates of the reset state: the row's four key blocks in order. -/
theorem stAt_last4 (c : Dev nD) (t : Fin cfg1.N) (h : t.val % 4 = 3) :
    stAt V c t.val t.isLt
      = stepS (iblk1 V c 0 t) (iblk1 V c 1 t) (iblk1 V c 2 t)
          (stepS (iblk1 V c 0 ⟨t.val - 1, by omega⟩) (iblk1 V c 1 ⟨t.val - 1, by omega⟩) (iblk1 V c 2 ⟨t.val - 1, by omega⟩)
            (stepS (iblk1 V c 0 ⟨t.val - 1 - 1, by omega⟩) (iblk1 V c 1 ⟨t.val - 1 - 1, by omega⟩) (iblk1 V c 2 ⟨t.val - 1 - 1, by omega⟩)
              (stepS (iblk1 V c 0 ⟨t.val - 1 - 1 - 1, by omega⟩) (iblk1 V c 1 ⟨t.val - 1 - 1 - 1, by omega⟩) (iblk1 V c 2 ⟨t.val - 1 - 1 - 1, by omega⟩) initS))) := by
  have hlt := t.isLt
  have e3 := stAt_next V c t (by omega)
  have e2 := stAt_next V c ⟨t.val - 1, by omega⟩ (by show ¬(t.val - 1) % 4 = 0; omega)
  have e1 := stAt_next V c ⟨t.val - 1 - 1, by omega⟩ (by show ¬(t.val - 1 - 1) % 4 = 0; omega)
  have e0 := stAt_first V c ⟨t.val - 1 - 1 - 1, by omega⟩ (by show (t.val - 1 - 1 - 1) % 4 = 0; omega)
  exact e3.trans (congrArg _ (e2.trans (congrArg _ (e1.trans (congrArg _ e0)))))

/-- Attention of already projected rows: softmax over the keys of the dot products, times the values. -/
def Gattn (Qr Kr Vr : Fin 4 → Fin 2048 → Fin 1024 → ℝ) : S4x2048x1024.Idx → EReal := fun i =>
  ((Attn.rowOut (fun j : Fin 2048 => ∑ dd : Fin 1024, Qr (i 0) (i 1) dd * Kr (i 0) j dd) (fun j => Vr (i 0) j (i 2)) : ℝ) : EReal)

theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v16).slice (win1_3.rect t)).set ↔ _
  rw [View.set_slice_whole, Rect.mem_set_unit]
  exact Iff.rfl

/-- Every element of the result array is in the block of the last-key-block point of its batch and query block. -/
theorem cover1 (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  let t : Fin cfg1.N := ⟨8 * (i 0).val + 4 * ((i 1).val / 1024) + 3, by rw [show cfg1.N = 32 from N_1]; omega⟩
  obtain ⟨-, -, -, -, -, -, -, -, -, e0, e1, e2⟩ := idx_facts1 t
  have tv : t.val = 8 * (i 0).val + 4 * ((i 1).val / 1024) + 3 := rfl
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

section Real
variable (c : Dev nD) (Qr Kr Vr : Fin 4 → Fin 2048 → Fin 1024 → ℝ)
  (hQ : ∀ (b : Fin 4) (s : Fin 2048) (d : Fin 1024), V c main_v13 (ix3 b s d) = ((Qr b s d : ℝ) : EReal))
  (hK : ∀ (b : Fin 4) (s : Fin 2048) (d : Fin 1024), V c main_v14 (ix3 b s d) = ((Kr b s d : ℝ) : EReal))
  (hV : ∀ (b : Fin 4) (s : Fin 2048) (d : Fin 1024), V c main_v15 (ix3 b s d) = ((Vr b s d : ℝ) : EReal))
include hQ hK hV

/-- The query block at any of the four points of a row of the grid is the same rows of the projected queries. -/
theorem blkq (t t' : Fin cfg1.N) (h : t'.val / 4 = t.val / 4) (r d : Fin 1024) :
    iblk1 V c 0 t' (ix3 (0 : Fin 1) r d)
      = ((Qr (⟨t.val / 8, by have := N1_32 t; omega⟩ : Fin 4) (⟨1024 * (t.val / 4 % 2) + r.val, by omega⟩ : Fin 2048) d : ℝ) : EReal) := by
  rw [blk0_apply, hQ]
  have e1 : (⟨t'.val / 8, by have := N1_32 t'; omega⟩ : Fin 4) = ⟨t.val / 8, by have := N1_32 t; omega⟩ := Fin.ext (by show t'.val / 8 = t.val / 8; omega)
  have e2 : (⟨1024 * (t'.val / 4 % 2) + r.val, by omega⟩ : Fin 2048) = ⟨1024 * (t.val / 4 % 2) + r.val, by omega⟩ := Fin.ext (by show 1024 * (t'.val / 4 % 2) + r.val = 1024 * (t.val / 4 % 2) + r.val; rw [h])
  rw [e1, e2]

/-- The key block at the point of a row of the grid whose key-block coordinate is `kv`. -/
theorem blkk (t t' : Fin cfg1.N) (kv : Fin 4) (h : t'.val / 4 = t.val / 4) (h' : t'.val % 4 = kv.val) (j : Fin 512) (d : Fin 1024) :
    iblk1 V c 1 t' (ix3 (0 : Fin 1) j d)
      = ((Kr (⟨t.val / 8, by have := N1_32 t; omega⟩ : Fin 4) (⟨512 * kv.val + j.val, by have := kv.isLt; omega⟩ : Fin 2048) d : ℝ) : EReal) := by
  rw [blk1_apply, hK]
  have e1 : (⟨t'.val / 8, by have := N1_32 t'; omega⟩ : Fin 4) = ⟨t.val / 8, by have := N1_32 t; omega⟩ := Fin.ext (by show t'.val / 8 = t.val / 8; omega)
  have e2 : (⟨512 * (t'.val % 4) + j.val, by omega⟩ : Fin 2048) = ⟨512 * kv.val + j.val, by have := kv.isLt; omega⟩ := Fin.ext (by show 512 * (t'.val % 4) + j.val = 512 * kv.val + j.val; rw [h'])
  rw [e1, e2]

/-- The value block likewise. -/
theorem blkv (t t' : Fin cfg1.N) (kv : Fin 4) (h : t'.val / 4 = t.val / 4) (h' : t'.val % 4 = kv.val) (j : Fin 512) (d : Fin 1024) :
    iblk1 V c 2 t' (ix3 (0 : Fin 1) j d)
      = ((Vr (⟨t.val / 8, by have := N1_32 t; omega⟩ : Fin 4) (⟨512 * kv.val + j.val, by have := kv.isLt; omega⟩ : Fin 2048) d : ℝ) : EReal) := by
  rw [blk2_apply, hV]
  have e1 : (⟨t'.val / 8, by have := N1_32 t'; omega⟩ : Fin 4) = ⟨t.val / 8, by have := N1_32 t; omega⟩ := Fin.ext (by show t'.val / 8 = t.val / 8; omega)
  have e2 : (⟨512 * (t'.val % 4) + j.val, by omega⟩ : Fin 2048) = ⟨512 * kv.val + j.val, by have := kv.isLt; omega⟩ := Fin.ext (by show 512 * (t'.val % 4) + j.val = 512 * kv.val + j.val; rw [h'])
  rw [e1, e2]

/-- What a last-key-block point leaves in the result block: for each of its 1024 query rows and each feature, the
    softmax-weighted sum of the projected values — the four key blocks' running updates collapse to the two-pass form. -/
theorem out_last (t : Fin cfg1.N) (h3 : t.val % 4 = 3) (r d : Fin 1024) :
    outO (stAt V c t.val t.isLt).2.2 (stAt V c t.val t.isLt).2.1 (ix3 (0 : Fin 1) r d)
      = Gattn Qr Kr Vr (ix3 (⟨t.val / 8, by have := N1_32 t; omega⟩ : Fin 4) (⟨1024 * (t.val / 4 % 2) + r.val, by omega⟩ : Fin 2048) d) := by
  have hlt := N1_32 t
  rw [stAt_last4 V c t h3]
  let t0 : Fin cfg1.N := ⟨t.val - 1 - 1 - 1, by have := t.isLt; omega⟩
  let t1 : Fin cfg1.N := ⟨t.val - 1 - 1, by have := t.isLt; omega⟩
  let t2 : Fin cfg1.N := ⟨t.val - 1, by have := t.isLt; omega⟩
  have key := Cert.KernelIdeal.PayIdeal.four_steps
    (fun r dd => Qr (⟨t.val / 8, by omega⟩ : Fin 4) (⟨1024 * (t.val / 4 % 2) + r.val, by omega⟩ : Fin 2048) dd)
    (fun j dd => Kr (⟨t.val / 8, by omega⟩ : Fin 4) j dd) (fun j dd => Vr (⟨t.val / 8, by omega⟩ : Fin 4) j dd)
    (fun kv => match kv with | ⟨0, _⟩ => iblk1 V c 0 t0 | ⟨1, _⟩ => iblk1 V c 0 t1 | ⟨2, _⟩ => iblk1 V c 0 t2 | ⟨3, _⟩ => iblk1 V c 0 t)
    (fun kv => match kv with | ⟨0, _⟩ => iblk1 V c 1 t0 | ⟨1, _⟩ => iblk1 V c 1 t1 | ⟨2, _⟩ => iblk1 V c 1 t2 | ⟨3, _⟩ => iblk1 V c 1 t)
    (fun kv => match kv with | ⟨0, _⟩ => iblk1 V c 2 t0 | ⟨1, _⟩ => iblk1 V c 2 t1 | ⟨2, _⟩ => iblk1 V c 2 t2 | ⟨3, _⟩ => iblk1 V c 2 t)
    (fun kv r d => by
      match kv with
      | ⟨0, _⟩ => exact blkq V c Qr Kr Vr hQ hK hV t t0 (by show (t.val - 1 - 1 - 1) / 4 = t.val / 4; omega) r d
      | ⟨1, _⟩ => exact blkq V c Qr Kr Vr hQ hK hV t t1 (by show (t.val - 1 - 1) / 4 = t.val / 4; omega) r d
      | ⟨2, _⟩ => exact blkq V c Qr Kr Vr hQ hK hV t t2 (by show (t.val - 1) / 4 = t.val / 4; omega) r d
      | ⟨3, _⟩ => exact blkq V c Qr Kr Vr hQ hK hV t t rfl r d)
    (fun kv j d => by
      match kv with
      | ⟨0, _⟩ => exact blkk V c Qr Kr Vr hQ hK hV t t0 0 (by show (t.val - 1 - 1 - 1) / 4 = t.val / 4; omega) (by show (t.val - 1 - 1 - 1) % 4 = 0; omega) j d
      | ⟨1, _⟩ => exact blkk V c Qr Kr Vr hQ hK hV t t1 1 (by show (t.val - 1 - 1) / 4 = t.val / 4; omega) (by show (t.val - 1 - 1) % 4 = 1; omega) j d
      | ⟨2, _⟩ => exact blkk V c Qr Kr Vr hQ hK hV t t2 2 (by show (t.val - 1) / 4 = t.val / 4; omega) (by show (t.val - 1) % 4 = 2; omega) j d
      | ⟨3, _⟩ => exact blkk V c Qr Kr Vr hQ hK hV t t 3 rfl h3 j d)
    (fun kv j d => by
      match kv with
      | ⟨0, _⟩ => exact blkv V c Qr Kr Vr hQ hK hV t t0 0 (by show (t.val - 1 - 1 - 1) / 4 = t.val / 4; omega) (by show (t.val - 1 - 1 - 1) % 4 = 0; omega) j d
      | ⟨1, _⟩ => exact blkv V c Qr Kr Vr hQ hK hV t t1 1 (by show (t.val - 1 - 1) / 4 = t.val / 4; omega) (by show (t.val - 1 - 1) % 4 = 1; omega) j d
      | ⟨2, _⟩ => exact blkv V c Qr Kr Vr hQ hK hV t t2 2 (by show (t.val - 1) / 4 = t.val / 4; omega) (by show (t.val - 1) % 4 = 2; omega) j d
      | ⟨3, _⟩ => exact blkv V c Qr Kr Vr hQ hK hV t t 3 rfl h3 j d)
    r d
  exact key

/-- WHAT A LAST-KEY-BLOCK POINT WRITES BACK is its block of the attention of the projected rows. -/
theorem flushed1_eq (t : Fin cfg1.N) (hf : (cfg1.win 3).flush t = true) :
    (dat1 V c).flushed 3 t = ((cfg1.win 3).blk t).view.read (Elt Ideal) (Gattn Qr Kr Vr) := by
  have h3 : t.val % 4 = 3 := (flush1_3 t).mp hf
  have hlt := N1_32 t
  obtain ⟨-, -, -, -, -, -, -, -, -, e0, e1, e2⟩ := idx_facts1 t
  show (cfg1.win 3).cut (grid1.coords t) ((dat1 V c).after 3 t) = _
  rw [after1_3]
  funext j
  obtain ⟨r, d, rfl⟩ : ∃ (r d : Fin 1024), j = ix3 (0 : Fin 1) r d := ⟨j 1, j 2, by
    funext a; match a with
    | ⟨0, _⟩ => exact Fin.ext (Nat.lt_one_iff.mp (j 0).isLt)
    | ⟨1, _⟩ => rfl
    | ⟨2, _⟩ => rfl⟩
  show outO (stAt V c t.val t.isLt).2.2 (stAt V c t.val t.isLt).2.1 (ix3 (0 : Fin 1) r d) = Gattn Qr Kr Vr (((cfg1.win 3).blk t).view.emb (ix3 (0 : Fin 1) r d))
  rw [out_last V c Qr Kr Vr hQ hK hV t h3 r d]
  congr 1
  funext a; apply Fin.ext
  match a with
  | ⟨0, _⟩ => show t.val / 8 = win1_3.index t (0 : Fin 3) * 1 + 1 * 0; omega
  | ⟨1, _⟩ => show 1024 * (t.val / 4 % 2) + r.val = win1_3.index t (1 : Fin 3) * 1024 + 1 * r.val; omega
  | ⟨2, _⟩ => show d.val = win1_3.index t (2 : Fin 3) * 1024 + 1 * d.val; omega

/-- THE RESULT ARRAY after the attention region: the attention of the projected rows it was entered with. -/
theorem final1 : (dat1 V c).arrAt 3 cfg1.N = Gattn Qr Kr Vr :=
  (dat1 V c).arrAt_eq_of_cover 3 (Gattn Qr Kr Vr) (fun t hf => flushed1_eq V c Qr Kr Vr hQ hK hV t hf) cover1

end Real

end Cert.KernelIdeal.Hand
end
-- ==== Proof.Host0.lean ====
/-
  The host operations before the projection region, read at an index, over the extended reals.

  The host lays the input out as 8192 rows of 1024 features; transposes the three weight matrices, scales the first by
  the constant 0.03125, and puts the three side by side as one 1024 × 3072 matrix; scales the first bias by the same
  constant and puts the three biases end to end as one row of 3072. Each entry of a result is one entry of one argument
  (times the constant, in the first third).
-/
import proofs.«132284_j80900003987672_2_alg».proof.Proof.Gen.KernelIdeal.Launch
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Host0

open Idealize.ShloMosaic Cert.KernelIdeal Cert.KernelIdeal.Gen Idealize.ShloMosaic.ValueIdx

/-- A three-operand operation's result with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Reads a buffer after a literal list of host operations: each operation's result at its own buffer is its function's
    value, at any other buffer what was there. -/
macro "after_results3" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

variable (W : Valuation τ sig (Elt Ideal))

/-! ### The arguments' contents, at their shapes -/

abbrev a0 : FVec Ideal S4x2048x1024 .f32 := W (Proc.devRef .tc main_arg0)
abbrev a1 : FVec Ideal S1024x1024 .f32 := W (Proc.devRef .tc main_arg1)
abbrev a2 : FVec Ideal S1024 .f32 := W (Proc.devRef .tc main_arg2)
abbrev a3 : FVec Ideal S1024x1024 .f32 := W (Proc.devRef .tc main_arg3)
abbrev a4 : FVec Ideal S1024 .f32 := W (Proc.devRef .tc main_arg4)
abbrev a5 : FVec Ideal S1024x1024 .f32 := W (Proc.devRef .tc main_arg5)
abbrev a6 : FVec Ideal S1024 .f32 := W (Proc.devRef .tc main_arg6)

/-! ### The terms -/

/-- The input viewed as 8192 rows. -/
def xflat : S8192x1024.Idx → EReal :=
  shapeCast S8192x1024 (a0 W) shapeCasts_S4x2048x1024_S8192x1024

/-- The first weight matrix transposed and scaled. -/
def wq : S1024x1024.Idx → EReal :=
  mulf (transpose S1024x1024 [1, 0] (a1 W) transposes_S1024x1024_S1024x1024_1_0)
    (broadcastInDim S1024x1024 ![] bcast_S_S1024x1024 (constant (F := Ideal) S_ .f32 0x3D000000#32))

/-- The three transposed weight matrices side by side. -/
def wcat : S1024x3072.Idx → EReal :=
  concatenate S1024x3072 1
    [⟨S1024x1024, wq W⟩,
     ⟨S1024x1024, transpose S1024x1024 [1, 0] (a3 W) transposes_S1024x1024_S1024x1024_1_0⟩,
     ⟨S1024x1024, transpose S1024x1024 [1, 0] (a5 W) transposes_S1024x1024_S1024x1024_1_0⟩]
    concatenates_S1024x1024_S1024x1024_S1024x1024_S1024x3072_d1

/-- The first bias scaled. -/
def bqs : S1024.Idx → EReal :=
  mulf (a2 W)
    (broadcastInDim S1024 ![] bcast_S_S1024 (constant (F := Ideal) S_ .f32 0x3D000000#32))

/-- The three biases end to end. -/
def bcat : S3072.Idx → EReal :=
  concatenate S3072 0
    [⟨S1024, bqs W⟩, ⟨S1024, (a4 W)⟩,
     ⟨S1024, (a6 W)⟩]
    concatenates_S1024_S1024_S1024_S3072_d0

theorem v0_eq : (StableHlo.after (hostOps0 (F := Ideal)) W (Proc.devRef .tc main_v0) : S8192x1024.Idx → EReal) = xflat W := by
  after_results3
  rfl

theorem v7_eq : (StableHlo.after (hostOps0 (F := Ideal)) W (Proc.devRef .tc main_v7) : S1024x3072.Idx → EReal) = wcat W := by
  after_results3
  rfl

theorem v11_eq : (StableHlo.after (hostOps0 (F := Ideal)) W (Proc.devRef .tc main_v11) : S1x3072.Idx → EReal)
    = shapeCast S1x3072 (bcat W) shapeCasts_S3072_S1x3072 := by
  after_results3
  rfl

/-! ### Read at an index -/

/-- Row 2048 b + s of the input laid out as 8192 rows is position s of batch b. -/
theorem v0_apply (b : Fin 4) (s : Fin 2048) (h : Fin 1024) :
    (StableHlo.after (hostOps0 (F := Ideal)) W (Proc.devRef .tc main_v0) : S8192x1024.Idx → EReal)
        (ix2 (⟨2048 * b.val + s.val, by have := b.isLt; have := s.isLt; omega⟩ : Fin 8192) h)
      = (a0 W) (ix3 b s h) := by
  rw [v0_eq]
  unfold xflat
  refine shapeCast_apply _ _ _ _ ?_
  show (S4x2048x1024.rowMajor (ix3 b s h)).val = (S8192x1024.rowMajor (ix2 (⟨2048 * b.val + s.val, by have := b.isLt; have := s.isLt; omega⟩ : Fin 8192) h)).val
  rw [Shape.rowMajor_val_three, Shape.rowMajor_val_two]
  show (b.val * 2048 + s.val) * 1024 + h.val = (2048 * b.val + s.val) * 1024 + h.val
  omega

/-- The constant 0.03125 spread over a matrix reads the constant everywhere. -/
theorem bcast_c_apply2 (i : S1024x1024.Idx) :
    broadcastInDim S1024x1024 ![] bcast_S_S1024x1024 (constant (F := Ideal) S_ .f32 0x3D000000#32) i
      = Ideal.ofBits .f32 0x3D000000#32 :=
  (broadcastInDim_apply _ _ _ i ix0 (fun a => a.elim0)).trans rfl

/-- The constant 0.03125 spread over a row reads the constant everywhere. -/
theorem bcast_c_apply1 (i : S1024.Idx) :
    broadcastInDim S1024 ![] bcast_S_S1024 (constant (F := Ideal) S_ .f32 0x3D000000#32) i
      = Ideal.ofBits .f32 0x3D000000#32 :=
  (broadcastInDim_apply _ _ _ i ix0 (fun a => a.elim0)).trans rfl

/-- The first weight matrix transposed and scaled, at feature h and output o. -/
theorem wq_apply (h o : Fin 1024) :
    wq W (ix2 h o)
      = (a1 W) (ix2 o h) * Ideal.ofBits .f32 0x3D000000#32 := by
  unfold wq
  refine (mulf_apply _ _ _).trans ?_
  rw [transpose_ix2_apply, bcast_c_apply2]

/-- The first bias scaled, at output o. -/
theorem bqs_apply (o : Fin 1024) :
    bqs W (ix1 o) = (a2 W) (ix1 o) * Ideal.ofBits .f32 0x3D000000#32 := by
  unfold bqs
  refine (mulf_apply _ _ _).trans ?_
  rw [bcast_c_apply1]

/-- Columns [0, 1024) of the 1024 × 3072 matrix: the first weight matrix transposed and scaled. -/
theorem v7_apply0 (h o : Fin 1024) :
    (StableHlo.after (hostOps0 (F := Ideal)) W (Proc.devRef .tc main_v7) : S1024x3072.Idx → EReal)
        (ix2 h (⟨o.val, by omega⟩ : Fin 3072))
      = (a1 W) (ix2 o h) * Ideal.ofBits .f32 0x3D000000#32 := by
  rw [v7_eq, ← wq_apply]
  unfold wcat
  exact concatenate_apply_piece (t := S1024x3072) (1 : Fin 2) _ _ (ix2 h _) 0 (by show 0 < 3; decide) S1024x1024 (wq W) rfl rfl 0 rfl
    (ix2 h o) (fun b hb => by
      match b with
      | ⟨0, _⟩ => rfl
      | ⟨1, _⟩ => exact absurd (Fin.ext rfl) hb) (by show 0 + o.val = o.val; omega)

/-- Columns [1024, 2048): the second weight matrix transposed. -/
theorem v7_apply1 (h o : Fin 1024) :
    (StableHlo.after (hostOps0 (F := Ideal)) W (Proc.devRef .tc main_v7) : S1024x3072.Idx → EReal)
        (ix2 h (⟨1024 + o.val, by omega⟩ : Fin 3072))
      = (a3 W) (ix2 o h) := by
  rw [v7_eq, ← transpose_ix2_apply (a3 W)
    transposes_S1024x1024_S1024x1024_1_0 h o]
  unfold wcat
  exact concatenate_apply_piece (t := S1024x3072) (1 : Fin 2) _ _ (ix2 h _) 1 (by show 1 < 3; decide) S1024x1024 _ rfl rfl 1024 rfl
    (ix2 h o) (fun b hb => by
      match b with
      | ⟨0, _⟩ => rfl
      | ⟨1, _⟩ => exact absurd (Fin.ext rfl) hb) (by show 1024 + o.val = 1024 + o.val; rfl)

/-- Columns [2048, 3072): the third weight matrix transposed. -/
theorem v7_apply2 (h o : Fin 1024) :
    (StableHlo.after (hostOps0 (F := Ideal)) W (Proc.devRef .tc main_v7) : S1024x3072.Idx → EReal)
        (ix2 h (⟨2048 + o.val, by omega⟩ : Fin 3072))
      = (a5 W) (ix2 o h) := by
  rw [v7_eq, ← transpose_ix2_apply (a5 W)
    transposes_S1024x1024_S1024x1024_1_0 h o]
  unfold wcat
  exact concatenate_apply_piece (t := S1024x3072) (1 : Fin 2) _ _ (ix2 h _) 2 (by show 2 < 3; decide) S1024x1024 _ rfl rfl 2048 rfl
    (ix2 h o) (fun b hb => by
      match b with
      | ⟨0, _⟩ => rfl
      | ⟨1, _⟩ => exact absurd (Fin.ext rfl) hb) (by show 2048 + o.val = 2048 + o.val; rfl)

/-- Entries [0, 1024) of the row of 3072 biases: the first bias scaled. -/
theorem v11_apply0 (o : Fin 1024) :
    (StableHlo.after (hostOps0 (F := Ideal)) W (Proc.devRef .tc main_v11) : S1x3072.Idx → EReal)
        (ix2 (0 : Fin 1) (⟨o.val, by omega⟩ : Fin 3072))
      = (a2 W) (ix1 o) * Ideal.ofBits .f32 0x3D000000#32 := by
  rw [v11_eq, shapeCast_a_1a_apply, ← bqs_apply]
  unfold bcat
  exact concatenate_apply_piece (t := S3072) (0 : Fin 1) _ _ (ix1 _) 0 (by show 0 < 3; decide) S1024 (bqs W) rfl rfl 0 rfl
    (ix1 o) (fun b hb => by
      match b with
      | ⟨0, _⟩ => exact absurd (Fin.ext rfl) hb) (by show 0 + o.val = o.val; omega)

/-- Entries [1024, 2048): the second bias. -/
theorem v11_apply1 (o : Fin 1024) :
    (StableHlo.after (hostOps0 (F := Ideal)) W (Proc.devRef .tc main_v11) : S1x3072.Idx → EReal)
        (ix2 (0 : Fin 1) (⟨1024 + o.val, by omega⟩ : Fin 3072))
      = (a4 W) (ix1 o) := by
  rw [v11_eq, shapeCast_a_1a_apply]
  unfold bcat
  exact concatenate_apply_piece (t := S3072) (0 : Fin 1) _ _ (ix1 _) 1 (by show 1 < 3; decide) S1024 _ rfl rfl 1024 rfl
    (ix1 o) (fun b hb => by
      match b with
      | ⟨0, _⟩ => exact absurd (Fin.ext rfl) hb) (by show 1024 + o.val = 1024 + o.val; rfl)

/-- Entries [2048, 3072): the third bias. -/
theorem v11_apply2 (o : Fin 1024) :
    (StableHlo.after (hostOps0 (F := Ideal)) W (Proc.devRef .tc main_v11) : S1x3072.Idx → EReal)
        (ix2 (0 : Fin 1) (⟨2048 + o.val, by omega⟩ : Fin 3072))
      = (a6 W) (ix1 o) := by
  rw [v11_eq, shapeCast_a_1a_apply]
  unfold bcat
  exact concatenate_apply_piece (t := S3072) (0 : Fin 1) _ _ (ix1 _) 2 (by show 2 < 3; decide) S1024 _ rfl rfl 2048 rfl
    (ix1 o) (fun b hb => by
      match b with
      | ⟨0, _⟩ => exact absurd (Fin.ext rfl) hb) (by show 2048 + o.val = 2048 + o.val; rfl)

end Cert.KernelIdeal.Host0

end
-- ==== Proof.Host1.lean ====
/-
  The three reshapes between the two regions, read at an index.

  Each of the projection region's output arrays has 8192 = 4 × 2048 rows of 1024 entries; the host reshapes it to
  [4, 2048, 1024] in row-major order, so entry (b, s, d) of the reshaped array is entry (2048 b + s, d) of the region's
  output — which is that row of the input times a column range of the weights, plus the biases.
-/
import proofs.«132284_j80900003987672_2_alg».proof.Proof.KRunI
import proofs.«132284_j80900003987672_2_alg».proof.Proof.Val0
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

/-- Row 2048 b + s of the 8192. -/
abbrev row (b : Fin 4) (s : Fin 2048) : Fin 8192 := ⟨2048 * b.val + s.val, by omega⟩

/-- A [8192, 1024] array cast to [4, 2048, 1024] reads, at (b, s, d), the operand at (2048 b + s, d). -/
theorem reshape_rows (x : S8192x1024.Idx → EReal) (b : Fin 4) (s : Fin 2048) (d : Fin 1024) :
    shapeCast S4x2048x1024 x shapeCasts_S8192x1024_S4x2048x1024 (ix3 b s d) = x (ix2 (row b s) d) :=
  shapeCast_apply x _ _ _ (by
    rw [Shape.rowMajor_val_two, Shape.rowMajor_val_three]
    show (2048 * b.val + s.val) * 1024 + d.val = (b.val * 2048 + s.val) * 1024 + d.val
    omega)

/-- The reshape back to [4, 2048, 1024] (host operation v13): the result is the row-major cast of region output 0. -/
theorem after1_v13 (Wany : Valuation τ sig (Elt Ideal)) :
    (StableHlo.after hostOps1 Wany (Proc.devRef .tc main_v13) : S4x2048x1024.Idx → EReal)
      = shapeCast S4x2048x1024 (Wany (Proc.devRef .tc main_v12_0) : S8192x1024.Idx → EReal)
          shapeCasts_S8192x1024_S4x2048x1024 := by
  after_results
  rfl

/-- Entry (b, s, d) of the reshaped array is entry (2048 b + s, d) of region output 0. -/
theorem V3_v13 (c : Dev nD) (b : Fin 4) (s : Fin 2048) (d : Fin 1024) :
    (V3 (F := Ideal) m ρ c main_v13 : S4x2048x1024.Idx → EReal) (ix3 b s d)
      = (W2 (F := Ideal) m ρ c (Proc.devRef .tc main_v12_0) : S8192x1024.Idx → EReal) (ix2 (row b s) d) :=
  (congrFun (after1_v13 (W2 (F := Ideal) m ρ c)) (ix3 b s d)).trans (reshape_rows _ b s d)

/-- … which the projection region left at its column range of rows × weights + biases. -/
theorem V3_v13_proj (c : Dev nD) (b : Fin 4) (s : Fin 2048) (d : Fin 1024) :
    (V3 (F := Ideal) m ρ c main_v13 : S4x2048x1024.Idx → EReal) (ix3 b s d)
      = projArr (V1 (F := Ideal) m ρ c main_v0) (V1 (F := Ideal) m ρ c main_v7) (V1 (F := Ideal) m ρ c main_v11) col3
          (ix2 (row b s) d) := by
  rw [V3_v13]
  exact congrFun ((W2_arr (F := Ideal) m ρ c 3).trans (arrAt3 (V1 (F := Ideal) m ρ) c)) (ix2 (row b s) d)

/-- The reshape back to [4, 2048, 1024] (host operation v14): the result is the row-major cast of region output 1. -/
theorem after1_v14 (Wany : Valuation τ sig (Elt Ideal)) :
    (StableHlo.after hostOps1 Wany (Proc.devRef .tc main_v14) : S4x2048x1024.Idx → EReal)
      = shapeCast S4x2048x1024 (Wany (Proc.devRef .tc main_v12_1) : S8192x1024.Idx → EReal)
          shapeCasts_S8192x1024_S4x2048x1024 := by
  after_results
  rfl

/-- Entry (b, s, d) of the reshaped array is entry (2048 b + s, d) of region output 1. -/
theorem V3_v14 (c : Dev nD) (b : Fin 4) (s : Fin 2048) (d : Fin 1024) :
    (V3 (F := Ideal) m ρ c main_v14 : S4x2048x1024.Idx → EReal) (ix3 b s d)
      = (W2 (F := Ideal) m ρ c (Proc.devRef .tc main_v12_1) : S8192x1024.Idx → EReal) (ix2 (row b s) d) :=
  (congrFun (after1_v14 (W2 (F := Ideal) m ρ c)) (ix3 b s d)).trans (reshape_rows _ b s d)

/-- … which the projection region left at its column range of rows × weights + biases. -/
theorem V3_v14_proj (c : Dev nD) (b : Fin 4) (s : Fin 2048) (d : Fin 1024) :
    (V3 (F := Ideal) m ρ c main_v14 : S4x2048x1024.Idx → EReal) (ix3 b s d)
      = projArr (V1 (F := Ideal) m ρ c main_v0) (V1 (F := Ideal) m ρ c main_v7) (V1 (F := Ideal) m ρ c main_v11) col4
          (ix2 (row b s) d) := by
  rw [V3_v14]
  exact congrFun ((W2_arr (F := Ideal) m ρ c 4).trans (arrAt4 (V1 (F := Ideal) m ρ) c)) (ix2 (row b s) d)

/-- The reshape back to [4, 2048, 1024] (host operation v15): the result is the row-major cast of region output 2. -/
theorem after1_v15 (Wany : Valuation τ sig (Elt Ideal)) :
    (StableHlo.after hostOps1 Wany (Proc.devRef .tc main_v15) : S4x2048x1024.Idx → EReal)
      = shapeCast S4x2048x1024 (Wany (Proc.devRef .tc main_v12_2) : S8192x1024.Idx → EReal)
          shapeCasts_S8192x1024_S4x2048x1024 := by
  after_results
  rfl

/-- Entry (b, s, d) of the reshaped array is entry (2048 b + s, d) of region output 2. -/
theorem V3_v15 (c : Dev nD) (b : Fin 4) (s : Fin 2048) (d : Fin 1024) :
    (V3 (F := Ideal) m ρ c main_v15 : S4x2048x1024.Idx → EReal) (ix3 b s d)
      = (W2 (F := Ideal) m ρ c (Proc.devRef .tc main_v12_2) : S8192x1024.Idx → EReal) (ix2 (row b s) d) :=
  (congrFun (after1_v15 (W2 (F := Ideal) m ρ c)) (ix3 b s d)).trans (reshape_rows _ b s d)

/-- … which the projection region left at its column range of rows × weights + biases. -/
theorem V3_v15_proj (c : Dev nD) (b : Fin 4) (s : Fin 2048) (d : Fin 1024) :
    (V3 (F := Ideal) m ρ c main_v15 : S4x2048x1024.Idx → EReal) (ix3 b s d)
      = projArr (V1 (F := Ideal) m ρ c main_v0) (V1 (F := Ideal) m ρ c main_v7) (V1 (F := Ideal) m ρ c main_v11) col5
          (ix2 (row b s) d) := by
  rw [V3_v15]
  exact congrFun ((W2_arr (F := Ideal) m ρ c 5).trans (arrAt5 (V1 (F := Ideal) m ρ) c)) (ix2 (row b s) d)

end Cert.KernelIdeal.Hand
end
-- ==== Proof.Bridge.lean ====
/-
  Real-number algebra between the kernel's way of writing the projections and scores and the specification's.

  The kernel scales the query projection by 1/32 before the dot product with the key projection (the weights and the
  bias are each multiplied by the constant 0.03125); the specification divides the dot product by 32. For real inputs
  the scaled projection is the projection over 32, and the dot product of the scaled query with the key is the score.
-/
import proofs.«132284_j80900003987672_2_alg».proof.Proof.Spec
import Idealize.ShloMosaic.PureOps.Ideal

noncomputable section

namespace Attn.Bridge

open Idealize.ShloMosaic
open scoped BigOperators

/-- The pattern 0x3D000000 denotes the real number 1/32. -/
theorem c32 : Ideal.ofBits .f32 0x3D000000#32 = ((1 / 32 : ℝ) : EReal) := by
  simp [Ideal.ofBits, Ideal.ieee, -EReal.coe_mul]; norm_num

/-- A real sum read as an extended real is the sum of the terms read as extended reals. -/
theorem coe_sum {ι : Type} [DecidableEq ι] (S : Finset ι) (f : ι → ℝ) :
    ((∑ j ∈ S, f j : ℝ) : EReal) = ∑ j ∈ S, (f j : EReal) := by
  induction S using Finset.induction_on with
  | empty => simp
  | insert j S hj ih => rw [Finset.sum_insert hj, Finset.sum_insert hj, EReal.coe_add, ih]

/-- The scaled projection: weights and bias each times 1/32, for real data, is the projection over 32. -/
theorem qproj_coe (X : Attn.Inp) (W : Attn.Mat) (β : Attn.Bias) (b : Fin 4) (s : Fin 2048) (o : Fin 1024) :
    (∑ h : Fin 1024, ((X b s h : ℝ) : EReal) * (((W o h : ℝ) : EReal) * Ideal.ofBits .f32 0x3D000000#32))
        + ((β o : ℝ) : EReal) * Ideal.ofBits .f32 0x3D000000#32
      = ((Attn.proj X W β b s o / 32 : ℝ) : EReal) := by
  rw [c32]
  simp only [← EReal.coe_mul]
  rw [← coe_sum, ← EReal.coe_add]
  congr 1
  unfold Attn.proj
  rw [add_div, Finset.sum_div]
  congr 1
  · refine Finset.sum_congr rfl fun h _ => ?_
    ring
  · ring

/-- The projection for real data. -/
theorem proj_coe (X : Attn.Inp) (W : Attn.Mat) (β : Attn.Bias) (b : Fin 4) (s : Fin 2048) (o : Fin 1024) :
    (∑ h : Fin 1024, ((X b s h : ℝ) : EReal) * ((W o h : ℝ) : EReal)) + ((β o : ℝ) : EReal)
      = ((Attn.proj X W β b s o : ℝ) : EReal) := by
  simp only [← EReal.coe_mul]
  rw [← coe_sum, ← EReal.coe_add]
  rfl

/-- The dot products of the scaled query projection with the key projections are the specification's scores, so the
    row output over them is the specification's attention. -/
theorem out_eq (X : Attn.Inp) (Wq : Attn.Mat) (bq : Attn.Bias) (Wk : Attn.Mat) (bk : Attn.Bias) (Wv : Attn.Mat)
    (bv : Attn.Bias) (b : Fin 4) (i : Fin 2048) (d : Fin 1024) :
    Attn.rowOut (fun j : Fin 2048 => ∑ dd : Fin 1024, (Attn.proj X Wq bq b i dd / 32) * Attn.proj X Wk bk b j dd)
        (fun j => Attn.proj X Wv bv b j d)
      = Attn.out X Wq bq Wk bk Wv bv b i d := by
  unfold Attn.out
  congr 1
  funext j
  unfold Attn.score
  rw [Finset.sum_div]
  refine Finset.sum_congr rfl fun dd _ => ?_
  ring

end Attn.Bridge

end
-- ==== Proof.KValue.lean ====
import proofs.«132284_j80900003987672_2_alg».proof.Proof.KRunI
import proofs.«132284_j80900003987672_2_alg».proof.Proof.Val0
import proofs.«132284_j80900003987672_2_alg».proof.Proof.Val1
import proofs.«132284_j80900003987672_2_alg».proof.Proof.Host0
import proofs.«132284_j80900003987672_2_alg».proof.Proof.Host1
import proofs.«132284_j80900003987672_2_alg».proof.Proof.Bridge

noncomputable section

namespace Cert.KernelIdeal.Hand

open Cert.KernelIdeal Cert.KernelIdeal.Gen Cert.KernelIdeal.Host0 Attn.Bridge
open Idealize.ShloMosaic Idealize.ShloMosaic.TcCoe Idealize.SL.Sem Idealize.ShloMosaic.ValueIdx

/-- A projected entry — a row of the flattened input times a column of the concatenated weights, plus the bias entry —
    once the row, the column and the bias entry are known. -/
theorem projArr_at (a0 : S8192x1024.Idx → EReal) (a1 : S1024x3072.Idx → EReal) (a2 : S1x3072.Idx → EReal)
    (col : Fin 1024 → Fin 3072) (r : Fin 8192) (d : Fin 1024) (x w : Fin 1024 → EReal) (β : EReal)
    (ea : ∀ h, a0 (ix2 r h) = x h) (eb : ∀ h, a1 (ix2 h (col d)) = w h) (ec : a2 (ix2 (0 : Fin 1) (col d)) = β) :
    projArr a0 a1 a2 col (ix2 r d) = (∑ h : Fin 1024, x h * w h) + β := by
  show (∑ h : Fin 1024, a0 (ix2 r h) * a1 (ix2 h (col d))) + a2 (ix2 (0 : Fin 1) (col d)) = _
  rw [ec]; congr 1; exact Finset.sum_congr rfl fun h _ => by rw [ea h, eb h]

section
variable (m : (ℓ : Loc nD τ sig) → Buf (Elt Ideal) ℓ) (ρ : Dev nD → PrngReg) (c : Dev nD)
    (X : Attn.Inp) (Wq : Attn.Mat) (bq : Attn.Bias) (Wk : Attn.Mat) (bk : Attn.Bias) (Wv : Attn.Mat) (bv : Attn.Bias)
    (h0 : (m ((c : Thread nD τ).loc main_arg0) : S4x2048x1024.Idx → EReal) = fun i => ((X (i 0) (i 1) (i 2) : ℝ) : EReal))
    (h1 : (m ((c : Thread nD τ).loc main_arg1) : S1024x1024.Idx → EReal) = fun i => ((Wq (i 0) (i 1) : ℝ) : EReal))
    (h2 : (m ((c : Thread nD τ).loc main_arg2) : S1024.Idx → EReal) = fun i => ((bq (i 0) : ℝ) : EReal))
    (h3 : (m ((c : Thread nD τ).loc main_arg3) : S1024x1024.Idx → EReal) = fun i => ((Wk (i 0) (i 1) : ℝ) : EReal))
    (h4 : (m ((c : Thread nD τ).loc main_arg4) : S1024.Idx → EReal) = fun i => ((bk (i 0) : ℝ) : EReal))
    (h5 : (m ((c : Thread nD τ).loc main_arg5) : S1024x1024.Idx → EReal) = fun i => ((Wv (i 0) (i 1) : ℝ) : EReal))
    (h6 : (m ((c : Thread nD τ).loc main_arg6) : S1024.Idx → EReal) = fun i => ((bv (i 0) : ℝ) : EReal))
include h0 h1 h2 h3 h4 h5 h6

/-- The queries the attention region is entered with: the projection with the 1/32 folded into weights and bias. -/
theorem entry_q (b : Fin 4) (s : Fin 2048) (d : Fin 1024) :
    V3 m ρ c main_v13 (ix3 b s d) = ((Attn.proj X Wq bq b s d / 32 : ℝ) : EReal) :=
  (V3_v13_proj m ρ c b s d).trans ((projArr_at _ _ _ col3 (row b s) d (fun h => ((X b s h : ℝ) : EReal))
    (fun h => ((Wq d h : ℝ) : EReal) * Ideal.ofBits .f32 0x3D000000#32) (((bq d : ℝ) : EReal) * Ideal.ofBits .f32 0x3D000000#32)
    (fun h => (v0_apply (W0 m ρ c) b s h).trans (congrFun h0 (ix3 b s h)))
    (fun h => (v7_apply0 (W0 m ρ c) h d).trans (congrArg (· * Ideal.ofBits .f32 0x3D000000#32) (congrFun h1 (ix2 d h))))
    ((v11_apply0 (W0 m ρ c) d).trans (congrArg (· * Ideal.ofBits .f32 0x3D000000#32) (congrFun h2 (ix1 d))))).trans
    (qproj_coe X Wq bq b s d))

/-- The keys it is entered with: the plain projection. -/
theorem entry_k (b : Fin 4) (s : Fin 2048) (d : Fin 1024) :
    V3 m ρ c main_v14 (ix3 b s d) = ((Attn.proj X Wk bk b s d : ℝ) : EReal) :=
  (V3_v14_proj m ρ c b s d).trans ((projArr_at _ _ _ col4 (row b s) d (fun h => ((X b s h : ℝ) : EReal))
    (fun h => ((Wk d h : ℝ) : EReal)) ((bk d : ℝ) : EReal)
    (fun h => (v0_apply (W0 m ρ c) b s h).trans (congrFun h0 (ix3 b s h)))
    (fun h => (v7_apply1 (W0 m ρ c) h d).trans (congrFun h3 (ix2 d h)))
    ((v11_apply1 (W0 m ρ c) d).trans (congrFun h4 (ix1 d)))).trans
    (proj_coe X Wk bk b s d))

/-- The values likewise. -/
theorem entry_v (b : Fin 4) (s : Fin 2048) (d : Fin 1024) :
    V3 m ρ c main_v15 (ix3 b s d) = ((Attn.proj X Wv bv b s d : ℝ) : EReal) :=
  (V3_v15_proj m ρ c b s d).trans ((projArr_at _ _ _ col5 (row b s) d (fun h => ((X b s h : ℝ) : EReal))
    (fun h => ((Wv d h : ℝ) : EReal)) ((bv d : ℝ) : EReal)
    (fun h => (v0_apply (W0 m ρ c) b s h).trans (congrFun h0 (ix3 b s h)))
    (fun h => (v7_apply2 (W0 m ρ c) h d).trans (congrFun h5 (ix2 d h)))
    ((v11_apply2 (W0 m ρ c) d).trans (congrFun h6 (ix1 d)))).trans
    (proj_coe X Wv bv b s d))

/-- THE KERNEL'S RESULT over real inputs: the attention of the seven arrays. The scaled dot products are the scores
    (the 1/32 moved from the query projection to the quotient), and the key-blocked running softmax is the two-pass one. -/
theorem value : (dat1 (V3 m ρ) c).arrAt 3 cfg1.N
    = fun i : S4x2048x1024.Idx => ((Attn.out X Wq bq Wk bk Wv bv (i 0) (i 1) (i 2) : ℝ) : EReal) := by
  rw [final1 (V3 m ρ) c (fun b s d => Attn.proj X Wq bq b s d / 32) (fun b s d => Attn.proj X Wk bk b s d)
    (fun b s d => Attn.proj X Wv bv b s d)
    (entry_q m ρ c X Wq bq Wk bk Wv bv h0 h1 h2 h3 h4 h5 h6) (entry_k m ρ c X Wq bq Wk bk Wv bv h0 h1 h2 h3 h4 h5 h6)
    (entry_v m ρ c X Wq bq Wk bk Wv bv h0 h1 h2 h3 h4 h5 h6)]
  funext i
  show ((Attn.rowOut (fun j : Fin 2048 => ∑ dd : Fin 1024, (Attn.proj X Wq bq (i 0) (i 1) dd / 32) * Attn.proj X Wk bk (i 0) j dd)
    (fun j => Attn.proj X Wv bv (i 0) j (i 2)) : ℝ) : EReal) = _
  exact congrArg (fun x : ℝ => (x : EReal)) (out_eq X Wq bq Wk bk Wv bv (i 0) (i 1) (i 2))

end

end Cert.KernelIdeal.Hand

end
-- ==== Proof.RefFrame.lean ====
/-
  The reference program runs to completion and leaves its seven argument arrays as it found
  them: this is its run, read back operation by operation, with the statement about the result
  array dropped.
-/
import proofs.«132284_j80900003987672_2_alg».proof.Proof.Gen.ReferenceIdeal.Run
import proofs.«132284_j80900003987672_2_alg».proof.Proof.Gen.Pre_finite_inputs
import proofs.«132284_j80900003987672_2_alg».proof.Defs

noncomputable section

namespace Cert.ReferenceIdeal.RefSide

open Idealize.ShloMosaic Idealize.SL.Sem

/-- The frame claim of the reference: every fair execution terminates without fault and the
    arguments end unchanged. -/
theorem ref_frame :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefSide

end
-- ==== Proof.RefSide.lean ====
/-
  The reference program, read stage by stage over the reals (first part: the projections).

  The argument arrays are images of real arrays in the extended reals.  Every stage of the
  reference is then the image of a real quantity: a finite sum of products of reals is a real,
  and adding a real bias keeps it one.  This module has the two general facts used throughout
  (the image of a finite real sum is the sum of the images; a running maximum from the bottom
  element over images of reals is the image of the largest of them) and the three projections
  `x · Wᵀ + bias`.
-/
import proofs.«132284_j80900003987672_2_alg».proof.Proof.Gen.ReferenceIdeal.Read
import proofs.«132284_j80900003987672_2_alg».proof.Proof.Spec

noncomputable section

namespace Cert.ReferenceIdeal.RefSide

open Cert.ReferenceIdeal Idealize.ShloMosaic
open scoped BigOperators

/-! ## Two general facts about images of reals in the extended reals -/

/-- The image of a finite sum of reals is the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The running maximum, started at the bottom element, of the images of finitely many reals
    (at least one) is the image of the largest of them. -/
theorem fold_max_coe {ι : Type*} (s : Finset ι) (hs : s.Nonempty) (f : ι → ℝ) :
    s.fold max (⊥ : EReal) (fun k => (f k : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-! ## The argument arrays -/

/-- The input as an array of extended reals. -/
abbrev inpArr (X : Attn.Inp) : S4x2048x1024.Idx → EReal := fun i => ((X (i 0) (i 1) (i 2) : ℝ) : EReal)
/-- A weight matrix as an array of extended reals. -/
abbrev matArr (W : Attn.Mat) : S1024x1024.Idx → EReal := fun i => ((W (i 0) (i 1) : ℝ) : EReal)
/-- A bias as an array of extended reals. -/
abbrev biasArr (β : Attn.Bias) : S1024.Idx → EReal := fun i => ((β (i 0) : ℝ) : EReal)

/-! ## The projections -/

/-- A projection's element: the sum over the input features of input times weight, plus the bias,
    is the image of the real projection. -/
theorem proj_sum (X : Attn.Inp) (W : Attn.Mat) (β : Attn.Bias) (b : Fin 4) (s : Fin 2048) (o : Fin 1024) :
    (∑ k : Fin 1024, ((X b s k : ℝ) : EReal) * ((W o k : ℝ) : EReal)) + ((β o : ℝ) : EReal)
      = ((Attn.proj X W β b s o : ℝ) : EReal) := by
  unfold Attn.proj
  rw [EReal.coe_add, coe_sum]
  simp only [EReal.coe_mul]

/-- The query projection (operations 0–3 of the reference) at an index. -/
theorem v3_apply (X : Attn.Inp) (W : Attn.Mat) (β : Attn.Bias) (i : S4x2048x1024.Idx) :
    Read.val_main_v3 (F := Ideal) (inpArr X) (matArr W) (biasArr β) i
      = ((Attn.proj X W β (i 0) (i 1) (i 2) : ℝ) : EReal) := by
  rw [Read.val_main_v3_apply, Read.val_main_v0_apply, Read.val_main_v2_apply, Read.val_main_v1_apply]
  exact proj_sum X W β (i 0) (i 1) (i 2)

/-- The key projection (operations 4–7) at an index. -/
theorem v7_apply (X : Attn.Inp) (W : Attn.Mat) (β : Attn.Bias) (i : S4x2048x1024.Idx) :
    Read.val_main_v7 (F := Ideal) (inpArr X) (matArr W) (biasArr β) i
      = ((Attn.proj X W β (i 0) (i 1) (i 2) : ℝ) : EReal) := by
  rw [Read.val_main_v7_apply, Read.val_main_v4_apply, Read.val_main_v6_apply, Read.val_main_v5_apply]
  exact proj_sum X W β (i 0) (i 1) (i 2)

/-- The value projection (operations 8–11) at an index. -/
theorem v11_apply (X : Attn.Inp) (W : Attn.Mat) (β : Attn.Bias) (i : S4x2048x1024.Idx) :
    Read.val_main_v11 (F := Ideal) (inpArr X) (matArr W) (biasArr β) i
      = ((Attn.proj X W β (i 0) (i 1) (i 2) : ℝ) : EReal) := by
  rw [Read.val_main_v11_apply, Read.val_main_v8_apply, Read.val_main_v10_apply, Read.val_main_v9_apply]
  exact proj_sum X W β (i 0) (i 1) (i 2)

end Cert.ReferenceIdeal.RefSide

end
-- ==== Proof.RefSide2.lean ====
/-
  The reference program over the reals, second part: the scaled scores and the row maximum.

  The score of key `j` for query `i` is the dot product of the two projected rows divided by
  the square root of 1024, which is 32: a real.  The row maximum is taken as a running maximum
  from minus infinity over the 2048 scores of the row, and then once more against minus
  infinity; over images of reals that is the image of the largest score.
-/
import proofs.«132284_j80900003987672_2_alg».proof.Proof.RefSide

noncomputable section

namespace Cert.ReferenceIdeal.RefSide

open Cert.ReferenceIdeal Cert.ReferenceIdeal.Gen Idealize.ShloMosaic
open scoped BigOperators

/-! ## The two constants -/

/-- The word `0x44800000` is the float 1024. -/
theorem ofBits_1024 : Ideal.ofBits .f32 0x44800000#32 = ((1024 : ℝ) : EReal) := by
  simp [Ideal.ofBits, Ideal.ieee]
  norm_num
  rw [← EReal.coe_mul]
  norm_num

/-- The word `0xFF800000` is minus infinity. -/
theorem ofBits_neg_inf : Ideal.ofBits .f32 0xFF800000#32 = (⊥ : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-! ## The scores -/

/-- The divisor (operations `cst`, 13, 14): 32 at every index. -/
theorem v14_apply (i : S4x2048x2048.Idx) : Read.val_main_v14 (F := Ideal) i = ((32 : ℝ) : EReal) := by
  rw [Read.val_main_v14_apply, Read.val_main_v13_apply, Read.val_main_cst_apply]
  show Ideal.sqrt (Ideal.ofBits .f32 0x44800000#32) = _
  rw [ofBits_1024, sqrt_1024]

/-- The unscaled scores (operation 12): the dot product of the projected query and key rows. -/
theorem v12_apply (X : Attn.Inp) (Wq : Attn.Mat) (bq : Attn.Bias) (Wk : Attn.Mat) (bk : Attn.Bias)
    (i : S4x2048x2048.Idx) :
    Read.val_main_v12 (F := Ideal) (inpArr X) (matArr Wq) (biasArr bq) (matArr Wk) (biasArr bk) i
      = ((∑ d : Fin 1024, Attn.proj X Wq bq (i 0) (i 1) d * Attn.proj X Wk bk (i 0) (i 2) d : ℝ) : EReal) := by
  rw [Read.val_main_v12_apply, coe_sum]
  refine Finset.sum_congr rfl fun k _ => ?_
  rw [v3_apply, v7_apply, EReal.coe_mul]
  rfl

/-- The scaled scores (operation 15). -/
theorem v15_apply (X : Attn.Inp) (Wq : Attn.Mat) (bq : Attn.Bias) (Wk : Attn.Mat) (bk : Attn.Bias)
    (i : S4x2048x2048.Idx) :
    Read.val_main_v15 (F := Ideal) (inpArr X) (matArr Wq) (biasArr bq) (matArr Wk) (biasArr bk) i
      = ((Attn.score X Wq bq Wk bk (i 0) (i 1) (i 2) : ℝ) : EReal) := by
  rw [Read.val_main_v15_apply, v12_apply, v14_apply]
  show Ideal.div _ _ = _
  rw [Ideal.div_coe (by norm_num : (32 : ℝ) ≠ 0), ← EReal.coe_mul]
  unfold Attn.score
  congr 1
  ring

/-! ## The row maximum -/

/-- The shape fact behind the reduction over the keys, in the form that names the inserted index. -/
theorem reduces_keys : S4x2048x2048.Reduces [2] S4x2048 := by decide

/-- The row's index with key `k` inserted is (batch, query, `k`). -/
theorem lift_keys (j : S4x2048.Idx) (k : Fin 2048) :
    reduces_keys.lift j k = ValueIdx.ix3 (j 0) (j 1) k := by
  funext c; apply Fin.ext
  match c with
  | ⟨0, _⟩ => rfl
  | ⟨1, _⟩ => rfl
  | ⟨2, _⟩ => rfl

/-- The reduce with a maximum body (operation 16): the largest score of the row. -/
theorem v16_apply (X : Attn.Inp) (Wq : Attn.Mat) (bq : Attn.Bias) (Wk : Attn.Mat) (bk : Attn.Bias)
    (j : S4x2048.Idx) :
    Read.val_main_v16 (F := Ideal) (inpArr X) (matArr Wq) (biasArr bq) (matArr Wk) (biasArr bk) j
      = ((Attn.rowMax (fun k => Attn.score X Wq bq Wk bk (j 0) (j 1) k) : ℝ) : EReal) := by
  unfold Read.val_main_v16
  rw [Host.reduce_eq_fold_single FloatOps.maximumf _ _ reducesTo_S4x2048x2048_S4x2048_d2 reduces_keys h_S_]
  have hf : (Read.val_main_v15 (F := Ideal) (inpArr X) (matArr Wq) (biasArr bq) (matArr Wk) (biasArr bk)
        ∘ reduces_keys.lift j)
      = fun k : Fin (S4x2048x2048.size 2) => ((Attn.score X Wq bq Wk bk (j 0) (j 1) k : ℝ) : EReal) :=
    funext fun k => (congrArg (Read.val_main_v15 (F := Ideal) (inpArr X) (matArr Wq) (biasArr bq) (matArr Wk)
      (biasArr bk)) (lift_keys j k)).trans (v15_apply X Wq bq Wk bk _)
  rw [hf, Read.val_main_cst_0_apply]
  show Finset.fold max (Ideal.ofBits .f32 0xFF800000#32) _ _ = _
  rw [ofBits_neg_inf]
  exact fold_max_coe (ι := Fin (S4x2048x2048.size 2)) Finset.univ ⟨⟨0, by decide⟩, Finset.mem_univ _⟩ _

/-- The maximum against minus infinity (operations `cst_1`, 17, 18) changes nothing. -/
theorem v18_apply (X : Attn.Inp) (Wq : Attn.Mat) (bq : Attn.Bias) (Wk : Attn.Mat) (bk : Attn.Bias)
    (j : S4x2048.Idx) :
    Read.val_main_v18 (F := Ideal) (inpArr X) (matArr Wq) (biasArr bq) (matArr Wk) (biasArr bk) j
      = ((Attn.rowMax (fun k => Attn.score X Wq bq Wk bk (j 0) (j 1) k) : ℝ) : EReal) := by
  rw [Read.val_main_v18_apply, Read.val_main_v17_apply, Read.val_main_cst_1_apply, v16_apply]
  show max (Ideal.ofBits .f32 0xFF800000#32) _ = _
  rw [ofBits_neg_inf]
  exact max_eq_right bot_le

end Cert.ReferenceIdeal.RefSide

end
-- ==== Proof.RefSide3.lean ====
/-
  The reference program over the reals, third part: the softmax weights and the weighted sum.

  Each score minus its row's maximum is a real, so its exponential is a positive real; the row's
  sum of these (started from zero) is a positive real, so the quotient is a real weight; and the
  weighted sum of the projected values over the 2048 keys is a real.  The result of the
  reference, as a function of the seven argument arrays, is therefore the image of `Attn.out`.
-/
import proofs.«132284_j80900003987672_2_alg».proof.Proof.RefSide2

noncomputable section

namespace Cert.ReferenceIdeal.RefSide

open Cert.ReferenceIdeal Cert.ReferenceIdeal.Gen Idealize.ShloMosaic Idealize.SL.Sem
open scoped BigOperators

/-! ## The shifted exponentials -/

/-- The row maximum broadcast back along the keys (operations 19, 20). -/
theorem v20_apply (X : Attn.Inp) (Wq : Attn.Mat) (bq : Attn.Bias) (Wk : Attn.Mat) (bk : Attn.Bias)
    (i : S4x2048x2048.Idx) :
    Read.val_main_v20 (F := Ideal) (inpArr X) (matArr Wq) (biasArr bq) (matArr Wk) (biasArr bk) i
      = ((Attn.rowMax (fun k => Attn.score X Wq bq Wk bk (i 0) (i 1) k) : ℝ) : EReal) := by
  rw [Read.val_main_v20_apply, Read.val_main_v19_apply, v18_apply]
  rfl

/-- The exponential of the score shifted by the row maximum (operations 21, 22). -/
theorem v22_apply (X : Attn.Inp) (Wq : Attn.Mat) (bq : Attn.Bias) (Wk : Attn.Mat) (bk : Attn.Bias)
    (i : S4x2048x2048.Idx) :
    Read.val_main_v22 (F := Ideal) (inpArr X) (matArr Wq) (biasArr bq) (matArr Wk) (biasArr bk) i
      = ((Real.exp (Attn.score X Wq bq Wk bk (i 0) (i 1) (i 2)
          - Attn.rowMax (fun k => Attn.score X Wq bq Wk bk (i 0) (i 1) k)) : ℝ) : EReal) := by
  rw [Read.val_main_v22_apply, Read.val_main_v21_apply, v15_apply, v20_apply]
  rw [Ideal.hostUnary_exp_def, Ideal.subf_def, ← EReal.coe_sub, Ideal.exp_coe]

/-! ## The row sums -/

/-- A row's sum of exponentials is positive. -/
theorem rowSum_pos (x : Fin 2048 → ℝ) : 0 < Attn.rowSum x :=
  Finset.sum_pos (fun _ _ => Real.exp_pos _) Finset.univ_nonempty

/-- The sum of the exponentials over the keys, from zero (operations `cst_2`, 23). -/
theorem v23_apply (X : Attn.Inp) (Wq : Attn.Mat) (bq : Attn.Bias) (Wk : Attn.Mat) (bk : Attn.Bias)
    (j : S4x2048.Idx) :
    Read.val_main_v23 (F := Ideal) (inpArr X) (matArr Wq) (biasArr bq) (matArr Wk) (biasArr bk) j
      = ((Attn.rowSum (fun k => Attn.score X Wq bq Wk bk (j 0) (j 1) k) : ℝ) : EReal) := by
  rw [Read.val_main_v23_apply, Read.val_main_cst_2_apply]
  show Ideal.ofBits .f32 0x00000000#32 + _ = _
  rw [Ideal.ofBits_zero_f32, zero_add]
  unfold Attn.rowSum
  rw [coe_sum]
  refine Finset.sum_congr rfl fun k _ => ?_
  rw [v22_apply]
  rfl

/-! ## The weights -/

/-- The softmax weight (operations 24, 25, 26): the exponential over the row's sum. -/
theorem v26_apply (X : Attn.Inp) (Wq : Attn.Mat) (bq : Attn.Bias) (Wk : Attn.Mat) (bk : Attn.Bias)
    (i : S4x2048x2048.Idx) :
    Read.val_main_v26 (F := Ideal) (inpArr X) (matArr Wq) (biasArr bq) (matArr Wk) (biasArr bk) i
      = ((Real.exp (Attn.score X Wq bq Wk bk (i 0) (i 1) (i 2)
            - Attn.rowMax (fun k => Attn.score X Wq bq Wk bk (i 0) (i 1) k))
          / Attn.rowSum (fun k => Attn.score X Wq bq Wk bk (i 0) (i 1) k) : ℝ) : EReal) := by
  rw [Read.val_main_v26_apply, v22_apply, Read.val_main_v25_apply, Read.val_main_v24_apply, v23_apply]
  show Ideal.div _ _ = _
  rw [Ideal.div_coe (rowSum_pos _).ne', ← EReal.coe_mul, mul_one_div]
  rfl

/-! ## The result -/

/-- The weighted sum of the projected values (operation 27) is attention over the reals. -/
theorem v27_apply (X : Attn.Inp) (Wq : Attn.Mat) (bq : Attn.Bias) (Wk : Attn.Mat) (bk : Attn.Bias)
    (Wv : Attn.Mat) (bv : Attn.Bias) (i : S4x2048x1024.Idx) :
    Read.val_main_v27 (F := Ideal) (inpArr X) (matArr Wq) (biasArr bq) (matArr Wk) (biasArr bk) (matArr Wv) (biasArr bv) i
      = ((Attn.out X Wq bq Wk bk Wv bv (i 0) (i 1) (i 2) : ℝ) : EReal) := by
  rw [Read.val_main_v27_apply]
  unfold Attn.out Attn.rowOut
  rw [coe_sum]
  refine Finset.sum_congr rfl fun k _ => ?_
  rw [v26_apply, v11_apply, EReal.coe_mul]
  rfl

/-- The reference's result as a function of the seven argument arrays. -/
def refTerm (a0 : (⟨S4x2048x1024, .f32⟩ : BufTy).Contents (Elt Ideal)) (a1 : (⟨S1024x1024, .f32⟩ : BufTy).Contents (Elt Ideal))
    (a2 : (⟨S1024, .f32⟩ : BufTy).Contents (Elt Ideal)) (a3 : (⟨S1024x1024, .f32⟩ : BufTy).Contents (Elt Ideal))
    (a4 : (⟨S1024, .f32⟩ : BufTy).Contents (Elt Ideal)) (a5 : (⟨S1024x1024, .f32⟩ : BufTy).Contents (Elt Ideal))
    (a6 : (⟨S1024, .f32⟩ : BufTy).Contents (Elt Ideal)) : (⟨S4x2048x1024, .f32⟩ : BufTy).Contents (Elt Ideal) :=
  Read.val_main_v27 (F := Ideal) a0 a1 a2 a3 a4 a5 a6

/-- What the reference's run leaves in its result buffer is `refTerm` of the argument buffers. -/
theorem res_eq_refTerm (m : (ℓ : Loc nD τ sig) → Buf (Elt Ideal) ℓ) (c : Dev nD) :
    Cert.ReferenceIdeal.Value.res_main_v27 (F := Ideal) m c
      = refTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  Read.val_main_v27_eq m c

/-- On images of real arrays the reference's result is the image of attention over the reals. -/
theorem refTerm_eq (X : Attn.Inp) (Wq : Attn.Mat) (bq : Attn.Bias) (Wk : Attn.Mat) (bk : Attn.Bias)
    (Wv : Attn.Mat) (bv : Attn.Bias) :
    refTerm (fun i : S4x2048x1024.Idx => ((X (i 0) (i 1) (i 2) : ℝ) : EReal))
        (fun i : S1024x1024.Idx => ((Wq (i 0) (i 1) : ℝ) : EReal)) (fun i : S1024.Idx => ((bq (i 0) : ℝ) : EReal))
        (fun i : S1024x1024.Idx => ((Wk (i 0) (i 1) : ℝ) : EReal)) (fun i : S1024.Idx => ((bk (i 0) : ℝ) : EReal))
        (fun i : S1024x1024.Idx => ((Wv (i 0) (i 1) : ℝ) : EReal)) (fun i : S1024.Idx => ((bv (i 0) : ℝ) : EReal))
      = fun i : S4x2048x1024.Idx => ((Attn.out X Wq bq Wk bk Wv bv (i 0) (i 1) (i 2) : ℝ) : EReal) :=
  funext fun i => v27_apply X Wq bq Wk bk Wv bv i

end Cert.ReferenceIdeal.RefSide

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/-
  From the printed precondition to "every input entry is a real number".

  The precondition is the conjunction ("and" of one-bit words) of seven tests, one per argument array, each the fold
  by "and" over all axes of the entrywise comparison |x| < +∞. The conjunction being 1, each test is 1, and then every
  entry of each array is an extended real that is neither +∞ nor −∞: a real number.
-/
import proofs.«132284_j80900003987672_2_alg».proof.Pre_finite_inputs
import proofs.«132284_j80900003987672_2_alg».proof.Proof.LibFiniteAll

noncomputable section

namespace Attn.Finite

open Idealize.ShloMosaic Idealize.ShloMosaic.ValueIdx Cert.Pre_finite_inputs Cert.Lib.FiniteAll

variable [Cert.Pre_finite_inputs.Facts]

/-- Under the printed precondition every entry of each of the seven argument arrays is a real number. -/
theorem finite_of_pre
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Attn.Finite

end
-- ==== Proof.lean ====
/-
  Single-head self-attention over f32[4, 2048, 1024]: a kernel of two regions against the plain two-pass reference.

  The kernel first projects: the input, flattened to 8192 rows, times the three transposed weight matrices laid side by
  side (the query third already multiplied by 1/32, as is the query bias), plus the concatenated bias row; the three
  column thirds are the queries, keys and values. Its second region walks, for each batch and each block of 1024 query
  rows, over the four blocks of 512 keys, keeping per row a running maximum m, a running denominator l and a running
  numerator acc: at a new block m' = max m (block maximum), l' = exp(m − m')·l + Σ exp(s − m'), acc' = exp(m − m')·acc +
  Σ exp(s − m')·v, starting from m = −∞, l = 0, acc = 0, and after the last block it writes acc / l.
  The reference computes q·kᵀ / sqrt(1024), the row maximum, exp of the shifted scores, their sum, the quotient, and the
  weighted sum of the values.

  Over the extended reals with every input entry a real number both are one function (Spec.lean): sqrt(1024) = 32 and
  the factor 1/32 moves from the query projection to the quotient of the dot product (a real identity: it is here that
  finiteness is used), and the running form of the softmax sums is the two-pass form because
  exp(x − m)·exp(m − m') = exp(x − m'), the first block starting from a zero sum.

  The modules: Spec (the function); KBody*/KData*/KRun* (each program's two regions run from any memory: what every
  store leaves, the running state per grid position, the buffers at each boundary of @main — once for the word-level
  program, once for the one read over the extended reals); Val0/Val1 (each region's result array as a whole, from its
  blocks); Host0/Host1 (the host operations around the regions read at an index); PayIdeal*/PayStep/FourSteps and
  LibOnlineSoftmax/LibFlashRow/FlashRowSpec (one key block's update and the four updates of a row); Bridge (the 1/32);
  Finite/LibFiniteAll (the precondition); RefSide*/RefFrame (the reference); KValue (the kernel's result over real
  inputs).
-/
import proofs.«132284_j80900003987672_2_alg».proof.Defs
import proofs.«132284_j80900003987672_2_alg».proof.Proof.Gen.Kernel
import proofs.«132284_j80900003987672_2_alg».proof.Proof.Gen.Kernel.Skeleton
import proofs.«132284_j80900003987672_2_alg».proof.Proof.Gen.Kernel.Launch
import proofs.«132284_j80900003987672_2_alg».proof.Proof.Gen.Kernel.Regions
import proofs.«132284_j80900003987672_2_alg».proof.Proof.Gen.Kernel.Points
import proofs.«132284_j80900003987672_2_alg».proof.Proof.Gen.KernelIdeal
import proofs.«132284_j80900003987672_2_alg».proof.Proof.Gen.KernelIdeal.Skeleton
import proofs.«132284_j80900003987672_2_alg».proof.Proof.Gen.KernelIdeal.Launch
import proofs.«132284_j80900003987672_2_alg».proof.Proof.Gen.KernelIdeal.Regions
import proofs.«132284_j80900003987672_2_alg».proof.Proof.Gen.KernelIdeal.Points
import proofs.«132284_j80900003987672_2_alg».proof.Proof.Gen.ReferenceIdeal
import proofs.«132284_j80900003987672_2_alg».proof.Proof.Gen.Pre_finite_inputs
import proofs.«132284_j80900003987672_2_alg».proof.Proof.KRunI
import proofs.«132284_j80900003987672_2_alg».proof.Proof.KRunB
import proofs.«132284_j80900003987672_2_alg».proof.Proof.KValue
import proofs.«132284_j80900003987672_2_alg».proof.Proof.RefFrame
import proofs.«132284_j80900003987672_2_alg».proof.Proof.RefSide3
import proofs.«132284_j80900003987672_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- An array of extended reals all of whose entries are real numbers is the array of its entries' real parts. -/
theorem real3 {n0 n1 n2 : Nat} (a : (⟨3, ![n0, n1, n2]⟩ : Shape).Idx → EReal) (h : ∀ i, ∃ r : ℝ, a i = (r : EReal)) :
    a = fun i => (((a (ix3 (i 0) (i 1) (i 2))).toReal : ℝ) : EReal) := by
  funext i; obtain ⟨r, hr⟩ := h i
  have e : a (ix3 (i 0) (i 1) (i 2)) = (r : EReal) := (congrArg a (eq_ix3 i).symm).trans hr
  show a i = (((a (ix3 (i 0) (i 1) (i 2))).toReal : ℝ) : EReal)
  rw [e, hr]; rfl
theorem real2 {n0 n1 : Nat} (a : (⟨2, ![n0, n1]⟩ : Shape).Idx → EReal) (h : ∀ i, ∃ r : ℝ, a i = (r : EReal)) :
    a = fun i => (((a (ix2 (i 0) (i 1))).toReal : ℝ) : EReal) := by
  funext i; obtain ⟨r, hr⟩ := h i
  have e : a (ix2 (i 0) (i 1)) = (r : EReal) := (congrArg a (eq_ix2 i).symm).trans hr
  show a i = (((a (ix2 (i 0) (i 1))).toReal : ℝ) : EReal)
  rw [e, hr]; rfl
theorem real1 {n0 : Nat} (a : (⟨1, ![n0]⟩ : Shape).Idx → EReal) (h : ∀ i, ∃ r : ℝ, a i = (r : EReal)) :
    a = fun i => (((a (ix1 (i 0))).toReal : ℝ) : EReal) := by
  funext i; obtain ⟨r, hr⟩ := h i
  have e : a (ix1 (i 0)) = (r : EReal) := (congrArg a (eq_ix1 i).symm).trans hr
  show a i = (((a (ix1 (i 0))).toReal : ℝ) : EReal)
  rw [e, hr]; rfl

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ
/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
/-- And the reference. -/
theorem frame_r : Cert.frame_ReferenceIdeal (hReferenceIdeal := Cert.ReferenceIdeal.Gen.facts) (hPre_finite_inputs := Cert.Pre_finite_inputs.Gen.facts) :=
  Cert.ReferenceIdeal.RefSide.ref_frame

/-- Under finite inputs both programs end with the attention of the seven real arrays: the kernel's two regions
    (projection with the 1/32 folded into the query weights, then the key-blocked running softmax) and the reference's
    two-pass softmax are one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hfin := fun c => @Attn.Finite.finite_of_pre Cert.Pre_finite_inputs.Gen.facts _ _ _ _ _ _ _ (hpre c)
  obtain ⟨X, hX⟩ : ∃ X : Dev Cert.KernelIdeal.nD → Attn.Inp, ∀ c : Dev Cert.KernelIdeal.nD, (m ((c.tc : Thread Cert.KernelIdeal.nD Cert.KernelIdeal.τ).loc Cert.KernelIdeal.main_arg0) : Cert.KernelIdeal.S4x2048x1024.Idx → EReal) = fun i => ((X c (i 0) (i 1) (i 2) : ℝ) : EReal) :=
    ⟨fun c b s h => (m ((c.tc : Thread Cert.KernelIdeal.nD Cert.KernelIdeal.τ).loc Cert.KernelIdeal.main_arg0) (ix3 b s h)).toReal, fun c => real3 _ (hfin c).1⟩
  obtain ⟨Wq, hWq⟩ : ∃ W : Dev Cert.KernelIdeal.nD → Attn.Mat, ∀ c : Dev Cert.KernelIdeal.nD, (m ((c.tc : Thread Cert.KernelIdeal.nD Cert.KernelIdeal.τ).loc Cert.KernelIdeal.main_arg1) : Cert.KernelIdeal.S1024x1024.Idx → EReal) = fun i => ((W c (i 0) (i 1) : ℝ) : EReal) :=
    ⟨fun c o h => (m ((c.tc : Thread Cert.KernelIdeal.nD Cert.KernelIdeal.τ).loc Cert.KernelIdeal.main_arg1) (ix2 o h)).toReal, fun c => real2 _ (hfin c).2.1⟩
  obtain ⟨bq, hbq⟩ : ∃ β : Dev Cert.KernelIdeal.nD → Attn.Bias, ∀ c : Dev Cert.KernelIdeal.nD, (m ((c.tc : Thread Cert.KernelIdeal.nD Cert.KernelIdeal.τ).loc Cert.KernelIdeal.main_arg2) : Cert.KernelIdeal.S1024.Idx → EReal) = fun i => ((β c (i 0) : ℝ) : EReal) :=
    ⟨fun c o => (m ((c.tc : Thread Cert.KernelIdeal.nD Cert.KernelIdeal.τ).loc Cert.KernelIdeal.main_arg2) (ix1 o)).toReal, fun c => real1 _ (hfin c).2.2.1⟩
  obtain ⟨Wk, hWk⟩ : ∃ W : Dev Cert.KernelIdeal.nD → Attn.Mat, ∀ c : Dev Cert.KernelIdeal.nD, (m ((c.tc : Thread Cert.KernelIdeal.nD Cert.KernelIdeal.τ).loc Cert.KernelIdeal.main_arg3) : Cert.KernelIdeal.S1024x1024.Idx → EReal) = fun i => ((W c (i 0) (i 1) : ℝ) : EReal) :=
    ⟨fun c o h => (m ((c.tc : Thread Cert.KernelIdeal.nD Cert.KernelIdeal.τ).loc Cert.KernelIdeal.main_arg3) (ix2 o h)).toReal, fun c => real2 _ (hfin c).2.2.2.1⟩
  obtain ⟨bk, hbk⟩ : ∃ β : Dev Cert.KernelIdeal.nD → Attn.Bias, ∀ c : Dev Cert.KernelIdeal.nD, (m ((c.tc : Thread Cert.KernelIdeal.nD Cert.KernelIdeal.τ).loc Cert.KernelIdeal.main_arg4) : Cert.KernelIdeal.S1024.Idx → EReal) = fun i => ((β c (i 0) : ℝ) : EReal) :=
    ⟨fun c o => (m ((c.tc : Thread Cert.KernelIdeal.nD Cert.KernelIdeal.τ).loc Cert.KernelIdeal.main_arg4) (ix1 o)).toReal, fun c => real1 _ (hfin c).2.2.2.2.1⟩
  obtain ⟨Wv, hWv⟩ : ∃ W : Dev Cert.KernelIdeal.nD → Attn.Mat, ∀ c : Dev Cert.KernelIdeal.nD, (m ((c.tc : Thread Cert.KernelIdeal.nD Cert.KernelIdeal.τ).loc Cert.KernelIdeal.main_arg5) : Cert.KernelIdeal.S1024x1024.Idx → EReal) = fun i => ((W c (i 0) (i 1) : ℝ) : EReal) :=
    ⟨fun c o h => (m ((c.tc : Thread Cert.KernelIdeal.nD Cert.KernelIdeal.τ).loc Cert.KernelIdeal.main_arg5) (ix2 o h)).toReal, fun c => real2 _ (hfin c).2.2.2.2.2.1⟩
  obtain ⟨bv, hbv⟩ : ∃ β : Dev Cert.KernelIdeal.nD → Attn.Bias, ∀ c : Dev Cert.KernelIdeal.nD, (m ((c.tc : Thread Cert.KernelIdeal.nD Cert.KernelIdeal.τ).loc Cert.KernelIdeal.main_arg6) : Cert.KernelIdeal.S1024.Idx → EReal) = fun i => ((β c (i 0) : ℝ) : EReal) :=
    ⟨fun c o => (m ((c.tc : Thread Cert.KernelIdeal.nD Cert.KernelIdeal.τ).loc Cert.KernelIdeal.main_arg6) (ix1 o)).toReal, fun c => real1 _ (hfin c).2.2.2.2.2.2⟩
  refine ⟨fun c => (fun i : Cert.KernelIdeal.S4x2048x1024.Idx => ((Attn.out (X c) (Wq c) (bq c) (Wk c) (bk c) (Wv c) (bv c) (i 0) (i 1) (i 2) : ℝ) : EReal)), ?_, ?_⟩
  · exact (θ_run Cert.KernelIdeal.defs _ _).mono (fun r h c => ⟨(h c).1.trans
        (Cert.KernelIdeal.Hand.value m ρ c (X c) (Wq c) (bq c) (Wk c) (bk c) (Wv c) (bv c) (hX c) (hWq c) (hbq c) (hWk c) (hbk c) (hWv c) (hbv c)), (h c).2⟩)
      (Cert.KernelIdeal.Hand.run_named (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.RefSide.res_eq_refTerm, (hagree c).1, (hagree c).2.1, (hagree c).2.2.1, (hagree c).2.2.2.1,
      (hagree c).2.2.2.2.1, (hagree c).2.2.2.2.2.1, (hagree c).2.2.2.2.2.2]
    refine Eq.trans ?_ (Cert.ReferenceIdeal.RefSide.refTerm_eq (X c) (Wq c) (bq c) (Wk c) (bk c) (Wv c) (bv c))
    rw [hX c, hWq c, hbq c, hWk c, hbk c, hWv c, hbv c]
    rfl

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
